-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg19 : FVec F S64x32 .f32) (main_arg20 : FVec F S32 .f32) (main_arg21 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S64x32 .f32 := Host.absf main_arg19
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg20
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg21
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg15 : FVec F S64 .f32) (main_arg16 : FVec F S64x32 .f32) (main_arg17 : FVec F S64x32 .f32) (main_arg18 : FVec F S64x32 .f32) (main_arg19 : FVec F S64x32 .f32) (main_arg20 : FVec F S32 .f32) (main_arg21 : FVec F S32 .f32) (main_v33 : IVec S_ 1) : IVec S_ 1 :=
  let main_v34 : FVec F S64 .f32 := Host.absf main_arg15
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg16
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S64x32 .f32 := Host.absf main_arg17
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S64x32 .f32 := Host.absf main_arg18
  let main_cst_18 : FVec F S_ .f32 := constant S_ .f32 0x7F800000#32
  let main_v50 : FVec F S64x32 .f32 := broadcastInDim S64x32 ![] bcast_S_S64x32 main_cst_18
  fn_part3 (F := F) main_arg19 main_arg20 main_arg21 main_v48 main_v49 main_v50

def fn_part1 {F : FTy → Type} [FloatOps F] (main_arg12 : FVec F S128x64 .f32) (main_arg13 : FVec F S128x64 .f32) (main_arg14 : FVec F S64 .f32) (main_arg15 : FVec F S64 .f32) (main_arg16 : FVec F S64x32 .f32) (main_arg17 : FVec F S64x32 .f32) (main_arg18 : FVec F S64x32 .f32) (main_arg19 : FVec F S64x32 .f32) (main_arg20 : FVec F S32 .f32) (main_arg21 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg12
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg13
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg14
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg15 main_arg16 main_arg17 main_arg18 main_arg19 main_arg20 main_arg21 main_v33

def fn {F : FTy → Type} [FloatOps F] (main_arg0 : FVec F S50000x128 .f32) (main_arg1 : FVec F S50000x128 .f32) (main_arg2 : IVec S600000 32) (main_arg3 : IVec S600000 32) (main_arg4 : IVec S600000 32) (main_arg5 : IVec S600000 32) (main_arg6 : IVec S600000 32) (main_arg7 : IVec S600000 32) (main_arg8 : IVec S600000 32) (main_arg9 : IVec S600000 32) (main_arg10 : FVec F S128x64 .f32) (main_arg11 : FVec F S128x64 .f32) (main_arg12 : FVec F S128x64 .f32) (main_arg13 : FVec F S128x64 .f32) (main_arg14 : FVec F S64 .f32) (main_arg15 : FVec F S64 .f32) (main_arg16 : FVec F S64x32 .f32) (main_arg17 : FVec F S64x32 .f32) (main_arg18 : FVec F S64x32 .f32) (main_arg19 : FVec F S64x32 .f32) (main_arg20 : FVec F S32 .f32) (main_arg21 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg10
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg11
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg12 main_arg13 main_arg14 main_arg15 main_arg16 main_arg17 main_arg18 main_arg19 main_arg20 main_arg21 main_v13 main_v16
-- ==== Kernel.lean ====
abbrev S50000x128 : Shape := ⟨2, ![50000, 128]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S128x128 : Shape := ⟨2, ![128, 128]⟩
abbrev S5000x128 : Shape := ⟨2, ![5000, 128]⟩
abbrev S50000x64 : Shape := ⟨2, ![50000, 64]⟩
abbrev S600000x64 : Shape := ⟨2, ![600000, 64]⟩
abbrev S1x64 : Shape := ⟨2, ![1, 64]⟩
abbrev S5000x64 : Shape := ⟨2, ![5000, 64]⟩
abbrev S5000x1 : Shape := ⟨2, ![5000, 1]⟩
abbrev S64x64 : Shape := ⟨2, ![64, 64]⟩
abbrev S50000x32 : Shape := ⟨2, ![50000, 32]⟩
abbrev S600000x32 : Shape := ⟨2, ![600000, 32]⟩
abbrev S1x32 : Shape := ⟨2, ![1, 32]⟩
abbrev S5000x32 : Shape := ⟨2, ![5000, 32]⟩
abbrev S100000x32 : Shape := ⟨2, ![100000, 32]⟩

abbrev nBuf : Space → Nat
  | .hbm => 173
  | .vmem => 64
  | .smem => 0
  | _ => 0

abbrev hbmTy0_0 (i : Nat) : BufTy := match i % 128 with
  | 0 => ⟨S50000x128, .f32⟩
  | 1 => ⟨S50000x128, .f32⟩
  | 2 => ⟨S600000, .i32⟩
  | 3 => ⟨S600000, .i32⟩
  | 4 => ⟨S600000, .i32⟩
  | 5 => ⟨S600000, .i32⟩
  | 6 => ⟨S600000, .i32⟩
  | 7 => ⟨S600000, .i32⟩
  | 8 => ⟨S600000, .i32⟩
  | 9 => ⟨S600000, .i32⟩
  | 10 => ⟨S128x64, .f32⟩
  | 11 => ⟨S128x64, .f32⟩
  | 12 => ⟨S128x64, .f32⟩
  | 13 => ⟨S128x64, .f32⟩
  | 14 => ⟨S64, .f32⟩
  | 15 => ⟨S64, .f32⟩
  | 16 => ⟨S64x32, .f32⟩
  | 17 => ⟨S64x32, .f32⟩
  | 18 => ⟨S64x32, .f32⟩
  | 19 => ⟨S64x32, .f32⟩
  | 20 => ⟨S32, .f32⟩
  | 21 => ⟨S32, .f32⟩
  | 22 => ⟨S_, .f32⟩
  | 23 => ⟨S600000, .f32⟩
  | 24 => ⟨S_, .f32⟩
  | 25 => ⟨S50000, .f32⟩
  | 26 => ⟨S600000x1, .i32⟩
  | 27 => ⟨S50000, .f32⟩
  | 28 => ⟨S50000x1, .f32⟩
  | 29 => ⟨S_, .f32⟩
  | 30 => ⟨S50000, .f32⟩
  | 31 => ⟨S600000x1, .i32⟩
  | 32 => ⟨S50000, .f32⟩
  | 33 => ⟨S50000x1, .f32⟩
  | 34 => ⟨S_, .f32⟩
  | 35 => ⟨S50000, .f32⟩
  | 36 => ⟨S600000x1, .i32⟩
  | 37 => ⟨S50000, .f32⟩
  | 38 => ⟨S50000x1, .f32⟩
  | 39 => ⟨S_, .f32⟩
  | 40 => ⟨S50000, .f32⟩
  | 41 => ⟨S600000x1, .i32⟩
  | 42 => ⟨S50000, .f32⟩
  | 43 => ⟨S50000x1, .f32⟩
  | 44 => ⟨S128x128, .f32⟩
  | 45 => ⟨S128x128, .f32⟩
  | 46 => ⟨S50000x128, .f32⟩
  | 47 => ⟨S50000x128, .f32⟩
  | 48 => ⟨S50000x64, .f32⟩
  | 49 => ⟨S50000x64, .f32⟩
  | 50 => ⟨S50000x64, .f32⟩
  | 51 => ⟨S50000x64, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x64, .f32⟩
  | 61 => ⟨S_, .f32⟩
  | 62 => ⟨S50000x64, .f32⟩
  | 63 => ⟨S600000x1, .i32⟩
  | 64 => ⟨S50000x64, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000x64, .f32⟩
  | 74 => ⟨S_, .f32⟩
  | 75 => ⟨S50000x64, .f32⟩
  | 76 => ⟨S600000x1, .i32⟩
  | 77 => ⟨S50000x64, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x64, .f32⟩
  | 87 => ⟨S_, .f32⟩
  | 88 => ⟨S50000x64, .f32⟩
  | 89 => ⟨S600000x1, .i32⟩
  | 90 => ⟨S50000x64, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x64, .f32⟩
  | 100 => ⟨S_, .f32⟩
  | 101 => ⟨S50000x64, .f32⟩
  | 102 => ⟨S600000x1, .i32⟩
  | 103 => ⟨S50000x64, .f32⟩
  | 104 => ⟨S1x64, .f32⟩
  | 105 => ⟨S50000x64, .f32⟩
  | 106 => ⟨S1x64, .f32⟩
  | 107 => ⟨S50000x64, .f32⟩
  | 108 => ⟨S64x64, .f32⟩
  | 109 => ⟨S64x64, .f32⟩
  | 110 => ⟨S50000x64, .f32⟩
  | 111 => ⟨S50000x64, .f32⟩
  | 112 => ⟨S50000x32, .f32⟩
  | 113 => ⟨S50000x32, .f32⟩
  | 114 => ⟨S50000x32, .f32⟩
  | 115 => ⟨S50000x32, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x32, .f32⟩
  | 125 => ⟨S_, .f32⟩
  | 126 => ⟨S50000x32, .f32⟩
  | 127 => ⟨S600000x1, .i32⟩
  | _ => ⟨S50000x128, .f32⟩

abbrev hbmTy0_1 (i : Nat) : BufTy := match i % 128 with
  | 0 => ⟨S50000x32, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x32, .f32⟩
  | 10 => ⟨S_, .f32⟩
  | 11 => ⟨S50000x32, .f32⟩
  | 12 => ⟨S600000x1, .i32⟩
  | 13 => ⟨S50000x32, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x32, .f32⟩
  | 23 => ⟨S_, .f32⟩
  | 24 => ⟨S50000x32, .f32⟩
  | 25 => ⟨S600000x1, .i32⟩
  | 26 => ⟨S50000x32, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x32, .f32⟩
  | 36 => ⟨S_, .f32⟩
  | 37 => ⟨S50000x32, .f32⟩
  | 38 => ⟨S600000x1, .i32⟩
  | 39 => ⟨S50000x32, .f32⟩
  | 40 => ⟨S1x32, .f32⟩
  | 41 => ⟨S50000x32, .f32⟩
  | 42 => ⟨S1x32, .f32⟩
  | 43 => ⟨S50000x32, .f32⟩
  | 44 => ⟨S100000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S64x64, .f32⟩
  | .local _ .vmem, ⟨40, _⟩ => ⟨S5000x64, .f32⟩
  | .local _ .vmem, ⟨41, _⟩ => ⟨S5000x64, .f32⟩
  | .local _ .vmem, ⟨42, _⟩ => ⟨S5000x32, .f32⟩
  | .local _ .vmem, ⟨43, _⟩ => ⟨S5000x32, .f32⟩
  | .local _ .vmem, ⟨44, _⟩ => ⟨S5000x1, .f32⟩
  | .local _ .vmem, ⟨45, _⟩ => ⟨S5000x1, .f32⟩
  | .local _ .vmem, ⟨46, _⟩ => ⟨S5000x32, .f32⟩
  | .local _ .vmem, ⟨47, _⟩ => ⟨S5000x32, .f32⟩
  | .local _ .vmem, ⟨48, _⟩ => ⟨S5000x1, .f32⟩
  | .local _ .vmem, ⟨49, _⟩ => ⟨S5000x1, .f32⟩
  | .local _ .vmem, ⟨50, _⟩ => ⟨S1x32, .f32⟩
  | .local _ .vmem, ⟨51, _⟩ => ⟨S5000x32, .f32⟩
  | .local _ .vmem, ⟨52, _⟩ => ⟨S5000x32, .f32⟩
  | .local _ .vmem, ⟨53, _⟩ => ⟨S5000x32, .f32⟩
  | .local _ .vmem, ⟨54, _⟩ => ⟨S5000x32, .f32⟩
  | .local _ .vmem, ⟨55, _⟩ => ⟨S5000x1, .f32⟩
  | .local _ .vmem, ⟨56, _⟩ => ⟨S5000x1, .f32⟩
  | .local _ .vmem, ⟨57, _⟩ => ⟨S5000x32, .f32⟩
  | .local _ .vmem, ⟨58, _⟩ => ⟨S5000x32, .f32⟩
  | .local _ .vmem, ⟨59, _⟩ => ⟨S5000x1, .f32⟩
  | .local _ .vmem, ⟨60, _⟩ => ⟨S5000x1, .f32⟩
  | .local _ .vmem, ⟨61, _⟩ => ⟨S1x32, .f32⟩
  | .local _ .vmem, ⟨62, _⟩ => ⟨S5000x32, .f32⟩
  | .local _ .vmem, ⟨63, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_12 : Ref sig .tc := ⟨.hbm, 91, rfl⟩
abbrev main_v55 : Ref sig .tc := ⟨.hbm, 92, rfl⟩
abbrev main_v56 : Ref sig .tc := ⟨.hbm, 93, rfl⟩
abbrev main_c_13 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_15 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_18 : Ref sig .tc := ⟨.hbm, 129, rfl⟩
abbrev main_v87 : Ref sig .tc := ⟨.hbm, 130, rfl⟩
abbrev main_v88 : Ref sig .tc := ⟨.hbm, 131, rfl⟩
abbrev main_c_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_21 : Ref sig .tc := ⟨.hbm, 142, rfl⟩
abbrev main_v97 : Ref sig .tc := ⟨.hbm, 143, rfl⟩
abbrev main_v98 : Ref sig .tc := ⟨.hbm, 144, rfl⟩
abbrev main_c_22 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_23 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_24 : Ref sig .tc := ⟨.hbm, 155, rfl⟩
abbrev main_v107 : Ref sig .tc := ⟨.hbm, 156, rfl⟩
abbrev main_v108 : Ref sig .tc := ⟨.hbm, 157, rfl⟩
abbrev main_c_25 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_26 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg5_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg3_1 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem3_1 : DmaSem sig := 49
abbrev cc6_sem4_0 : DmaSem sig := 50
abbrev cc6_sem5_0 : DmaSem sig := 51
abbrev cc6_sem5_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem3_1 : DmaSem sig := 60
abbrev cc7_sem4_0 : DmaSem sig := 61
abbrev cc7_sem5_0 : DmaSem sig := 62
abbrev cc7_sem5_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  concatenates_S128x64_S128x64_S128x128_d1 : Shape.Concatenates [S128x64, S128x64] S128x128 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x64_0_0 : S50000x128.Slices ![0, 0] S50000x64
  slices_S50000x128_S50000x64_0_64 : S50000x128.Slices ![0, 64] S50000x64
  bcast_S_S50000x64 : S_.BroadcastsInDim S50000x64 (![] : Fin 0 → Fin S50000x64.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S64x32_S64x32_S64x64_d1 : Shape.Concatenates [S64x32, S64x32] S64x64 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S50000x64_S50000x32_0_0 : S50000x64.Slices ![0, 0] S50000x32
  slices_S50000x64_S50000x32_0_32 : S50000x64.Slices ![0, 32] S50000x32
  bcast_S_S50000x32 : S_.BroadcastsInDim S50000x32 (![] : Fin 0 → Fin S50000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  concatenates_S50000x32_S50000x32_S100000x32_d0 : Shape.Concatenates [S50000x32, S50000x32] S100000x32 0
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S5000x64_S64x64_S5000x64_1_0_0_1_n_n_wf : DotDims.WF S5000x64 S64x64 S5000x64 [1] [0] [0] [1] [] []
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x32.size a ≤ S50000x32.size a
  hwx6_2 : ∀ i : grid6.Coords, EltTy.bits .f32 = 32 ∨ (Rect.block (s := S50000x32) S5000x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x32.size a ≤ S50000x32.size a
  hwx6_5 : ∀ i : grid6.Coords, EltTy.bits .f32 = 32 ∨ (Rect.block (s := S50000x32) S5000x32.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S50000x32.size a
  hwx7_0 : ∀ i : grid7.Coords, EltTy.bits .f32 = 32 ∨ (Rect.block (s := S50000x32) S5000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x32.size a ≤ S50000x32.size a
  hwx7_2 : ∀ i : grid7.Coords, EltTy.bits .f32 = 32 ∨ (Rect.block (s := S50000x32) S5000x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S50000x1.size a
  hwx7_3 : ∀ i : grid7.Coords, EltTy.bits .f32 = 32 ∨ (Rect.block (s := S50000x1) S5000x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x32.size a ≤ S50000x32.size a
  hwx7_5 : ∀ i : grid7.Coords, EltTy.bits .f32 = 32 ∨ (Rect.block (s := S50000x32) S5000x32.size (cc7_transform_5 i) (hinb7_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v4) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v106) S5000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v12) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v117) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v118) S5000x32.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v96) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v116) S5000x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v16) S5000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v119) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v120) S5000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000x64 : Shape := ⟨2, ![50000, 64]⟩
abbrev S_ : Shape := ⟨0, ![]⟩
abbrev S600000x1 : Shape := ⟨2, ![600000, 1]⟩
abbrev S600000x64 : Shape := ⟨2, ![600000, 64]⟩
abbrev S50000 : Shape := ⟨1, ![50000]⟩
abbrev S50000x1 : Shape := ⟨2, ![50000, 1]⟩
abbrev S1x64 : Shape := ⟨2, ![1, 64]⟩
abbrev S50000x32 : Shape := ⟨2, ![50000, 32]⟩
abbrev S600000x32 : Shape := ⟨2, ![600000, 32]⟩
abbrev S1x32 : Shape := ⟨2, ![1, 32]⟩
abbrev S100000x32 : Shape := ⟨2, ![100000, 32]⟩

abbrev nBuf : Space → Nat
  | .hbm => 253
  | .vmem => 0
  | .smem => 0
  | _ => 0

abbrev hbmTy0_0 (i : Nat) : BufTy := match i % 128 with
  | 0 => ⟨S50000x128, .f32⟩
  | 1 => ⟨S50000x128, .f32⟩
  | 2 => ⟨S600000, .i32⟩
  | 3 => ⟨S600000, .i32⟩
  | 4 => ⟨S600000, .i32⟩
  | 5 => ⟨S600000, .i32⟩
  | 6 => ⟨S600000, .i32⟩
  | 7 => ⟨S600000, .i32⟩
  | 8 => ⟨S600000, .i32⟩
  | 9 => ⟨S600000, .i32⟩
  | 10 => ⟨S128x64, .f32⟩
  | 11 => ⟨S128x64, .f32⟩
  | 12 => ⟨S128x64, .f32⟩
  | 13 => ⟨S128x64, .f32⟩
  | 14 => ⟨S64, .f32⟩
  | 15 => ⟨S64, .f32⟩
  | 16 => ⟨S64x32, .f32⟩
  | 17 => ⟨S64x32, .f32⟩
  | 18 => ⟨S64x32, .f32⟩
  | 19 => ⟨S64x32, .f32⟩
  | 20 => ⟨S32, .f32⟩
  | 21 => ⟨S32, .f32⟩
  | 22 => ⟨S50000x64, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x64, .f32⟩
  | 32 => ⟨S_, .f32⟩
  | 33 => ⟨S50000x64, .f32⟩
  | 34 => ⟨S600000x1, .i32⟩
  | 35 => ⟨S50000x64, .f32⟩
  | 36 => ⟨S_, .f32⟩
  | 37 => ⟨S600000, .f32⟩
  | 38 => ⟨S_, .f32⟩
  | 39 => ⟨S50000, .f32⟩
  | 40 => ⟨S600000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x64, .f32⟩
  | 47 => ⟨S50000x64, .f32⟩
  | 48 => ⟨S50000x64, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x64, .f32⟩
  | 58 => ⟨S_, .f32⟩
  | 59 => ⟨S50000x64, .f32⟩
  | 60 => ⟨S600000x1, .i32⟩
  | 61 => ⟨S50000x64, .f32⟩
  | 62 => ⟨S_, .f32⟩
  | 63 => ⟨S600000, .f32⟩
  | 64 => ⟨S_, .f32⟩
  | 65 => ⟨S50000, .f32⟩
  | 66 => ⟨S600000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S50000x64, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x64, .f32⟩
  | 88 => ⟨S_, .f32⟩
  | 89 => ⟨S50000x64, .f32⟩
  | 90 => ⟨S600000x1, .i32⟩
  | 91 => ⟨S50000x64, .f32⟩
  | 92 => ⟨S_, .f32⟩
  | 93 => ⟨S600000, .f32⟩
  | 94 => ⟨S_, .f32⟩
  | 95 => ⟨S50000, .f32⟩
  | 96 => ⟨S600000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x64, .f32⟩
  | 103 => ⟨S50000x64, .f32⟩
  | 104 => ⟨S50000x64, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x64, .f32⟩
  | 114 => ⟨S_, .f32⟩
  | 115 => ⟨S50000x64, .f32⟩
  | 116 => ⟨S600000x1, .i32⟩
  | 117 => ⟨S50000x64, .f32⟩
  | 118 => ⟨S_, .f32⟩
  | 119 => ⟨S600000, .f32⟩
  | 120 => ⟨S_, .f32⟩
  | 121 => ⟨S50000, .f32⟩
  | 122 => ⟨S600000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S50000x32, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000x32, .f32⟩
  | 22 => ⟨S_, .f32⟩
  | 23 => ⟨S50000x32, .f32⟩
  | 24 => ⟨S600000x1, .i32⟩
  | 25 => ⟨S50000x32, .f32⟩
  | 26 => ⟨S_, .f32⟩
  | 27 => ⟨S600000, .f32⟩
  | 28 => ⟨S_, .f32⟩
  | 29 => ⟨S50000, .f32⟩
  | 30 => ⟨S600000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x32, .f32⟩
  | 37 => ⟨S50000x32, .f32⟩
  | 38 => ⟨S50000x32, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x32, .f32⟩
  | 48 => ⟨S_, .f32⟩
  | 49 => ⟨S50000x32, .f32⟩
  | 50 => ⟨S600000x1, .i32⟩
  | 51 => ⟨S50000x32, .f32⟩
  | 52 => ⟨S_, .f32⟩
  | 53 => ⟨S600000, .f32⟩
  | 54 => ⟨S_, .f32⟩
  | 55 => ⟨S50000, .f32⟩
  | 56 => ⟨S600000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x32, .f32⟩
  | 63 => ⟨S50000x32, .f32⟩
  | 64 => ⟨S50000x32, .f32⟩
  | 65 => ⟨S1x32, .f32⟩
  | 66 => ⟨S50000x32, .f32⟩
  | 67 => ⟨S50000x32, .f32⟩
  | 68 => ⟨S50000x32, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x32, .f32⟩
  | 78 => ⟨S_, .f32⟩
  | 79 => ⟨S50000x32, .f32⟩
  | 80 => ⟨S600000x1, .i32⟩
  | 81 => ⟨S50000x32, .f32⟩
  | 82 => ⟨S_, .f32⟩
  | 83 => ⟨S600000, .f32⟩
  | 84 => ⟨S_, .f32⟩
  | 85 => ⟨S50000, .f32⟩
  | 86 => ⟨S600000x1, .i32⟩
  | 87 => ⟨S50000, .f32⟩
  | 88 => ⟨S_, .f32⟩
  | 89 => ⟨S50000, .f32⟩
  | 90 => ⟨S50000, .f32⟩
  | 91 => ⟨S50000x1, .f32⟩
  | 92 => ⟨S50000x32, .f32⟩
  | 93 => ⟨S50000x32, .f32⟩
  | 94 => ⟨S50000x32, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x32, .f32⟩
  | 104 => ⟨S_, .f32⟩
  | 105 => ⟨S50000x32, .f32⟩
  | 106 => ⟨S600000x1, .i32⟩
  | 107 => ⟨S50000x32, .f32⟩
  | 108 => ⟨S_, .f32⟩
  | 109 => ⟨S600000, .f32⟩
  | 110 => ⟨S_, .f32⟩
  | 111 => ⟨S50000, .f32⟩
  | 112 => ⟨S600000x1, .i32⟩
  | 113 => ⟨S50000, .f32⟩
  | 114 => ⟨S_, .f32⟩
  | 115 => ⟨S50000, .f32⟩
  | 116 => ⟨S50000, .f32⟩
  | 117 => ⟨S50000x1, .f32⟩
  | 118 => ⟨S50000x32, .f32⟩
  | 119 => ⟨S50000x32, .f32⟩
  | 120 => ⟨S50000x32, .f32⟩
  | 121 => ⟨S1x32, .f32⟩
  | 122 => ⟨S50000x32, .f32⟩
  | 123 => ⟨S50000x32, .f32⟩
  | 124 => ⟨S100000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_c_5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_7 : Ref sig .tc := ⟨.hbm, 62, rfl⟩
abbrev main_v31 : Ref sig .tc := ⟨.hbm, 63, rfl⟩
abbrev main_cst_8 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_10 : Ref sig .tc := ⟨.hbm, 79, rfl⟩
abbrev main_v45 : Ref sig .tc := ⟨.hbm, 80, rfl⟩
abbrev main_v46 : Ref sig .tc := ⟨.hbm, 81, rfl⟩
abbrev main_c_11 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_12 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_13 : Ref sig .tc := ⟨.hbm, 92, rfl⟩
abbrev main_v55 : Ref sig .tc := ⟨.hbm, 93, rfl⟩
abbrev main_cst_14 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_15 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_16 : Ref sig .tc := ⟨.hbm, 105, rfl⟩
abbrev main_v65 : Ref sig .tc := ⟨.hbm, 106, rfl⟩
abbrev main_v66 : Ref sig .tc := ⟨.hbm, 107, rfl⟩
abbrev main_c_17 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_18 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_19 : Ref sig .tc := ⟨.hbm, 118, rfl⟩
abbrev main_v75 : Ref sig .tc := ⟨.hbm, 119, rfl⟩
abbrev main_cst_20 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_21 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call0_cst : Ref sig .tc := ⟨.hbm, 134, rfl⟩
abbrev main_call0_v0 : Ref sig .tc := ⟨.hbm, 135, rfl⟩
abbrev main_v88 : Ref sig .tc := ⟨.hbm, 136, rfl⟩
abbrev main_call1_cst : Ref sig .tc := ⟨.hbm, 137, rfl⟩
abbrev main_call1_v0 : Ref sig .tc := ⟨.hbm, 138, rfl⟩
abbrev main_v89 : Ref sig .tc := ⟨.hbm, 139, rfl⟩
abbrev main_v90 : Ref sig .tc := ⟨.hbm, 140, rfl⟩
abbrev main_c_22 : Ref sig .tc := ⟨.hbm, 141, rfl⟩
abbrev main_v91 : Ref sig .tc := ⟨.hbm, 142, rfl⟩
abbrev main_v92 : Ref sig .tc := ⟨.hbm, 143, rfl⟩
abbrev main_c_23 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_24 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_25 : Ref sig .tc := ⟨.hbm, 154, rfl⟩
abbrev main_v101 : Ref sig .tc := ⟨.hbm, 155, rfl⟩
abbrev main_cst_26 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_27 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_c_28 : Ref sig .tc := ⟨.hbm, 167, rfl⟩
abbrev main_v111 : Ref sig .tc := ⟨.hbm, 168, rfl⟩
abbrev main_v112 : Ref sig .tc := ⟨.hbm, 169, rfl⟩
abbrev main_c_29 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_30 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_31 : Ref sig .tc := ⟨.hbm, 180, rfl⟩
abbrev main_v121 : Ref sig .tc := ⟨.hbm, 181, rfl⟩
abbrev main_cst_32 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_33 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_c_34 : Ref sig .tc := ⟨.hbm, 197, rfl⟩
abbrev main_v135 : Ref sig .tc := ⟨.hbm, 198, rfl⟩
abbrev main_v136 : Ref sig .tc := ⟨.hbm, 199, rfl⟩
abbrev main_c_35 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_cst_36 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_37 : Ref sig .tc := ⟨.hbm, 210, rfl⟩
abbrev main_v145 : Ref sig .tc := ⟨.hbm, 211, rfl⟩
abbrev main_cst_38 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_39 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_c_40 : Ref sig .tc := ⟨.hbm, 223, rfl⟩
abbrev main_v155 : Ref sig .tc := ⟨.hbm, 224, rfl⟩
abbrev main_v156 : Ref sig .tc := ⟨.hbm, 225, rfl⟩
abbrev main_c_41 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_cst_42 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_43 : Ref sig .tc := ⟨.hbm, 236, rfl⟩
abbrev main_v165 : Ref sig .tc := ⟨.hbm, 237, rfl⟩
abbrev main_cst_44 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_cst_45 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  concatenates_S50000x32_S50000x32_S100000x32_d0 : Shape.Concatenates [S50000x32, S50000x32] S100000x32 0
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  scatter_S50000_S600000x1_S600000_n_0_0_1_wf : ScatterDims.WF S50000 S600000x1 S600000 [] [0] [0] 1
  dot_S50000x64_S64x32_S50000x32_1_0_0_1_n_n_wf : DotDims.WF S50000x64 S64x32 S50000x32 [1] [0] [0] [1] [] []
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf

class Facts : Prop extends Facts₀ where

variable [Facts]
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.Spec.lean ====
/-
  The whole-array functions this certificate is stated over, at the ideal values (extended reals).

  A graph-convolution layer over two node types and four relations computes, per destination node type,
    act( S_a / max(deg_a, 1) + S_b / max(deg_b, 1) + bias ),
  where S_r is the sum, over the relation's edges landing on a node, of the projected features (x · W_r) of the edge's
  source, and deg_r the number of such edges. The kernels compute two things: the projection x · [W_a | W_b] for a
  node type's two outgoing relations at once (`proj`), and the normalise-add-bias(-rectify) step (`mix`, `mixRelu`).
  Gathering by source and summing by destination stay on the host in both programs.
-/
import proofs.«126396_j55757265437245_2_alg».proof.KernelIdeal
import Idealize.ShloMosaic.PureOps.Ideal
import Idealize.ShloMosaic.Lib.ValueIdx

noncomputable section

namespace Cert.Rgcn

open Idealize.ShloMosaic Idealize.ShloMosaic.ValueIdx Cert.KernelIdeal

/-- The float 1.0 and 0.0 at the ideal values. -/
abbrev one : Ideal .f32 := FloatOps.ofBits .f32 0x3F800000#32
abbrev zero : Ideal .f32 := FloatOps.ofBits .f32 0x00000000#32

/-- Row `i`'s degree entry of a column array [n, 1]. -/
abbrev colIdx (r : Fin 50000) : S50000x1.Idx := ix2 (n0 := 50000) (n1 := 1) r ⟨0, Nat.one_pos⟩
/-- Column `j`'s entry of a row array [1, 64] / [1, 32]. -/
abbrev rowIdx64 (q : Fin 64) : S1x64.Idx := ix2 (n0 := 1) (n1 := 64) ⟨0, Nat.one_pos⟩ q
abbrev rowIdx32 (q : Fin 32) : S1x32.Idx := ix2 (n0 := 1) (n1 := 32) ⟨0, Nat.one_pos⟩ q

/-- The projection of 128 input features by a 128 × 128 matrix: entry (r, q) is the sum over k of x[r, k] · w[k, q]. -/
def proj128 (x : FVec Ideal S50000x128 .f32) (w : FVec Ideal S128x128 .f32) : FVec Ideal S50000x128 .f32 :=
  fun i => ∑ k : Fin 128, x (ix2 (n0 := 50000) (n1 := 128) ⟨(i 0).val, (i 0).isLt⟩ k)
    * w (ix2 (n0 := 128) (n1 := 128) k ⟨(i 1).val, (i 1).isLt⟩)

/-- The projection of 64 hidden features by a 64 × 64 matrix. -/
def proj64 (x : FVec Ideal S50000x64 .f32) (w : FVec Ideal S64x64 .f32) : FVec Ideal S50000x64 .f32 :=
  fun i => ∑ k : Fin 64, x (ix2 (n0 := 50000) (n1 := 64) ⟨(i 0).val, (i 0).isLt⟩ k)
    * w (ix2 (n0 := 64) (n1 := 64) k ⟨(i 1).val, (i 1).isLt⟩)

/-- One entry of the normalise-add-bias step: s₁ / max(d₁, 1) + s₂ / max(d₂, 1) + b. -/
def mixAt (s1 d1 s2 d2 b : Ideal .f32) : Ideal .f32 :=
  FloatOps.addf (FloatOps.addf (FloatOps.divf s1 (FloatOps.maximumf d1 one)) (FloatOps.divf s2 (FloatOps.maximumf d2 one))) b

/-- The hidden layer's step over [50000, 64]: the two relations' sums divided by their clamped degrees (a column
    [50000, 1] each), the bias row [1, 64] added, rectified. -/
def mixRelu64 (s1 : FVec Ideal S50000x64 .f32) (d1 : FVec Ideal S50000x1 .f32) (s2 : FVec Ideal S50000x64 .f32)
    (d2 : FVec Ideal S50000x1 .f32) (b : FVec Ideal S1x64 .f32) : FVec Ideal S50000x64 .f32 :=
  fun i => FloatOps.maximumf (mixAt (s1 i) (d1 (colIdx ⟨(i 0).val, (i 0).isLt⟩)) (s2 i) (d2 (colIdx ⟨(i 0).val, (i 0).isLt⟩))
    (b (rowIdx64 ⟨(i 1).val, (i 1).isLt⟩))) zero

/-- The output layer's step over [50000, 32]: the same without the rectifier. -/
def mix32 (s1 : FVec Ideal S50000x32 .f32) (d1 : FVec Ideal S50000x1 .f32) (s2 : FVec Ideal S50000x32 .f32)
    (d2 : FVec Ideal S50000x1 .f32) (b : FVec Ideal S1x32 .f32) : FVec Ideal S50000x32 .f32 :=
  fun i => mixAt (s1 i) (d1 (colIdx ⟨(i 0).val, (i 0).isLt⟩)) (s2 i) (d2 (colIdx ⟨(i 0).val, (i 0).isLt⟩))
    (b (rowIdx32 ⟨(i 1).val, (i 1).isLt⟩))

end Cert.Rgcn

end
-- ==== Proof.Glue.lean ====
/-
  The host-side chains both programs share, each named as ONE function and never opened: an edge list's source
  indices made non-negative and laid out as a column; the number of edges landing on each node (a sum of ones by
  destination); a relation's aggregate (the rows of a projected feature array gathered by source and summed by
  destination); and the reference's own spelling of the normalise-add-bias step, with the clamped degree vector
  broadcast along the feature axis and the bias row broadcast along the node axis.
-/
import proofs.«126396_j55757265437245_2_alg».proof.Proof.Spec
import proofs.«126396_j55757265437245_2_alg».proof.ReferenceIdeal
import proofs.«126396_j55757265437245_2_alg».proof.Proof.Gen.ReferenceIdeal
import proofs.«126396_j55757265437245_2_alg».proof.Proof.Gen.KernelIdeal

noncomputable section

namespace Cert.Rgcn

open Idealize.ShloMosaic Cert.ReferenceIdeal Cert.ReferenceIdeal.Gen

/-- Source indices as the gather takes them: a negative index counts from the end (50000 added), then a column. -/
def srcCol (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- Destination indices as the scatter takes them: a column. -/
def dstCol (d : IVec S600000 32) : IVec S600000x1 32 :=
  broadcastInDim S600000x1 ![0] bcast_S600000_S600000x1_0 d

/-- The number of a relation's edges landing on each node: ones summed by destination into zeros. -/
def degOf (d : IVec S600000 32) : FVec Ideal S50000 .f32 :=
  Host.scatterAdd (F := Ideal) scatter_S50000_S600000x1_S600000_n_0_0_1
    (broadcastInDim S50000 ![] bcast_S_S50000 (constant (F := Ideal) S_ .f32 0x00000000#32)) (dstCol d)
    (broadcastInDim S600000 ![] bcast_S_S600000 (constant (F := Ideal) S_ .f32 0x3F800000#32))

/-- A relation's aggregate over 64 features: rows gathered by source, summed by destination into zeros. -/
def agg64 (M : FVec Ideal S50000x64 .f32) (s d : IVec S600000 32) : FVec Ideal S50000x64 .f32 :=
  Host.scatterAdd (F := Ideal) scatter_S50000x64_S600000x1_S600000x64_1_0_0_1
    (broadcastInDim S50000x64 ![] bcast_S_S50000x64 (constant (F := Ideal) S_ .f32 0x00000000#32)) (dstCol d)
    (Host.gather gather_S50000x64_S600000x1_S600000x64_1_0_n_n_0_1_164 M (srcCol s))

/-- The same over 32 features. -/
def agg32 (M : FVec Ideal S50000x32 .f32) (s d : IVec S600000 32) : FVec Ideal S50000x32 .f32 :=
  Host.scatterAdd (F := Ideal) scatter_S50000x32_S600000x1_S600000x32_1_0_0_1
    (broadcastInDim S50000x32 ![] bcast_S_S50000x32 (constant (F := Ideal) S_ .f32 0x00000000#32)) (dstCol d)
    (Host.gather gather_S50000x32_S600000x1_S600000x32_1_0_n_n_0_1_132 M (srcCol s))

/-- A degree vector clamped below at one, as a column. -/
def clampCol (g : FVec Ideal S50000 .f32) : FVec Ideal S50000x1 .f32 :=
  broadcastInDim S50000x1 ![0] bcast_S50000_S50000x1_0
    (maximumf g (broadcastInDim S50000 ![] bcast_S_S50000 (constant (F := Ideal) S_ .f32 0x3F800000#32)))

/-- The reference's hidden-layer step: each aggregate over its clamped degree broadcast along the features, the two
    added, the bias broadcast along the nodes added, rectified against zeros. -/
def refMixRelu64 (s1 : FVec Ideal S50000x64 .f32) (g1 : FVec Ideal S50000 .f32) (s2 : FVec Ideal S50000x64 .f32)
    (g2 : FVec Ideal S50000 .f32) (bias : FVec Ideal S64 .f32) : FVec Ideal S50000x64 .f32 :=
  maximumf
    (addf
      (addf (Host.divf (F := Ideal) s1 (broadcastInDim S50000x64 ![0, 1] bcast_S50000x1_S50000x64_0_1 (clampCol g1)))
        (Host.divf (F := Ideal) s2 (broadcastInDim S50000x64 ![0, 1] bcast_S50000x1_S50000x64_0_1 (clampCol g2))))
      (broadcastInDim S50000x64 ![0, 1] bcast_S1x64_S50000x64_0_1 (broadcastInDim S1x64 ![1] bcast_S64_S1x64_1 bias)))
    (broadcastInDim S50000x64 ![] bcast_S_S50000x64 (constant (F := Ideal) S_ .f32 0x00000000#32))

/-- The reference's output-layer step: the same over 32 features without the rectifier. -/
def refMix32 (s1 : FVec Ideal S50000x32 .f32) (g1 : FVec Ideal S50000 .f32) (s2 : FVec Ideal S50000x32 .f32)
    (g2 : FVec Ideal S50000 .f32) (bias : FVec Ideal S32 .f32) : FVec Ideal S50000x32 .f32 :=
  addf
    (addf (Host.divf (F := Ideal) s1 (broadcastInDim S50000x32 ![0, 1] bcast_S50000x1_S50000x32_0_1 (clampCol g1)))
      (Host.divf (F := Ideal) s2 (broadcastInDim S50000x32 ![0, 1] bcast_S50000x1_S50000x32_0_1 (clampCol g2))))
    (broadcastInDim S50000x32 ![0, 1] bcast_S1x32_S50000x32_0_1 (broadcastInDim S1x32 ![1] bcast_S32_S1x32_1 bias))

/-! ## The kernel program's own host glue around its regions -/

/-- Two relations' weight matrices side by side along the output features: [128, 64] | [128, 64]. -/
def wcat128 (a b : FVec Ideal S128x64 .f32) : FVec Ideal Cert.KernelIdeal.S128x128 .f32 :=
  concatenate Cert.KernelIdeal.S128x128 1 [⟨Cert.KernelIdeal.S128x64, a⟩, ⟨Cert.KernelIdeal.S128x64, b⟩]
    Cert.KernelIdeal.Gen.concatenates_S128x64_S128x64_S128x128_d1

/-- [64, 32] | [64, 32]. -/
def wcat64 (a b : FVec Ideal S64x32 .f32) : FVec Ideal Cert.KernelIdeal.S64x64 .f32 :=
  concatenate Cert.KernelIdeal.S64x64 1 [⟨Cert.KernelIdeal.S64x32, a⟩, ⟨Cert.KernelIdeal.S64x32, b⟩]
    Cert.KernelIdeal.Gen.concatenates_S64x32_S64x32_S64x64_d1

/-- The left and the right 64 columns of a [50000, 128] array. -/
def colsL64 (x : FVec Ideal Cert.KernelIdeal.S50000x128 .f32) : FVec Ideal S50000x64 .f32 :=
  extractStridedSlice Cert.KernelIdeal.S50000x64 ![0, 0] x Cert.KernelIdeal.Gen.slices_S50000x128_S50000x64_0_0
def colsR64 (x : FVec Ideal Cert.KernelIdeal.S50000x128 .f32) : FVec Ideal S50000x64 .f32 :=
  extractStridedSlice Cert.KernelIdeal.S50000x64 ![0, 64] x Cert.KernelIdeal.Gen.slices_S50000x128_S50000x64_0_64

/-- The left and the right 32 columns of a [50000, 64] array. -/
def colsL32 (x : FVec Ideal S50000x64 .f32) : FVec Ideal S50000x32 .f32 :=
  extractStridedSlice Cert.KernelIdeal.S50000x32 ![0, 0] x Cert.KernelIdeal.Gen.slices_S50000x64_S50000x32_0_0
def colsR32 (x : FVec Ideal S50000x64 .f32) : FVec Ideal S50000x32 .f32 :=
  extractStridedSlice Cert.KernelIdeal.S50000x32 ![0, 32] x Cert.KernelIdeal.Gen.slices_S50000x64_S50000x32_0_32

/-- A per-node vector as a column [50000, 1] (the kernel program keeps the degrees so). -/
def colOf (g : FVec Ideal S50000 .f32) : FVec Ideal S50000x1 .f32 :=
  broadcastInDim Cert.KernelIdeal.S50000x1 ![0] Cert.KernelIdeal.Gen.bcast_S50000_S50000x1_0 g

/-- A bias vector as a row [1, 64] / [1, 32]. -/
def rowOf64 (b : FVec Ideal S64 .f32) : FVec Ideal S1x64 .f32 :=
  fun i => shapeCast Cert.KernelIdeal.S1x64 b Cert.KernelIdeal.Gen.shapeCasts_S64_S1x64 i
def rowOf32 (b : FVec Ideal S32 .f32) : FVec Ideal S1x32 .f32 :=
  fun i => shapeCast Cert.KernelIdeal.S1x32 b Cert.KernelIdeal.Gen.shapeCasts_S32_S1x32 i

end Cert.Rgcn

end
-- ==== Proof.LayerTerms.lean ====
/-
  The two programs' results as functions of the 22 argument arrays, layer by layer: the kernel program's spelling
  (one projection by two relations' joined weights, column halves, degree columns, bias rows) and the reference's (one
  projection per relation, broadcast vectors). Gathering by source and summing by destination are the same named
  functions in both.
-/
import proofs.«126396_j55757265437245_2_alg».proof.Proof.Glue

noncomputable section

namespace Cert.Rgcn

open Idealize.ShloMosaic Cert.ReferenceIdeal Cert.ReferenceIdeal.Gen

variable (x0 x1 : FVec Ideal S50000x128 .f32) (e2 e3 e4 e5 e6 e7 e8 e9 : IVec S600000 32)
  (w10 w11 w12 w13 : FVec Ideal S128x64 .f32) (b14 b15 : FVec Ideal S64 .f32)
  (w16 w17 w18 w19 : FVec Ideal S64x32 .f32) (b20 b21 : FVec Ideal S32 .f32)
  (hd hg : FVec Ideal S50000x64 .f32)

/-! ## The kernel program's layers -/

/-- Hidden drug features: relations drug→drug (left half of the drug projection) and gene→drug (left half of the gene
    projection). -/
def kHidD : FVec Ideal S50000x64 .f32 :=
  mixRelu64 (agg64 (colsL64 (proj128 x0 (wcat128 w10 w11))) e2 e3) (colOf (degOf e3))
    (agg64 (colsL64 (proj128 x1 (wcat128 w12 w13))) e6 e7) (colOf (degOf e7)) (rowOf64 b14)

/-- Hidden gene features: relations drug→gene and gene→gene (the right halves). -/
def kHidG : FVec Ideal S50000x64 .f32 :=
  mixRelu64 (agg64 (colsR64 (proj128 x0 (wcat128 w10 w11))) e4 e5) (colOf (degOf e5))
    (agg64 (colsR64 (proj128 x1 (wcat128 w12 w13))) e8 e9) (colOf (degOf e9)) (rowOf64 b15)

/-- Output drug embeddings from the hidden features `hd`, `hg`. -/
def kOutD : FVec Ideal S50000x32 .f32 :=
  mix32 (agg32 (colsL32 (proj64 hd (wcat64 w16 w17))) e2 e3) (colOf (degOf e3))
    (agg32 (colsL32 (proj64 hg (wcat64 w18 w19))) e6 e7) (colOf (degOf e7)) (rowOf32 b20)

/-- Output gene embeddings. -/
def kOutG : FVec Ideal S50000x32 .f32 :=
  mix32 (agg32 (colsR32 (proj64 hd (wcat64 w16 w17))) e4 e5) (colOf (degOf e5))
    (agg32 (colsR32 (proj64 hg (wcat64 w18 w19))) e8 e9) (colOf (degOf e9)) (rowOf32 b21)

/-- The drug rows above the gene rows. -/
def joinRows (a b : FVec Ideal S50000x32 .f32) : FVec Ideal S100000x32 .f32 :=
  concatenate S100000x32 0 [⟨S50000x32, a⟩, ⟨S50000x32, b⟩] concatenates_S50000x32_S50000x32_S100000x32_d0

/-- The kernel program's result. -/
def kernelOut : FVec Ideal S100000x32 .f32 :=
  joinRows
    (kOutD e2 e3 e6 e7 w16 w17 w18 w19 b20 (kHidD x0 x1 e2 e3 e6 e7 w10 w11 w12 w13 b14) (kHidG x0 x1 e4 e5 e8 e9 w10 w11 w12 w13 b15))
    (kOutG e4 e5 e8 e9 w16 w17 w18 w19 b21 (kHidD x0 x1 e2 e3 e6 e7 w10 w11 w12 w13 b14) (kHidG x0 x1 e4 e5 e8 e9 w10 w11 w12 w13 b15))

/-! ## The reference's layers -/

def rHidD : FVec Ideal S50000x64 .f32 :=
  refMixRelu64 (agg64 (Host.dotGeneral (F := Ideal) dot_S50000x128_S128x64_S50000x64_1_0_0_1_n_n none x0 w10) e2 e3) (degOf e3)
    (agg64 (Host.dotGeneral (F := Ideal) dot_S50000x128_S128x64_S50000x64_1_0_0_1_n_n none x1 w12) e6 e7) (degOf e7) b14

def rHidG : FVec Ideal S50000x64 .f32 :=
  refMixRelu64 (agg64 (Host.dotGeneral (F := Ideal) dot_S50000x128_S128x64_S50000x64_1_0_0_1_n_n none x0 w11) e4 e5) (degOf e5)
    (agg64 (Host.dotGeneral (F := Ideal) dot_S50000x128_S128x64_S50000x64_1_0_0_1_n_n none x1 w13) e8 e9) (degOf e9) b15

def rOutD : FVec Ideal S50000x32 .f32 :=
  refMix32 (agg32 (Host.dotGeneral (F := Ideal) dot_S50000x64_S64x32_S50000x32_1_0_0_1_n_n none hd w16) e2 e3) (degOf e3)
    (agg32 (Host.dotGeneral (F := Ideal) dot_S50000x64_S64x32_S50000x32_1_0_0_1_n_n none hg w18) e6 e7) (degOf e7) b20

def rOutG : FVec Ideal S50000x32 .f32 :=
  refMix32 (agg32 (Host.dotGeneral (F := Ideal) dot_S50000x64_S64x32_S50000x32_1_0_0_1_n_n none hd w17) e4 e5) (degOf e5)
    (agg32 (Host.dotGeneral (F := Ideal) dot_S50000x64_S64x32_S50000x32_1_0_0_1_n_n none hg w19) e8 e9) (degOf e9) b21

/-- The reference's result. -/
def refOut : FVec Ideal S100000x32 .f32 :=
  joinRows
    (rOutD e2 e3 e6 e7 w16 w18 b20 (rHidD x0 x1 e2 e3 e6 e7 w10 w12 b14) (rHidG x0 x1 e4 e5 e8 e9 w11 w13 b15))
    (rOutG e4 e5 e8 e9 w17 w19 b21 (rHidD x0 x1 e2 e3 e6 e7 w10 w12 b14) (rHidG x0 x1 e4 e5 e8 e9 w11 w13 b15))

end Cert.Rgcn

end
-- ==== Proof.KeptArgs.lean ====
/-
  The argument arrays at every boundary of the run: no host operation writes an argument and no kernel region has one
  as an output, so at each boundary between the program's stretches every argument still holds its launch contents.
-/
import proofs.«126396_j55757265437245_2_alg».proof.Proof.Gen.KernelIdeal.Frame
import proofs.«126396_j55757265437245_2_alg».proof.Proof.LibHostKeeps
import Idealize.ShloMosaic.PureOps.Ideal

noncomputable section

namespace Cert.Rgcn.Kept

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The program's 22 arguments, in order. -/
abbrev argRef : Fin 22 → Ref sig .tc := fun a => match a with
  | ⟨0, _⟩ => main_arg0 | ⟨1, _⟩ => main_arg1 | ⟨2, _⟩ => main_arg2 | ⟨3, _⟩ => main_arg3 | ⟨4, _⟩ => main_arg4
  | ⟨5, _⟩ => main_arg5 | ⟨6, _⟩ => main_arg6 | ⟨7, _⟩ => main_arg7 | ⟨8, _⟩ => main_arg8 | ⟨9, _⟩ => main_arg9
  | ⟨10, _⟩ => main_arg10 | ⟨11, _⟩ => main_arg11 | ⟨12, _⟩ => main_arg12 | ⟨13, _⟩ => main_arg13
  | ⟨14, _⟩ => main_arg14 | ⟨15, _⟩ => main_arg15 | ⟨16, _⟩ => main_arg16 | ⟨17, _⟩ => main_arg17
  | ⟨18, _⟩ => main_arg18 | ⟨19, _⟩ => main_arg19 | ⟨20, _⟩ => main_arg20 | ⟨21, _⟩ => main_arg21 | _ => main_arg0

/-- After the first host stretch (the degree counts and the joined weights) every argument holds its launch contents. -/
theorem args1 (c : Dev nD) (a : Fin 22) : W1 m ρ c (Proc.devRef .tc (argRef a)) = m ((c : Thread nD τ).loc (argRef a)) := by
  refine Eq.trans ?_ (rfl : W0 m ρ c (Proc.devRef .tc (argRef a)) = _)
  fin_cases a <;> host_keeps hostOps0

/-- After the first projection (it reads the drug features through an input window and writes none of the arguments). -/
theorem args2 (c : Dev nD) (a : Fin 22) : W2 m ρ c (Proc.devRef .tc (argRef a)) = m ((c : Thread nD τ).loc (argRef a)) := by
  refine Eq.trans ?_ (args1 m ρ c a)
  fin_cases a
  · exact (W2_arr m ρ c 0).trans (((dat0 (V1 m ρ) c).arrAt_in 0 rfl _).trans (A_eq0 (V1 m ρ) c 0))
  all_goals exact W2_of_ne m ρ c _ (by decide)

/-- After the second projection (it reads the gene features through an input window). -/
theorem args3 (c : Dev nD) (a : Fin 22) : W3 m ρ c (Proc.devRef .tc (argRef a)) = m ((c : Thread nD τ).loc (argRef a)) := by
  refine Eq.trans ?_ (args2 m ρ c a)
  fin_cases a
  · exact W3_of_ne m ρ c _ (by decide)
  · exact (W3_arr m ρ c 0).trans (((dat1 (V2 m ρ) c).arrAt_in 0 rfl _).trans (A_eq1 (V2 m ρ) c 0))
  all_goals exact W3_of_ne m ρ c _ (by decide)

set_option maxHeartbeats 8000000 in -- 22 buffers against a stretch of 58 operations
/-- After the hidden layer's gathers and sums. -/
theorem args4 (c : Dev nD) (a : Fin 22) : W4 m ρ c (Proc.devRef .tc (argRef a)) = m ((c : Thread nD τ).loc (argRef a)) := by
  refine Eq.trans ?_ (args3 m ρ c a)
  fin_cases a <;> host_keeps hostOps2

theorem args5 (c : Dev nD) (a : Fin 22) : W5 m ρ c (Proc.devRef .tc (argRef a)) = m ((c : Thread nD τ).loc (argRef a)) := by
  refine Eq.trans ?_ (args4 m ρ c a)
  fin_cases a <;> exact W5_of_ne m ρ c _ (by decide)

theorem args6 (c : Dev nD) (a : Fin 22) : W6 m ρ c (Proc.devRef .tc (argRef a)) = m ((c : Thread nD τ).loc (argRef a)) := by
  refine Eq.trans ?_ (args5 m ρ c a)
  fin_cases a <;> host_keeps hostOps3

theorem args7 (c : Dev nD) (a : Fin 22) : W7 m ρ c (Proc.devRef .tc (argRef a)) = m ((c : Thread nD τ).loc (argRef a)) := by
  refine Eq.trans ?_ (args6 m ρ c a)
  fin_cases a <;> exact W7_of_ne m ρ c _ (by decide)

theorem args8 (c : Dev nD) (a : Fin 22) : W8 m ρ c (Proc.devRef .tc (argRef a)) = m ((c : Thread nD τ).loc (argRef a)) := by
  refine Eq.trans ?_ (args7 m ρ c a)
  fin_cases a <;> host_keeps hostOps4

theorem args9 (c : Dev nD) (a : Fin 22) : W9 m ρ c (Proc.devRef .tc (argRef a)) = m ((c : Thread nD τ).loc (argRef a)) := by
  refine Eq.trans ?_ (args8 m ρ c a)
  fin_cases a <;> exact W9_of_ne m ρ c _ (by decide)

theorem args10 (c : Dev nD) (a : Fin 22) : W10 m ρ c (Proc.devRef .tc (argRef a)) = m ((c : Thread nD τ).loc (argRef a)) := by
  refine Eq.trans ?_ (args9 m ρ c a)
  fin_cases a <;> exact W10_of_ne m ρ c _ (by decide)

set_option maxHeartbeats 8000000 in -- 22 buffers against a stretch of 58 operations
/-- After the output layer's gathers and sums. -/
theorem args11 (c : Dev nD) (a : Fin 22) : W11 m ρ c (Proc.devRef .tc (argRef a)) = m ((c : Thread nD τ).loc (argRef a)) := by
  refine Eq.trans ?_ (args10 m ρ c a)
  fin_cases a <;> host_keeps hostOps6

theorem args12 (c : Dev nD) (a : Fin 22) : W12 m ρ c (Proc.devRef .tc (argRef a)) = m ((c : Thread nD τ).loc (argRef a)) := by
  refine Eq.trans ?_ (args11 m ρ c a)
  fin_cases a <;> exact W12_of_ne m ρ c _ (by decide)

end Cert.Rgcn.Kept

end
-- ==== Proof.ProjIn.lean ====
/-
  The input projection of the first node type: the region leaves the array x · w of the feature array [50000, 128] by the weight matrix [128, 128].
  Each of the ten grid points multiplies a block of 5000 rows by the whole weight matrix into a zero accumulator, the
  operands narrowed to bf16 first (the identity at the ideal values); entry (r, q) of a block's product is the sum over k of
  x[r, k] · w[k, q], and the ten row blocks tile the array, so the array left is the projection index by index.
-/
import proofs.«126396_j55757265437245_2_alg».proof.Proof.Spec
import proofs.«126396_j55757265437245_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.ProjIn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rgcn

-- the TensorCore's buffer contents when the region is entered
variable (V : (c : Dev nD) → (b : Ref sig .tc) → Buf (Elt Ideal) ((c : Thread nD τ).loc b))

/-! ## The block's product at an entry -/

/-- The contraction's left operand is read at the output's row and the contracted coordinate, -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and its right operand at the contracted coordinate and the output's column. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product at an entry: the sum over the contracted axis of the row of the feature block against the
    column of the weight block (the narrowing casts are the identity at the ideal values, the accumulator is zero). -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [ValueIdx.truncf_apply, ValueIdx.truncf_apply, shapeCast_self, el, er]

/-! ## From the row blocks to the array -/

theorem hz : (![0, 0] : Fin 2 → Nat) = fun _ => 0 := funext fun a => by fin_cases a <;> rfl

/-- The index maps over the grid of 10 points: the feature block moves with the output block down the rows, the
    weight block is the whole matrix, and the output's row-block index stays below 10. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The feature window's block at a point, read at an entry, is the array at the entry's place in the array. -/
theorem feat_block (c : Dev nD) (t : Fin cfg0.N) (j : S5000x128.Idx) (i : S50000x128.Idx)
    (h : ((cfg0.win 0).blk t).view.emb j = i) :
    iblk0 V c 0 t j = (V c (Pipeline.arrRef spec0 0) : FVec Ideal S50000x128 .f32) i := by
  subst h; rfl

/-- The weight window's block at a point, read at an entry, is the matrix at the entry's place in the matrix. -/
theorem weight_block (c : Dev nD) (t : Fin cfg0.N) (j : S128x128.Idx) (i : S128x128.Idx)
    (h : ((cfg0.win 1).blk t).view.emb j = i) :
    iblk0 V c 1 t j = (V c (Pipeline.arrRef spec0 1) : FVec Ideal S128x128 .f32) i := by
  subst h; rfl

set_option maxHeartbeats 1000000 in
/-- What a point writes back is its row block of the projection of the arrays as the region finds them: the
    feature block's row p is the array's row (block index) · 5000 + p, the weight block is the matrix itself. -/
theorem flushed_eq (c : Dev nD) (t : Fin cfg0.N) :
    (dat0 (F := Ideal) V c).flushed 2 t = ((cfg0.win 2).blk t).view.read (Elt Ideal)
      (proj128 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = proj128 (V c (Pipeline.arrRef spec0 0)) (V c (Pipeline.arrRef spec0 1)) (((cfg0.win 2).blk t).view.emb (ix2 p q))
  rw [pay_apply]
  unfold proj128
  refine Finset.sum_congr rfl fun k _ => ?_
  have h0 : ((cfg0.win 0).blk t).view.emb (ix2 p k)
      = ix2 (n0 := 50000) (n1 := 128) ⟨(((cfg0.win 2).blk t).view.emb (ix2 p q) 0).val, (((cfg0.win 2).blk t).view.emb (ix2 p q) 0).isLt⟩ k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q)
      = ix2 (n0 := 128) (n1 := 128) k ⟨(((cfg0.win 2).blk t).view.emb (ix2 p q) 1).val, (((cfg0.win 2).blk t).view.emb (ix2 p q) 1).isLt⟩ := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [feat_block V c t (ix2 p k) _ h0, weight_block V c t (ix2 k q) _ h1]

/-- An index of the array is in a point's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v19).slice (win0_2.rect t)).set ↔ _
  rw [View.set_slice_whole, Rect.mem_set_unit]
  exact Iff.rfl

/-- The ten row blocks of 5000 rows fill the 50000 rows: row r is in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the projection of the feature array by the weight matrix, as the region
    finds them. -/
theorem final (c : Dev nD) :
    (dat0 (F := Ideal) V c).arrAt 2 cfg0.N = proj128 (V c (Pipeline.arrRef spec0 0)) (V c (Pipeline.arrRef spec0 1)) :=
  (dat0 V c).arrAt_eq_of_cover 2 (proj128 (V c (Pipeline.arrRef spec0 0)) (V c (Pipeline.arrRef spec0 1)))
    (fun t _ => flushed_eq V c t) cover

end Cert.Rgcn.ProjIn

end
-- ==== Proof.ProjInB.lean ====
/-
  The input projection of the second node type: the region leaves the array x · w of the feature array [50000, 128] by the weight matrix [128, 128].
  Each of the ten grid points multiplies a block of 5000 rows by the whole weight matrix into a zero accumulator, the
  operands narrowed to bf16 first (the identity at the ideal values); entry (r, q) of a block's product is the sum over k of
  x[r, k] · w[k, q], and the ten row blocks tile the array, so the array left is the projection index by index.
-/
import proofs.«126396_j55757265437245_2_alg».proof.Proof.Spec
import proofs.«126396_j55757265437245_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.ProjInB

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rgcn

-- the TensorCore's buffer contents when the region is entered
variable (V : (c : Dev nD) → (b : Ref sig .tc) → Buf (Elt Ideal) ((c : Thread nD τ).loc b))

/-! ## The block's product at an entry -/

/-- The contraction's left operand is read at the output's row and the contracted coordinate, -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and its right operand at the contracted coordinate and the output's column. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product at an entry: the sum over the contracted axis of the row of the feature block against the
    column of the weight block (the narrowing casts are the identity at the ideal values, the accumulator is zero). -/
theorem pay_apply (x0 : Vec Ideal S5000x128 .f32) (x1 : Vec Ideal S128x128 .f32) (p : Fin 5000) (q : Fin 128) :
    k1_pay1 x0 x1 (ix2 p q) = ∑ k : Fin 128, x0 (ix2 p k) * x1 (ix2 k q) := by
  unfold k1_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [ValueIdx.truncf_apply, ValueIdx.truncf_apply, shapeCast_self, el, er]

/-! ## From the row blocks to the array -/

theorem hz : (![0, 0] : Fin 2 → Nat) = fun _ => 0 := funext fun a => by fin_cases a <;> rfl

/-- The index maps over the grid of 10 points: the feature block moves with the output block down the rows, the
    weight block is the whole matrix, and the output's row-block index stays below 10. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The feature window's block at a point, read at an entry, is the array at the entry's place in the array. -/
theorem feat_block (c : Dev nD) (t : Fin cfg1.N) (j : S5000x128.Idx) (i : S50000x128.Idx)
    (h : ((cfg1.win 0).blk t).view.emb j = i) :
    iblk1 V c 0 t j = (V c (Pipeline.arrRef spec1 0) : FVec Ideal S50000x128 .f32) i := by
  subst h; rfl

/-- The weight window's block at a point, read at an entry, is the matrix at the entry's place in the matrix. -/
theorem weight_block (c : Dev nD) (t : Fin cfg1.N) (j : S128x128.Idx) (i : S128x128.Idx)
    (h : ((cfg1.win 1).blk t).view.emb j = i) :
    iblk1 V c 1 t j = (V c (Pipeline.arrRef spec1 1) : FVec Ideal S128x128 .f32) i := by
  subst h; rfl

set_option maxHeartbeats 1000000 in
/-- What a point writes back is its row block of the projection of the arrays as the region finds them: the
    feature block's row p is the array's row (block index) · 5000 + p, the weight block is the matrix itself. -/
theorem flushed_eq (c : Dev nD) (t : Fin cfg1.N) :
    (dat1 (F := Ideal) V c).flushed 2 t = ((cfg1.win 2).blk t).view.read (Elt Ideal)
      (proj128 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = proj128 (V c (Pipeline.arrRef spec1 0)) (V c (Pipeline.arrRef spec1 1)) (((cfg1.win 2).blk t).view.emb (ix2 p q))
  rw [pay_apply]
  unfold proj128
  refine Finset.sum_congr rfl fun k _ => ?_
  have h0 : ((cfg1.win 0).blk t).view.emb (ix2 p k)
      = ix2 (n0 := 50000) (n1 := 128) ⟨(((cfg1.win 2).blk t).view.emb (ix2 p q) 0).val, (((cfg1.win 2).blk t).view.emb (ix2 p q) 0).isLt⟩ k := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  have h1 : ((cfg1.win 1).blk t).view.emb (ix2 k q)
      = ix2 (n0 := 128) (n1 := 128) k ⟨(((cfg1.win 2).blk t).view.emb (ix2 p q) 1).val, (((cfg1.win 2).blk t).view.emb (ix2 p q) 1).isLt⟩ := by
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  rw [feat_block V c t (ix2 p k) _ h0, weight_block V c t (ix2 k q) _ h1]

/-- An index of the array is in a point's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v20).slice (win1_2.rect t)).set ↔ _
  rw [View.set_slice_whole, Rect.mem_set_unit]
  exact Iff.rfl

/-- The ten row blocks of 5000 rows fill the 50000 rows: row r is in the block of point r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the projection of the feature array by the weight matrix, as the region
    finds them. -/
theorem final (c : Dev nD) :
    (dat1 (F := Ideal) V c).arrAt 2 cfg1.N = proj128 (V c (Pipeline.arrRef spec1 0)) (V c (Pipeline.arrRef spec1 1)) :=
  (dat1 V c).arrAt_eq_of_cover 2 (proj128 (V c (Pipeline.arrRef spec1 0)) (V c (Pipeline.arrRef spec1 1)))
    (fun t _ => flushed_eq V c t) cover

end Cert.Rgcn.ProjInB

end
-- ==== Proof.MixHidden.lean ====
/-
  The hidden layer's normalise-add-bias-rectify region. Its body stores, entry by entry, the maximum with zero of
  s₁ / max(d₁, 1) + s₂ / max(d₂, 1) + b, read off a row block of the two sums, the same rows of the two degree
  columns and the bias row; the ten row blocks of 5000 rows tile the array of 50000 rows, so the array the region
  leaves is that function of the five arrays it reads, at every index.
-/
import proofs.«126396_j55757265437245_2_alg».proof.Proof.Spec
import proofs.«126396_j55757265437245_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.MixHidden

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rgcn

-- The TensorCore's buffer contents when the region is entered.
variable (V : (c : Dev nD) → (b : Ref sig .tc) → Buf (Elt Ideal) ((c : Thread nD τ).loc b))

/-! ## One entry of the stored block -/

/-- The zero offsets of a whole-block access, as the constant function. -/
theorem zero_offsets : (![0, 0] : Fin 2 → Nat) = fun _ => 0 :=
  funext fun a => by match a with | ⟨0, _⟩ => rfl | ⟨1, _⟩ => rfl

/-- A degree column [5000, 1] stretched along the rows' entries: entry (p, q) is the column's entry at row p. -/
theorem stretch_column (v : FVec Ideal S5000x1 .f32) (p : Fin 5000) (q : Fin 64) :
    broadcastTo S5000x64 v broadcasts_S5000x1_S5000x64 (ix2 p q) = v (ix2 (n0 := 5000) (n1 := 1) p ⟨0, Nat.one_pos⟩) :=
  broadcastTo_apply v broadcasts_S5000x1_S5000x64 (ix2 p q) (ix2 (n0 := 5000) (n1 := 1) p ⟨0, Nat.one_pos⟩) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The bias row [1, 64] stretched down the rows: entry (p, q) is the row's entry at column q. -/
theorem stretch_row (v : FVec Ideal S1x64 .f32) (p : Fin 5000) (q : Fin 64) :
    broadcastTo S5000x64 v broadcasts_S1x64_S5000x64 (ix2 p q) = v (ix2 (n0 := 1) (n1 := 64) ⟨0, Nat.one_pos⟩ q) :=
  broadcastTo_apply v broadcasts_S1x64_S5000x64 (ix2 p q) (ix2 (n0 := 1) (n1 := 64) ⟨0, Nat.one_pos⟩ q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-- The body's stored value at entry (p, q) of the block, in terms of the five blocks it loads: the two sums at
    (p, q), the two degrees at row p, the bias at column q. -/
theorem stored_entry (x0 : Vec Ideal S5000x64 .f32) (x1 : Vec Ideal S5000x1 .f32) (x2 : Vec Ideal S5000x64 .f32)
    (x3 : Vec Ideal S5000x1 .f32) (x4 : Vec Ideal S1x64 .f32) (p : Fin 5000) (q : Fin 64) :
    k2_pay1 (F := Ideal) x1 x3 x0 x2 x4 (ix2 p q)
      = FloatOps.maximumf (mixAt (x0 (ix2 p q)) (x1 (ix2 (n0 := 5000) (n1 := 1) p ⟨0, Nat.one_pos⟩)) (x2 (ix2 p q)) (x3 (ix2 (n0 := 5000) (n1 := 1) p ⟨0, Nat.one_pos⟩)) (x4 (ix2 (n0 := 1) (n1 := 64) ⟨0, Nat.one_pos⟩ q))) zero := by
  unfold k2_pay1
  simp only [shapeCast_self]
  refine congrArg (fun e => FloatOps.maximumf e zero) ?_
  refine congrArg₂ FloatOps.addf (congrArg₂ FloatOps.addf (congrArg₂ FloatOps.divf rfl ?_) (congrArg₂ FloatOps.divf rfl ?_)) ?_
  · exact stretch_column _ p q
  · exact stretch_column _ p q
  · exact stretch_row x4 p q

/-- The stored entry is the specification's entry at an array index `i` as soon as the five block reads are the
    arrays' reads at `i`'s row and column. -/
theorem stored_entry_eq (x0 : Vec Ideal S5000x64 .f32) (x1 : Vec Ideal S5000x1 .f32) (x2 : Vec Ideal S5000x64 .f32)
    (x3 : Vec Ideal S5000x1 .f32) (x4 : Vec Ideal S1x64 .f32)
    (s1 : FVec Ideal S50000x64 .f32) (d1 : FVec Ideal S50000x1 .f32) (s2 : FVec Ideal S50000x64 .f32)
    (d2 : FVec Ideal S50000x1 .f32) (b : FVec Ideal S1x64 .f32)
    (p : Fin 5000) (q : Fin 64) (i : S50000x64.Idx)
    (h0 : x0 (ix2 p q) = s1 i)
    (h1 : x1 (ix2 (n0 := 5000) (n1 := 1) p ⟨0, Nat.one_pos⟩) = d1 (colIdx ⟨(i 0).val, (i 0).isLt⟩))
    (h2 : x2 (ix2 p q) = s2 i)
    (h3 : x3 (ix2 (n0 := 5000) (n1 := 1) p ⟨0, Nat.one_pos⟩) = d2 (colIdx ⟨(i 0).val, (i 0).isLt⟩))
    (h4 : x4 (ix2 (n0 := 1) (n1 := 64) ⟨0, Nat.one_pos⟩ q) = b (rowIdx64 ⟨(i 1).val, (i 1).isLt⟩)) :
    k2_pay1 (F := Ideal) x1 x3 x0 x2 x4 (ix2 p q) = mixRelu64 s1 d1 s2 d2 b i := by
  rw [stored_entry, h0, h1, h2, h3, h4]
  rfl

/-! ## The printed index maps, decided over the ten points -/

/-- The four row-blocked inputs move with the output (same row block, column block 0), the bias window stays at its
    one block, and the output's row block is one of the ten. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = win2_5.index t (0 : Fin 2) ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every one of the ten row blocks is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-! ## Each input block, read where the output's block lies -/

/-- The first relation's block of sums at a block index is the array at the output block's array index. -/
theorem read_sums1 (c : Dev nD) (t : Fin cfg2.N) (j : S5000x64.Idx) :
    iblk2 V c 0 t j = V c (Pipeline.arrRef spec2 0) (((cfg2.win 5).blk t).view.emb j) := by
  obtain ⟨e00, e01, e10, e11, e20, e21, e30, e31, e40, e41, -, e51⟩ := idx_facts t
  have hj0 : (j 0).val < 5000 := (j 0).isLt
  have hj1 : (j 1).val < 64 := (j 1).isLt
  show V c (Pipeline.arrRef spec2 0) (((cfg2.win 0).blk t).view.emb j) = V c (Pipeline.arrRef spec2 0) (((cfg2.win 5).blk t).view.emb j)
  refine congrArg _ (funext fun a => Fin.ext ?_)
  match a with
  | ⟨0, _⟩ => show win2_0.index t (0 : Fin 2) * 5000 + 1 * (j 0).val = win2_5.index t (0 : Fin 2) * 5000 + 1 * (j 0).val; omega
  | ⟨1, _⟩ => show win2_0.index t (1 : Fin 2) * 64 + 1 * (j 1).val = win2_5.index t (1 : Fin 2) * 64 + 1 * (j 1).val; omega

/-- The first relation's block of degrees at a row of the block is the degree column at the output block's array row. -/
theorem read_degrees1 (c : Dev nD) (t : Fin cfg2.N) (j : S5000x64.Idx) :
    iblk2 V c 1 t (ix2 (n0 := 5000) (n1 := 1) (j 0) ⟨0, Nat.one_pos⟩)
      = V c (Pipeline.arrRef spec2 1) (colIdx ⟨((((cfg2.win 5).blk t).view.emb j) 0).val, ((((cfg2.win 5).blk t).view.emb j) 0).isLt⟩) := by
  obtain ⟨e00, e01, e10, e11, e20, e21, e30, e31, e40, e41, -, e51⟩ := idx_facts t
  have hj0 : (j 0).val < 5000 := (j 0).isLt
  show V c (Pipeline.arrRef spec2 1) (((cfg2.win 1).blk t).view.emb (ix2 (n0 := 5000) (n1 := 1) (j 0) ⟨0, Nat.one_pos⟩))
    = V c (Pipeline.arrRef spec2 1) (colIdx ⟨((((cfg2.win 5).blk t).view.emb j) 0).val, ((((cfg2.win 5).blk t).view.emb j) 0).isLt⟩)
  refine congrArg _ (funext fun a => Fin.ext ?_)
  match a with
  | ⟨0, _⟩ => show win2_1.index t (0 : Fin 2) * 5000 + 1 * (j 0).val = win2_5.index t (0 : Fin 2) * 5000 + 1 * (j 0).val; omega
  | ⟨1, _⟩ => show win2_1.index t (1 : Fin 2) * 1 + 1 * 0 = 0; omega

/-- The second relation's block of sums at a block index is the array at the output block's array index. -/
theorem read_sums2 (c : Dev nD) (t : Fin cfg2.N) (j : S5000x64.Idx) :
    iblk2 V c 2 t j = V c (Pipeline.arrRef spec2 2) (((cfg2.win 5).blk t).view.emb j) := by
  obtain ⟨e00, e01, e10, e11, e20, e21, e30, e31, e40, e41, -, e51⟩ := idx_facts t
  have hj0 : (j 0).val < 5000 := (j 0).isLt
  have hj1 : (j 1).val < 64 := (j 1).isLt
  show V c (Pipeline.arrRef spec2 2) (((cfg2.win 2).blk t).view.emb j) = V c (Pipeline.arrRef spec2 2) (((cfg2.win 5).blk t).view.emb j)
  refine congrArg _ (funext fun a => Fin.ext ?_)
  match a with
  | ⟨0, _⟩ => show win2_2.index t (0 : Fin 2) * 5000 + 1 * (j 0).val = win2_5.index t (0 : Fin 2) * 5000 + 1 * (j 0).val; omega
  | ⟨1, _⟩ => show win2_2.index t (1 : Fin 2) * 64 + 1 * (j 1).val = win2_5.index t (1 : Fin 2) * 64 + 1 * (j 1).val; omega

/-- The second relation's block of degrees at a row of the block is the degree column at the output block's array row. -/
theorem read_degrees2 (c : Dev nD) (t : Fin cfg2.N) (j : S5000x64.Idx) :
    iblk2 V c 3 t (ix2 (n0 := 5000) (n1 := 1) (j 0) ⟨0, Nat.one_pos⟩)
      = V c (Pipeline.arrRef spec2 3) (colIdx ⟨((((cfg2.win 5).blk t).view.emb j) 0).val, ((((cfg2.win 5).blk t).view.emb j) 0).isLt⟩) := by
  obtain ⟨e00, e01, e10, e11, e20, e21, e30, e31, e40, e41, -, e51⟩ := idx_facts t
  have hj0 : (j 0).val < 5000 := (j 0).isLt
  show V c (Pipeline.arrRef spec2 3) (((cfg2.win 3).blk t).view.emb (ix2 (n0 := 5000) (n1 := 1) (j 0) ⟨0, Nat.one_pos⟩))
    = V c (Pipeline.arrRef spec2 3) (colIdx ⟨((((cfg2.win 5).blk t).view.emb j) 0).val, ((((cfg2.win 5).blk t).view.emb j) 0).isLt⟩)
  refine congrArg _ (funext fun a => Fin.ext ?_)
  match a with
  | ⟨0, _⟩ => show win2_3.index t (0 : Fin 2) * 5000 + 1 * (j 0).val = win2_5.index t (0 : Fin 2) * 5000 + 1 * (j 0).val; omega
  | ⟨1, _⟩ => show win2_3.index t (1 : Fin 2) * 1 + 1 * 0 = 0; omega

/-- The bias window's one block at a column is the bias row at the output block's array column. -/
theorem read_bias (c : Dev nD) (t : Fin cfg2.N) (j : S5000x64.Idx) :
    iblk2 V c 4 t (ix2 (n0 := 1) (n1 := 64) ⟨0, Nat.one_pos⟩ (j 1))
      = V c (Pipeline.arrRef spec2 4) (rowIdx64 ⟨((((cfg2.win 5).blk t).view.emb j) 1).val, ((((cfg2.win 5).blk t).view.emb j) 1).isLt⟩) := by
  obtain ⟨e00, e01, e10, e11, e20, e21, e30, e31, e40, e41, -, e51⟩ := idx_facts t
  have hj1 : (j 1).val < 64 := (j 1).isLt
  show V c (Pipeline.arrRef spec2 4) (((cfg2.win 4).blk t).view.emb (ix2 (n0 := 1) (n1 := 64) ⟨0, Nat.one_pos⟩ (j 1)))
    = V c (Pipeline.arrRef spec2 4) (rowIdx64 ⟨((((cfg2.win 5).blk t).view.emb j) 1).val, ((((cfg2.win 5).blk t).view.emb j) 1).isLt⟩)
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * (j 1).val = win2_5.index t (1 : Fin 2) * 64 + 1 * (j 1).val; omega

/-! ## What a point writes back -/

/-- What point `t` writes back is block `t` of the specification of the five arrays as the region finds them. -/
theorem flushed_eq (c : Dev nD) (t : Fin cfg2.N) :
    (dat2 (F := Ideal) V c).flushed 5 t = ((cfg2.win 5).blk t).view.read (Elt Ideal)
      (mixRelu64 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero zero_offsets]
  simp only [View.ld_unit_zero (S := S5000x64) zero_offsets, View.ld_unit_zero (S := S5000x1) zero_offsets,
    View.ld_unit_zero (S := S1x64) zero_offsets]
  funext j
  have hj : j = ix2 (n0 := 5000) (n1 := 64) (j 0) (j 1) := eq_ix2 (n0 := 5000) (n1 := 64) j
  refine (congrArg (k2_pay1 (F := Ideal) (iblk2 V c 1 t) (iblk2 V c 3 t) (iblk2 V c 0 t) (iblk2 V c 2 t) (iblk2 V c 4 t)) hj).trans ?_
  exact stored_entry_eq (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4))
    (j 0) (j 1) (((cfg2.win 5).blk t).view.emb j)
    ((congrArg (iblk2 V c 0 t) hj.symm).trans (read_sums1 V c t j))
    (read_degrees1 V c t j)
    ((congrArg (iblk2 V c 2 t) hj.symm).trans (read_sums2 V c t j))
    (read_degrees2 V c t j)
    (read_bias V c t j)

/-! ## The ten blocks tile the array -/

/-- An index of the array is in point `t`'s block iff each coordinate is in the block's range on its axis. -/
theorem mem_blk (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v66).slice (win2_5.rect t)).set ↔ _
  rw [View.set_slice_whole, Rect.mem_set_unit]
  exact Iff.rfl

/-- Row r lies in the block of the point whose row block is r / 5000, and every point writes back. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-! ## The array the region leaves -/

theorem final (c : Dev nD) :
    (dat2 (F := Ideal) V c).arrAt 5 cfg2.N
      = mixRelu64 (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5
    (mixRelu64 (V c (Pipeline.arrRef spec2 0)) (V c (Pipeline.arrRef spec2 1)) (V c (Pipeline.arrRef spec2 2))
      (V c (Pipeline.arrRef spec2 3)) (V c (Pipeline.arrRef spec2 4)))
    (fun t _ => flushed_eq V c t) cover

end Cert.Rgcn.MixHidden

end
-- ==== Proof.MixHiddenB.lean ====
/-
  The hidden layer's normalise-add-bias-rectify region. Its body stores, entry by entry, the maximum with zero of
  s₁ / max(d₁, 1) + s₂ / max(d₂, 1) + b, read off a row block of the two sums, the same rows of the two degree
  columns and the bias row; the ten row blocks of 5000 rows tile the array of 50000 rows, so the array the region
  leaves is that function of the five arrays it reads, at every index.
-/
import proofs.«126396_j55757265437245_2_alg».proof.Proof.Spec
import proofs.«126396_j55757265437245_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.MixHiddenB

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rgcn

-- The TensorCore's buffer contents when the region is entered.
variable (V : (c : Dev nD) → (b : Ref sig .tc) → Buf (Elt Ideal) ((c : Thread nD τ).loc b))

/-! ## One entry of the stored block -/

/-- The zero offsets of a whole-block access, as the constant function. -/
theorem zero_offsets : (![0, 0] : Fin 2 → Nat) = fun _ => 0 :=
  funext fun a => by match a with | ⟨0, _⟩ => rfl | ⟨1, _⟩ => rfl

/-- A degree column [5000, 1] stretched along the rows' entries: entry (p, q) is the column's entry at row p. -/
theorem stretch_column (v : FVec Ideal S5000x1 .f32) (p : Fin 5000) (q : Fin 64) :
    broadcastTo S5000x64 v broadcasts_S5000x1_S5000x64 (ix2 p q) = v (ix2 (n0 := 5000) (n1 := 1) p ⟨0, Nat.one_pos⟩) :=
  broadcastTo_apply v broadcasts_S5000x1_S5000x64 (ix2 p q) (ix2 (n0 := 5000) (n1 := 1) p ⟨0, Nat.one_pos⟩) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The bias row [1, 64] stretched down the rows: entry (p, q) is the row's entry at column q. -/
theorem stretch_row (v : FVec Ideal S1x64 .f32) (p : Fin 5000) (q : Fin 64) :
    broadcastTo S5000x64 v broadcasts_S1x64_S5000x64 (ix2 p q) = v (ix2 (n0 := 1) (n1 := 64) ⟨0, Nat.one_pos⟩ q) :=
  broadcastTo_apply v broadcasts_S1x64_S5000x64 (ix2 p q) (ix2 (n0 := 1) (n1 := 64) ⟨0, Nat.one_pos⟩ q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-- The body's stored value at entry (p, q) of the block, in terms of the five blocks it loads: the two sums at
    (p, q), the two degrees at row p, the bias at column q. -/
theorem stored_entry (x0 : Vec Ideal S5000x64 .f32) (x1 : Vec Ideal S5000x1 .f32) (x2 : Vec Ideal S5000x64 .f32)
    (x3 : Vec Ideal S5000x1 .f32) (x4 : Vec Ideal S1x64 .f32) (p : Fin 5000) (q : Fin 64) :
    k3_pay1 (F := Ideal) x1 x3 x0 x2 x4 (ix2 p q)
      = FloatOps.maximumf (mixAt (x0 (ix2 p q)) (x1 (ix2 (n0 := 5000) (n1 := 1) p ⟨0, Nat.one_pos⟩)) (x2 (ix2 p q)) (x3 (ix2 (n0 := 5000) (n1 := 1) p ⟨0, Nat.one_pos⟩)) (x4 (ix2 (n0 := 1) (n1 := 64) ⟨0, Nat.one_pos⟩ q))) zero := by
  unfold k3_pay1
  simp only [shapeCast_self]
  refine congrArg (fun e => FloatOps.maximumf e zero) ?_
  refine congrArg₂ FloatOps.addf (congrArg₂ FloatOps.addf (congrArg₂ FloatOps.divf rfl ?_) (congrArg₂ FloatOps.divf rfl ?_)) ?_
  · exact stretch_column _ p q
  · exact stretch_column _ p q
  · exact stretch_row x4 p q

/-- The stored entry is the specification's entry at an array index `i` as soon as the five block reads are the
    arrays' reads at `i`'s row and column. -/
theorem stored_entry_eq (x0 : Vec Ideal S5000x64 .f32) (x1 : Vec Ideal S5000x1 .f32) (x2 : Vec Ideal S5000x64 .f32)
    (x3 : Vec Ideal S5000x1 .f32) (x4 : Vec Ideal S1x64 .f32)
    (s1 : FVec Ideal S50000x64 .f32) (d1 : FVec Ideal S50000x1 .f32) (s2 : FVec Ideal S50000x64 .f32)
    (d2 : FVec Ideal S50000x1 .f32) (b : FVec Ideal S1x64 .f32)
    (p : Fin 5000) (q : Fin 64) (i : S50000x64.Idx)
    (h0 : x0 (ix2 p q) = s1 i)
    (h1 : x1 (ix2 (n0 := 5000) (n1 := 1) p ⟨0, Nat.one_pos⟩) = d1 (colIdx ⟨(i 0).val, (i 0).isLt⟩))
    (h2 : x2 (ix2 p q) = s2 i)
    (h3 : x3 (ix2 (n0 := 5000) (n1 := 1) p ⟨0, Nat.one_pos⟩) = d2 (colIdx ⟨(i 0).val, (i 0).isLt⟩))
    (h4 : x4 (ix2 (n0 := 1) (n1 := 64) ⟨0, Nat.one_pos⟩ q) = b (rowIdx64 ⟨(i 1).val, (i 1).isLt⟩)) :
    k3_pay1 (F := Ideal) x1 x3 x0 x2 x4 (ix2 p q) = mixRelu64 s1 d1 s2 d2 b i := by
  rw [stored_entry, h0, h1, h2, h3, h4]
  rfl

/-! ## The printed index maps, decided over the ten points -/

/-- The four row-blocked inputs move with the output (same row block, column block 0), the bias window stays at its
    one block, and the output's row block is one of the ten. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = win3_5.index t (0 : Fin 2) ∧ win3_2.index t (1 : Fin 2) = 0
    ∧ win3_3.index t (0 : Fin 2) = win3_5.index t (0 : Fin 2) ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- Every one of the ten row blocks is some point's. -/
theorem idx_onto : ∀ q0 : Fin 10, ∃ t : Fin cfg3.N, win3_5.index t = ![q0.val, 0] :=
  (by decide +kernel : ∀ q0 : Fin 10, ∃ t : Fin grid3.N, win3_5.index t = ![q0.val, 0])

/-! ## Each input block, read where the output's block lies -/

/-- The first relation's block of sums at a block index is the array at the output block's array index. -/
theorem read_sums1 (c : Dev nD) (t : Fin cfg3.N) (j : S5000x64.Idx) :
    iblk3 V c 0 t j = V c (Pipeline.arrRef spec3 0) (((cfg3.win 5).blk t).view.emb j) := by
  obtain ⟨e00, e01, e10, e11, e20, e21, e30, e31, e40, e41, -, e51⟩ := idx_facts t
  have hj0 : (j 0).val < 5000 := (j 0).isLt
  have hj1 : (j 1).val < 64 := (j 1).isLt
  show V c (Pipeline.arrRef spec3 0) (((cfg3.win 0).blk t).view.emb j) = V c (Pipeline.arrRef spec3 0) (((cfg3.win 5).blk t).view.emb j)
  refine congrArg _ (funext fun a => Fin.ext ?_)
  match a with
  | ⟨0, _⟩ => show win3_0.index t (0 : Fin 2) * 5000 + 1 * (j 0).val = win3_5.index t (0 : Fin 2) * 5000 + 1 * (j 0).val; omega
  | ⟨1, _⟩ => show win3_0.index t (1 : Fin 2) * 64 + 1 * (j 1).val = win3_5.index t (1 : Fin 2) * 64 + 1 * (j 1).val; omega

/-- The first relation's block of degrees at a row of the block is the degree column at the output block's array row. -/
theorem read_degrees1 (c : Dev nD) (t : Fin cfg3.N) (j : S5000x64.Idx) :
    iblk3 V c 1 t (ix2 (n0 := 5000) (n1 := 1) (j 0) ⟨0, Nat.one_pos⟩)
      = V c (Pipeline.arrRef spec3 1) (colIdx ⟨((((cfg3.win 5).blk t).view.emb j) 0).val, ((((cfg3.win 5).blk t).view.emb j) 0).isLt⟩) := by
  obtain ⟨e00, e01, e10, e11, e20, e21, e30, e31, e40, e41, -, e51⟩ := idx_facts t
  have hj0 : (j 0).val < 5000 := (j 0).isLt
  show V c (Pipeline.arrRef spec3 1) (((cfg3.win 1).blk t).view.emb (ix2 (n0 := 5000) (n1 := 1) (j 0) ⟨0, Nat.one_pos⟩))
    = V c (Pipeline.arrRef spec3 1) (colIdx ⟨((((cfg3.win 5).blk t).view.emb j) 0).val, ((((cfg3.win 5).blk t).view.emb j) 0).isLt⟩)
  refine congrArg _ (funext fun a => Fin.ext ?_)
  match a with
  | ⟨0, _⟩ => show win3_1.index t (0 : Fin 2) * 5000 + 1 * (j 0).val = win3_5.index t (0 : Fin 2) * 5000 + 1 * (j 0).val; omega
  | ⟨1, _⟩ => show win3_1.index t (1 : Fin 2) * 1 + 1 * 0 = 0; omega

/-- The second relation's block of sums at a block index is the array at the output block's array index. -/
theorem read_sums2 (c : Dev nD) (t : Fin cfg3.N) (j : S5000x64.Idx) :
    iblk3 V c 2 t j = V c (Pipeline.arrRef spec3 2) (((cfg3.win 5).blk t).view.emb j) := by
  obtain ⟨e00, e01, e10, e11, e20, e21, e30, e31, e40, e41, -, e51⟩ := idx_facts t
  have hj0 : (j 0).val < 5000 := (j 0).isLt
  have hj1 : (j 1).val < 64 := (j 1).isLt
  show V c (Pipeline.arrRef spec3 2) (((cfg3.win 2).blk t).view.emb j) = V c (Pipeline.arrRef spec3 2) (((cfg3.win 5).blk t).view.emb j)
  refine congrArg _ (funext fun a => Fin.ext ?_)
  match a with
  | ⟨0, _⟩ => show win3_2.index t (0 : Fin 2) * 5000 + 1 * (j 0).val = win3_5.index t (0 : Fin 2) * 5000 + 1 * (j 0).val; omega
  | ⟨1, _⟩ => show win3_2.index t (1 : Fin 2) * 64 + 1 * (j 1).val = win3_5.index t (1 : Fin 2) * 64 + 1 * (j 1).val; omega

/-- The second relation's block of degrees at a row of the block is the degree column at the output block's array row. -/
theorem read_degrees2 (c : Dev nD) (t : Fin cfg3.N) (j : S5000x64.Idx) :
    iblk3 V c 3 t (ix2 (n0 := 5000) (n1 := 1) (j 0) ⟨0, Nat.one_pos⟩)
      = V c (Pipeline.arrRef spec3 3) (colIdx ⟨((((cfg3.win 5).blk t).view.emb j) 0).val, ((((cfg3.win 5).blk t).view.emb j) 0).isLt⟩) := by
  obtain ⟨e00, e01, e10, e11, e20, e21, e30, e31, e40, e41, -, e51⟩ := idx_facts t
  have hj0 : (j 0).val < 5000 := (j 0).isLt
  show V c (Pipeline.arrRef spec3 3) (((cfg3.win 3).blk t).view.emb (ix2 (n0 := 5000) (n1 := 1) (j 0) ⟨0, Nat.one_pos⟩))
    = V c (Pipeline.arrRef spec3 3) (colIdx ⟨((((cfg3.win 5).blk t).view.emb j) 0).val, ((((cfg3.win 5).blk t).view.emb j) 0).isLt⟩)
  refine congrArg _ (funext fun a => Fin.ext ?_)
  match a with
  | ⟨0, _⟩ => show win3_3.index t (0 : Fin 2) * 5000 + 1 * (j 0).val = win3_5.index t (0 : Fin 2) * 5000 + 1 * (j 0).val; omega
  | ⟨1, _⟩ => show win3_3.index t (1 : Fin 2) * 1 + 1 * 0 = 0; omega

/-- The bias window's one block at a column is the bias row at the output block's array column. -/
theorem read_bias (c : Dev nD) (t : Fin cfg3.N) (j : S5000x64.Idx) :
    iblk3 V c 4 t (ix2 (n0 := 1) (n1 := 64) ⟨0, Nat.one_pos⟩ (j 1))
      = V c (Pipeline.arrRef spec3 4) (rowIdx64 ⟨((((cfg3.win 5).blk t).view.emb j) 1).val, ((((cfg3.win 5).blk t).view.emb j) 1).isLt⟩) := by
  obtain ⟨e00, e01, e10, e11, e20, e21, e30, e31, e40, e41, -, e51⟩ := idx_facts t
  have hj1 : (j 1).val < 64 := (j 1).isLt
  show V c (Pipeline.arrRef spec3 4) (((cfg3.win 4).blk t).view.emb (ix2 (n0 := 1) (n1 := 64) ⟨0, Nat.one_pos⟩ (j 1)))
    = V c (Pipeline.arrRef spec3 4) (rowIdx64 ⟨((((cfg3.win 5).blk t).view.emb j) 1).val, ((((cfg3.win 5).blk t).view.emb j) 1).isLt⟩)
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * (j 1).val = win3_5.index t (1 : Fin 2) * 64 + 1 * (j 1).val; omega

/-! ## What a point writes back -/

/-- What point `t` writes back is block `t` of the specification of the five arrays as the region finds them. -/
theorem flushed_eq (c : Dev nD) (t : Fin cfg3.N) :
    (dat3 (F := Ideal) V c).flushed 5 t = ((cfg3.win 5).blk t).view.read (Elt Ideal)
      (mixRelu64 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero zero_offsets]
  simp only [View.ld_unit_zero (S := S5000x64) zero_offsets, View.ld_unit_zero (S := S5000x1) zero_offsets,
    View.ld_unit_zero (S := S1x64) zero_offsets]
  funext j
  have hj : j = ix2 (n0 := 5000) (n1 := 64) (j 0) (j 1) := eq_ix2 (n0 := 5000) (n1 := 64) j
  refine (congrArg (k3_pay1 (F := Ideal) (iblk3 V c 1 t) (iblk3 V c 3 t) (iblk3 V c 0 t) (iblk3 V c 2 t) (iblk3 V c 4 t)) hj).trans ?_
  exact stored_entry_eq (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4))
    (j 0) (j 1) (((cfg3.win 5).blk t).view.emb j)
    ((congrArg (iblk3 V c 0 t) hj.symm).trans (read_sums1 V c t j))
    (read_degrees1 V c t j)
    ((congrArg (iblk3 V c 2 t) hj.symm).trans (read_sums2 V c t j))
    (read_degrees2 V c t j)
    (read_bias V c t j)

/-! ## The ten blocks tile the array -/

/-- An index of the array is in point `t`'s block iff each coordinate is in the block's range on its axis. -/
theorem mem_blk (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v68).slice (win3_5.rect t)).set ↔ _
  rw [View.set_slice_whole, Rect.mem_set_unit]
  exact Iff.rfl

/-- Row r lies in the block of the point whose row block is r / 5000, and every point writes back. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-! ## The array the region leaves -/

theorem final (c : Dev nD) :
    (dat3 (F := Ideal) V c).arrAt 5 cfg3.N
      = mixRelu64 (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5
    (mixRelu64 (V c (Pipeline.arrRef spec3 0)) (V c (Pipeline.arrRef spec3 1)) (V c (Pipeline.arrRef spec3 2))
      (V c (Pipeline.arrRef spec3 3)) (V c (Pipeline.arrRef spec3 4)))
    (fun t _ => flushed_eq V c t) cover

end Cert.Rgcn.MixHiddenB

end
-- ==== Proof.RunHidden.lean ====
/-
  The kernel program's run up to the hidden features: what each buffer holds at each boundary between the program's
  stretches (host operations, kernel regions), as a function of the argument arrays. The degree columns and the joined
  weights after the first host stretch; the two projections; the four aggregates; the two hidden-layer steps.
-/
import proofs.«126396_j55757265437245_2_alg».proof.Proof.Gen.KernelIdeal.Frame
import proofs.«126396_j55757265437245_2_alg».proof.Proof.LibHostKeeps
import proofs.«126396_j55757265437245_2_alg».proof.Proof.Glue
import proofs.«126396_j55757265437245_2_alg».proof.Proof.LayerTerms
import proofs.«126396_j55757265437245_2_alg».proof.Proof.KeptArgs
import proofs.«126396_j55757265437245_2_alg».proof.Proof.ProjIn
import proofs.«126396_j55757265437245_2_alg».proof.Proof.ProjInB
import proofs.«126396_j55757265437245_2_alg».proof.Proof.MixHidden
import proofs.«126396_j55757265437245_2_alg».proof.Proof.MixHiddenB

noncomputable section

namespace Cert.Rgcn.Run

open Idealize.ShloMosaic Idealize.ShloMosaic.TcCoe Idealize.SL.Sem Idealize.ShloMosaic.StableHlo
open Cert.KernelIdeal Cert.KernelIdeal.Gen Cert.Rgcn

variable (m : (ℓ : Loc nD τ sig) → Buf (Elt Ideal) ℓ) (ρ : Dev nD → PrngReg)

/-! ## The argument arrays at launch -/

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)
abbrev A14 (c : Dev nD) := m ((c : Thread nD τ).loc main_arg14)
abbrev A15 (c : Dev nD) := m ((c : Thread nD τ).loc main_arg15)
abbrev A16 (c : Dev nD) := m ((c : Thread nD τ).loc main_arg16)
abbrev A17 (c : Dev nD) := m ((c : Thread nD τ).loc main_arg17)
abbrev A18 (c : Dev nD) := m ((c : Thread nD τ).loc main_arg18)
abbrev A19 (c : Dev nD) := m ((c : Thread nD τ).loc main_arg19)
abbrev A20 (c : Dev nD) := m ((c : Thread nD τ).loc main_arg20)
abbrev A21 (c : Dev nD) := m ((c : Thread nD τ).loc main_arg21)

/-! ## Boundary 1: the degree columns and the joined first-layer weights -/

theorem W1_v4 (c : Dev nD) : W1 m ρ c (Proc.devRef .tc main_v4) = colOf (degOf (A3 m c)) := by
  show StableHlo.after hostOps0 (W0 m ρ c) (Proc.devRef .tc main_v4) = _
  after_results_simp
  rfl
theorem W1_v8 (c : Dev nD) : W1 m ρ c (Proc.devRef .tc main_v8) = colOf (degOf (A5 m c)) := by
  show StableHlo.after hostOps0 (W0 m ρ c) (Proc.devRef .tc main_v8) = _
  after_results_simp
  rfl
theorem W1_v12 (c : Dev nD) : W1 m ρ c (Proc.devRef .tc main_v12) = colOf (degOf (A7 m c)) := by
  show StableHlo.after hostOps0 (W0 m ρ c) (Proc.devRef .tc main_v12) = _
  after_results_simp
  rfl
theorem W1_v16 (c : Dev nD) : W1 m ρ c (Proc.devRef .tc main_v16) = colOf (degOf (A9 m c)) := by
  show StableHlo.after hostOps0 (W0 m ρ c) (Proc.devRef .tc main_v16) = _
  after_results_simp
  rfl
theorem W1_v17 (c : Dev nD) : W1 m ρ c (Proc.devRef .tc main_v17) = wcat128 (A10 m c) (A11 m c) := by
  show StableHlo.after hostOps0 (W0 m ρ c) (Proc.devRef .tc main_v17) = _
  after_results_simp
  rfl
theorem W1_v18 (c : Dev nD) : W1 m ρ c (Proc.devRef .tc main_v18) = wcat128 (A12 m c) (A13 m c) := by
  show StableHlo.after hostOps0 (W0 m ρ c) (Proc.devRef .tc main_v18) = _
  after_results_simp
  rfl

/-! ## Boundaries 2 and 3: the two projections -/

/-- The drug features projected by the joined drug→drug | drug→gene weights. -/
theorem W2_v19 (c : Dev nD) : W2 m ρ c (Proc.devRef .tc main_v19) = proj128 (A0 m c) (wcat128 (A10 m c) (A11 m c)) := by
  refine (W2_arr m ρ c 2).trans ((ProjIn.final (V1 m ρ) c).trans ?_)
  show proj128 (W1 m ρ c (Proc.devRef .tc main_arg0)) (W1 m ρ c (Proc.devRef .tc main_v17)) = _
  rw [W1_v17, show W1 m ρ c (Proc.devRef .tc main_arg0) = A0 m c from Kept.args1 m ρ c ⟨0, by decide⟩]

theorem W3_v19 (c : Dev nD) : W3 m ρ c (Proc.devRef .tc main_v19) = proj128 (A0 m c) (wcat128 (A10 m c) (A11 m c)) :=
  (W3_of_ne m ρ c main_v19 (by decide)).trans (W2_v19 m ρ c)

/-- The gene features projected by the joined gene→drug | gene→gene weights. -/
theorem W3_v20 (c : Dev nD) : W3 m ρ c (Proc.devRef .tc main_v20) = proj128 (A1 m c) (wcat128 (A12 m c) (A13 m c)) := by
  refine (W3_arr m ρ c 2).trans ((ProjInB.final (V2 m ρ) c).trans ?_)
  show proj128 (W2 m ρ c (Proc.devRef .tc main_arg1)) (W2 m ρ c (Proc.devRef .tc main_v18)) = _
  rw [show W2 m ρ c (Proc.devRef .tc main_v18) = wcat128 (A12 m c) (A13 m c) from
        (W2_of_ne m ρ c main_v18 (by decide)).trans (W1_v18 m ρ c),
      show W2 m ρ c (Proc.devRef .tc main_arg1) = A1 m c from Kept.args2 m ρ c ⟨1, by decide⟩]

/-! ## Boundary 4: the four aggregates and the drug bias row -/

theorem arg3_at3 (c : Dev nD) (k : Fin 22) : W3 m ρ c (Proc.devRef .tc (Kept.argRef k)) = m ((c : Thread nD τ).loc (Kept.argRef k)) :=
  Kept.args3 m ρ c k

/-- Drug→drug: the left half of the drug projection gathered by source and summed by destination. -/
theorem W4_v34 (c : Dev nD) : W4 m ρ c (Proc.devRef .tc main_v34)
    = agg64 (colsL64 (proj128 (A0 m c) (wcat128 (A10 m c) (A11 m c)))) (A2 m c) (A3 m c) := by
  have h : W4 m ρ c (Proc.devRef .tc main_v34) = agg64 (colsL64 (W3 m ρ c (Proc.devRef .tc main_v19)))
      (W3 m ρ c (Proc.devRef .tc main_arg2)) (W3 m ρ c (Proc.devRef .tc main_arg3)) := by
    show StableHlo.after hostOps2 (W3 m ρ c) (Proc.devRef .tc main_v34) = _
    after_results_simp
    rfl
  rw [h, W3_v19, show W3 m ρ c (Proc.devRef .tc main_arg2) = A2 m c from Kept.args3 m ρ c ⟨2, by decide⟩,
    show W3 m ρ c (Proc.devRef .tc main_arg3) = A3 m c from Kept.args3 m ρ c ⟨3, by decide⟩]

/-- Drug→gene: the right half of the drug projection. -/
theorem W4_v44 (c : Dev nD) : W4 m ρ c (Proc.devRef .tc main_v44)
    = agg64 (colsR64 (proj128 (A0 m c) (wcat128 (A10 m c) (A11 m c)))) (A4 m c) (A5 m c) := by
  have h : W4 m ρ c (Proc.devRef .tc main_v44) = agg64 (colsR64 (W3 m ρ c (Proc.devRef .tc main_v19)))
      (W3 m ρ c (Proc.devRef .tc main_arg4)) (W3 m ρ c (Proc.devRef .tc main_arg5)) := by
    show StableHlo.after hostOps2 (W3 m ρ c) (Proc.devRef .tc main_v44) = _
    after_results_simp
    rfl
  rw [h, W3_v19, show W3 m ρ c (Proc.devRef .tc main_arg4) = A4 m c from Kept.args3 m ρ c ⟨4, by decide⟩,
    show W3 m ρ c (Proc.devRef .tc main_arg5) = A5 m c from Kept.args3 m ρ c ⟨5, by decide⟩]

/-- Gene→drug: the left half of the gene projection. -/
theorem W4_v54 (c : Dev nD) : W4 m ρ c (Proc.devRef .tc main_v54)
    = agg64 (colsL64 (proj128 (A1 m c) (wcat128 (A12 m c) (A13 m c)))) (A6 m c) (A7 m c) := by
  have h : W4 m ρ c (Proc.devRef .tc main_v54) = agg64 (colsL64 (W3 m ρ c (Proc.devRef .tc main_v20)))
      (W3 m ρ c (Proc.devRef .tc main_arg6)) (W3 m ρ c (Proc.devRef .tc main_arg7)) := by
    show StableHlo.after hostOps2 (W3 m ρ c) (Proc.devRef .tc main_v54) = _
    after_results_simp
    rfl
  rw [h, W3_v20, show W3 m ρ c (Proc.devRef .tc main_arg6) = A6 m c from Kept.args3 m ρ c ⟨6, by decide⟩,
    show W3 m ρ c (Proc.devRef .tc main_arg7) = A7 m c from Kept.args3 m ρ c ⟨7, by decide⟩]

/-- Gene→gene: the right half of the gene projection. -/
theorem W4_v64 (c : Dev nD) : W4 m ρ c (Proc.devRef .tc main_v64)
    = agg64 (colsR64 (proj128 (A1 m c) (wcat128 (A12 m c) (A13 m c)))) (A8 m c) (A9 m c) := by
  have h : W4 m ρ c (Proc.devRef .tc main_v64) = agg64 (colsR64 (W3 m ρ c (Proc.devRef .tc main_v20)))
      (W3 m ρ c (Proc.devRef .tc main_arg8)) (W3 m ρ c (Proc.devRef .tc main_arg9)) := by
    show StableHlo.after hostOps2 (W3 m ρ c) (Proc.devRef .tc main_v64) = _
    after_results_simp
    rfl
  rw [h, W3_v20, show W3 m ρ c (Proc.devRef .tc main_arg8) = A8 m c from Kept.args3 m ρ c ⟨8, by decide⟩,
    show W3 m ρ c (Proc.devRef .tc main_arg9) = A9 m c from Kept.args3 m ρ c ⟨9, by decide⟩]

theorem W4_v65 (c : Dev nD) : W4 m ρ c (Proc.devRef .tc main_v65) = rowOf64 (A14 m c) := by
  have h : W4 m ρ c (Proc.devRef .tc main_v65) = rowOf64 (W3 m ρ c (Proc.devRef .tc main_arg14)) := by
    show StableHlo.after hostOps2 (W3 m ρ c) (Proc.devRef .tc main_v65) = _
    after_results_simp
    rfl
  rw [h, show W3 m ρ c (Proc.devRef .tc main_arg14) = A14 m c from Kept.args3 m ρ c ⟨14, by decide⟩]

/-! ## The degree columns, carried from boundary 1 -/

theorem deg_at4 (c : Dev nD) (b : Ref sig .tc) (h0 : ∀ w, Pipeline.arrRef spec0 w ≠ b) (h1 : ∀ w, Pipeline.arrRef spec1 w ≠ b)
    (h2 : W4 m ρ c (Proc.devRef .tc b) = W3 m ρ c (Proc.devRef .tc b)) :
    W4 m ρ c (Proc.devRef .tc b) = W1 m ρ c (Proc.devRef .tc b) :=
  h2.trans ((W3_of_ne m ρ c b h1).trans (W2_of_ne m ρ c b h0))

theorem W4_v4 (c : Dev nD) : W4 m ρ c (Proc.devRef .tc main_v4) = colOf (degOf (A3 m c)) :=
  (deg_at4 m ρ c main_v4 (by decide) (by decide) (by host_keeps hostOps2)).trans (W1_v4 m ρ c)
theorem W4_v8 (c : Dev nD) : W4 m ρ c (Proc.devRef .tc main_v8) = colOf (degOf (A5 m c)) :=
  (deg_at4 m ρ c main_v8 (by decide) (by decide) (by host_keeps hostOps2)).trans (W1_v8 m ρ c)
theorem W4_v12 (c : Dev nD) : W4 m ρ c (Proc.devRef .tc main_v12) = colOf (degOf (A7 m c)) :=
  (deg_at4 m ρ c main_v12 (by decide) (by decide) (by host_keeps hostOps2)).trans (W1_v12 m ρ c)
theorem W4_v16 (c : Dev nD) : W4 m ρ c (Proc.devRef .tc main_v16) = colOf (degOf (A9 m c)) :=
  (deg_at4 m ρ c main_v16 (by decide) (by decide) (by host_keeps hostOps2)).trans (W1_v16 m ρ c)

/-! ## Boundary 5: the hidden drug features -/

theorem W5_v66 (c : Dev nD) : W5 m ρ c (Proc.devRef .tc main_v66)
    = kHidD (A0 m c) (A1 m c) (A2 m c) (A3 m c) (A6 m c) (A7 m c) (A10 m c) (A11 m c) (A12 m c) (A13 m c) (A14 m c) := by
  refine (W5_arr m ρ c 5).trans ((MixHidden.final (V4 m ρ) c).trans ?_)
  show mixRelu64 (W4 m ρ c (Proc.devRef .tc main_v34)) (W4 m ρ c (Proc.devRef .tc main_v4))
      (W4 m ρ c (Proc.devRef .tc main_v54)) (W4 m ρ c (Proc.devRef .tc main_v12)) (W4 m ρ c (Proc.devRef .tc main_v65)) = _
  rw [W4_v34, W4_v4, W4_v54, W4_v12, W4_v65]
  rfl

/-! ## Boundaries 6 and 7: the gene bias row and the hidden gene features -/

theorem W6_v67 (c : Dev nD) : W6 m ρ c (Proc.devRef .tc main_v67) = rowOf64 (A15 m c) := by
  have h : W6 m ρ c (Proc.devRef .tc main_v67) = rowOf64 (W5 m ρ c (Proc.devRef .tc main_arg15)) := by
    show StableHlo.after hostOps3 (W5 m ρ c) (Proc.devRef .tc main_v67) = _
    after_results_simp
    rfl
  rw [h, show W5 m ρ c (Proc.devRef .tc main_arg15) = A15 m c from Kept.args5 m ρ c ⟨15, by decide⟩]

/-- A buffer that region 2 does not hold and the gene bias reshape does not write is at boundary 6 what it was at 4. -/
theorem at6_of4 (c : Dev nD) (b : Ref sig .tc) (h2 : ∀ w, Pipeline.arrRef spec2 w ≠ b)
    (h3 : W6 m ρ c (Proc.devRef .tc b) = W5 m ρ c (Proc.devRef .tc b)) :
    W6 m ρ c (Proc.devRef .tc b) = W4 m ρ c (Proc.devRef .tc b) :=
  h3.trans (W5_of_ne m ρ c b h2)

theorem W7_v68 (c : Dev nD) : W7 m ρ c (Proc.devRef .tc main_v68)
    = kHidG (A0 m c) (A1 m c) (A4 m c) (A5 m c) (A8 m c) (A9 m c) (A10 m c) (A11 m c) (A12 m c) (A13 m c) (A15 m c) := by
  refine (W7_arr m ρ c 5).trans ((MixHiddenB.final (V6 m ρ) c).trans ?_)
  show mixRelu64 (W6 m ρ c (Proc.devRef .tc main_v44)) (W6 m ρ c (Proc.devRef .tc main_v8))
      (W6 m ρ c (Proc.devRef .tc main_v64)) (W6 m ρ c (Proc.devRef .tc main_v16)) (W6 m ρ c (Proc.devRef .tc main_v67)) = _
  rw [(at6_of4 m ρ c main_v44 (by decide) (by host_keeps hostOps3)).trans (W4_v44 m ρ c),
    (at6_of4 m ρ c main_v8 (by decide) (by host_keeps hostOps3)).trans (W4_v8 m ρ c),
    (at6_of4 m ρ c main_v64 (by decide) (by host_keeps hostOps3)).trans (W4_v64 m ρ c),
    (at6_of4 m ρ c main_v16 (by decide) (by host_keeps hostOps3)).trans (W4_v16 m ρ c), W6_v67]
  rfl

/-- The hidden drug features are still in their buffer at boundary 7. -/
theorem W7_v66 (c : Dev nD) : W7 m ρ c (Proc.devRef .tc main_v66)
    = kHidD (A0 m c) (A1 m c) (A2 m c) (A3 m c) (A6 m c) (A7 m c) (A10 m c) (A11 m c) (A12 m c) (A13 m c) (A14 m c) :=
  (W7_of_ne m ρ c main_v66 (by decide)).trans
    ((show W6 m ρ c (Proc.devRef .tc main_v66) = W5 m ρ c (Proc.devRef .tc main_v66) by host_keeps hostOps3).trans (W5_v66 m ρ c))

end Cert.Rgcn.Run

end
-- ==== Proof.ProjHidden.lean ====
/-
  The hidden projection of the first node type: the region leaves the array x · w of the hidden array [50000, 64] by the weight matrix [64, 64].
  Each of the ten grid points multiplies a block of 5000 rows by the whole weight matrix into a zero accumulator, the
  operands narrowed to bf16 first (the identity at the ideal values); entry (r, q) of a block's product is the sum over k of
  x[r, k] · w[k, q], and the ten row blocks tile the array, so the array left is the projection index by index.
-/
import proofs.«126396_j55757265437245_2_alg».proof.Proof.Spec
import proofs.«126396_j55757265437245_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.ProjHidden

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rgcn

-- the TensorCore's buffer contents when the region is entered
variable (V : (c : Dev nD) → (b : Ref sig .tc) → Buf (Elt Ideal) ((c : Thread nD τ).loc b))

/-! ## The block's product at an entry -/

/-- The contraction's left operand is read at the output's row and the contracted coordinate, -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- and its right operand at the contracted coordinate and the output's column. -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's product at an entry: the sum over the contracted axis of the row of the feature block against the
    column of the weight block (the narrowing casts are the identity at the ideal values, the accumulator is zero). -/
theorem pay_apply (x0 : Vec Ideal S5000x64 .f32) (x1 : Vec Ideal S64x64 .f32) (p : Fin 5000) (q : Fin 64) :
    k4_pay1 x0 x1 (ix2 p q) = ∑ k : Fin 64, x0 (ix2 p k) * x1 (ix2 k q) := by
  unfold k4_pay1
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [ValueIdx.truncf_apply, ValueIdx.truncf_apply, shapeCast_self, shapeCast_self, el, er]

/-! ## From the row blocks to the array -/

theorem hz : (![0, 0] : Fin 2 → Nat) = fun _ => 0 := funext fun a => by fin_cases a <;> rfl

/-- The index maps over the grid of 10 points: the feature block moves with the output block down the rows, the
    weight block is the whole matrix, and the output's row-block index stays below 10. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every row block is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- The feature window's block at a point, read at an entry, is the array at the entry's place in the array. -/
theorem feat_block (c : Dev nD) (t : Fin cfg4.N) (j : S5000x64.Idx) (i : S50000x64.Idx)
    (h : ((cfg4.win 0).blk t).view.emb j = i) :
    iblk4 V c 0 t j = (V c (Pipeline.arrRef spec4 0) : FVec Ideal S50000x64 .f32) i := by
  subst h; rfl

/-- The weight window's block at a point, read at an entry, is the matrix at the entry's place in the matrix. -/
theorem weight_block (c : Dev nD) (t : Fin cfg4.N) (j : S64x64.Idx) (i : S64x64.Idx)
    (h : ((cfg4.win 1).blk t).view.emb j = i) :
    iblk4 V c 1 t j = (V c (Pipeline.arrRef spec4 1) : FVec Ideal S64x64 .f32) i := by
  subst h; rfl

set_option maxHeartbeats 1000000 in
/-- What a point writes back is its row block of the projection of the arrays as the region finds them: the
    feature block's row p is the array's row (block index) · 5000 + p, the weight block is the matrix itself. -/
theorem flushed_eq (c : Dev nD) (t : Fin cfg4.N) :
    (dat4 (F := Ideal) V c).flushed 2 t = ((cfg4.win 2).blk t).view.read (Elt Ideal)
      (proj64 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k4_pay1 (iblk4 V c 0 t) (iblk4 V c 1 t) (ix2 p q)
    = proj64 (V c (Pipeline.arrRef spec4 0)) (V c (Pipeline.arrRef spec4 1)) (((cfg4.win 2).blk t).view.emb (ix2 p q))
  rw [pay_apply]
  unfold proj64
  refine Finset.sum_congr rfl fun k _ => ?_
  have h0 : ((cfg4.win 0).blk t).view.emb (ix2 p k)
      = ix2 (n0 := 50000) (n1 := 64) ⟨(((cfg4.win 2).blk t).view.emb (ix2 p q) 0).val, (((cfg4.win 2).blk t).view.emb (ix2 p q) 0).isLt⟩ k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 64 + 1 * k.val = k.val; omega
  have h1 : ((cfg4.win 1).blk t).view.emb (ix2 k q)
      = ix2 (n0 := 64) (n1 := 64) k ⟨(((cfg4.win 2).blk t).view.emb (ix2 p q) 1).val, (((cfg4.win 2).blk t).view.emb (ix2 p q) 1).isLt⟩ := by
    funext a; apply Fin.ext
    match a with
    | ⟨0, _⟩ => show win4_1.index t (0 : Fin 2) * 64 + 1 * k.val = k.val; omega
    | ⟨1, _⟩ => show win4_1.index t (1 : Fin 2) * 64 + 1 * q.val = win4_2.index t (1 : Fin 2) * 64 + 1 * q.val; omega
  rw [feat_block V c t (ix2 p k) _ h0, weight_block V c t (ix2 k q) _ h1]

/-- An index of the array is in a point's block iff each coordinate is in the block's range on its axis. -/
theorem mem_blk (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v71).slice (win4_2.rect t)).set ↔ _
  rw [View.set_slice_whole, Rect.mem_set_unit]
  exact Iff.rfl

/-- The ten row blocks of 5000 rows fill the 50000 rows: row r is in the block of point r / 5000. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The output array after the region: the projection of the feature array by the weight matrix, as the region
    finds them. -/
theorem final (c : Dev nD) :
    (dat4 (F := Ideal) V c).arrAt 2 cfg4.N = proj64 (V c (Pipeline.arrRef spec4 0)) (V c (Pipeline.arrRef spec4 1)) :=
  (dat4 V c).arrAt_eq_of_cover 2 (proj64 (V c (Pipeline.arrRef spec4 0)) (V c (Pipeline.arrRef spec4 1)))
    (fun t _ => flushed_eq V c t) cover

end Cert.Rgcn.ProjHidden

end
-- ==== Proof.ProjHiddenB.lean ====
/-
  The hidden projection of the second node type: the region leaves the array x · w of the hidden array [50000, 64] by the weight matrix [64, 64].
  Each of the ten grid points multiplies a block of 5000 rows by the whole weight matrix into a zero accumulator, the
  operands narrowed to bf16 first (the identity at the ideal values); entry (r, q) of a block's product is the sum over k of
  x[r, k] · w[k, q], and the ten row blocks tile the array, so the array left is the projection index by index.
-/
import proofs.«126396_j55757265437245_2_alg».proof.Proof.Spec
import proofs.«126396_j55757265437245_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.ProjHiddenB

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rgcn

-- the TensorCore's buffer contents when the region is entered
variable (V : (c : Dev nD) → (b : Ref sig .tc) → Buf (Elt Ideal) ((c : Thread nD τ).loc b))

/-! ## The block's product at an entry -/

/-- The contraction's left operand is read at the output's row and the contracted coordinate, -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- and its right operand at the contracted coordinate and the output's column. -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's product at an entry: the sum over the contracted axis of the row of the feature block against the
    column of the weight block (the narrowing casts are the identity at the ideal values, the accumulator is zero). -/
theorem pay_apply (x0 : Vec Ideal S5000x64 .f32) (x1 : Vec Ideal S64x64 .f32) (p : Fin 5000) (q : Fin 64) :
    k5_pay1 x0 x1 (ix2 p q) = ∑ k : Fin 64, x0 (ix2 p k) * x1 (ix2 k q) := by
  unfold k5_pay1
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [ValueIdx.truncf_apply, ValueIdx.truncf_apply, shapeCast_self, shapeCast_self, el, er]

/-! ## From the row blocks to the array -/

theorem hz : (![0, 0] : Fin 2 → Nat) = fun _ => 0 := funext fun a => by fin_cases a <;> rfl

/-- The index maps over the grid of 10 points: the feature block moves with the output block down the rows, the
    weight block is the whole matrix, and the output's row-block index stays below 10. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Every row block is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- The feature window's block at a point, read at an entry, is the array at the entry's place in the array. -/
theorem feat_block (c : Dev nD) (t : Fin cfg5.N) (j : S5000x64.Idx) (i : S50000x64.Idx)
    (h : ((cfg5.win 0).blk t).view.emb j = i) :
    iblk5 V c 0 t j = (V c (Pipeline.arrRef spec5 0) : FVec Ideal S50000x64 .f32) i := by
  subst h; rfl

/-- The weight window's block at a point, read at an entry, is the matrix at the entry's place in the matrix. -/
theorem weight_block (c : Dev nD) (t : Fin cfg5.N) (j : S64x64.Idx) (i : S64x64.Idx)
    (h : ((cfg5.win 1).blk t).view.emb j = i) :
    iblk5 V c 1 t j = (V c (Pipeline.arrRef spec5 1) : FVec Ideal S64x64 .f32) i := by
  subst h; rfl

set_option maxHeartbeats 1000000 in
/-- What a point writes back is its row block of the projection of the arrays as the region finds them: the
    feature block's row p is the array's row (block index) · 5000 + p, the weight block is the matrix itself. -/
theorem flushed_eq (c : Dev nD) (t : Fin cfg5.N) :
    (dat5 (F := Ideal) V c).flushed 2 t = ((cfg5.win 2).blk t).view.read (Elt Ideal)
      (proj64 (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k5_pay1 (iblk5 V c 0 t) (iblk5 V c 1 t) (ix2 p q)
    = proj64 (V c (Pipeline.arrRef spec5 0)) (V c (Pipeline.arrRef spec5 1)) (((cfg5.win 2).blk t).view.emb (ix2 p q))
  rw [pay_apply]
  unfold proj64
  refine Finset.sum_congr rfl fun k _ => ?_
  have h0 : ((cfg5.win 0).blk t).view.emb (ix2 p k)
      = ix2 (n0 := 50000) (n1 := 64) ⟨(((cfg5.win 2).blk t).view.emb (ix2 p q) 0).val, (((cfg5.win 2).blk t).view.emb (ix2 p q) 0).isLt⟩ k := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 64 + 1 * k.val = k.val; omega
  have h1 : ((cfg5.win 1).blk t).view.emb (ix2 k q)
      = ix2 (n0 := 64) (n1 := 64) k ⟨(((cfg5.win 2).blk t).view.emb (ix2 p q) 1).val, (((cfg5.win 2).blk t).view.emb (ix2 p q) 1).isLt⟩ := by
    funext a; apply Fin.ext
    match a with
    | ⟨0, _⟩ => show win5_1.index t (0 : Fin 2) * 64 + 1 * k.val = k.val; omega
    | ⟨1, _⟩ => show win5_1.index t (1 : Fin 2) * 64 + 1 * q.val = win5_2.index t (1 : Fin 2) * 64 + 1 * q.val; omega
  rw [feat_block V c t (ix2 p k) _ h0, weight_block V c t (ix2 k q) _ h1]

/-- An index of the array is in a point's block iff each coordinate is in the block's range on its axis. -/
theorem mem_blk (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v72).slice (win5_2.rect t)).set ↔ _
  rw [View.set_slice_whole, Rect.mem_set_unit]
  exact Iff.rfl

/-- The ten row blocks of 5000 rows fill the 50000 rows: row r is in the block of point r / 5000. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The output array after the region: the projection of the feature array by the weight matrix, as the region
    finds them. -/
theorem final (c : Dev nD) :
    (dat5 (F := Ideal) V c).arrAt 2 cfg5.N = proj64 (V c (Pipeline.arrRef spec5 0)) (V c (Pipeline.arrRef spec5 1)) :=
  (dat5 V c).arrAt_eq_of_cover 2 (proj64 (V c (Pipeline.arrRef spec5 0)) (V c (Pipeline.arrRef spec5 1)))
    (fun t _ => flushed_eq V c t) cover

end Cert.Rgcn.ProjHiddenB

end
-- ==== Proof.MixOut.lean ====
/-
  The output layer's normalise-add-bias region. Its body stores, entry by entry,
  s₁ / max(d₁, 1) + s₂ / max(d₂, 1) + b, read off a row block of the two sums, the same rows of the two degree
  columns and the bias row; the ten row blocks of 5000 rows tile the array of 50000 rows, so the array the region
  leaves is that function of the five arrays it reads, at every index.
-/
import proofs.«126396_j55757265437245_2_alg».proof.Proof.Spec
import proofs.«126396_j55757265437245_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.MixOut

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rgcn

-- The TensorCore's buffer contents when the region is entered.
variable (V : (c : Dev nD) → (b : Ref sig .tc) → Buf (Elt Ideal) ((c : Thread nD τ).loc b))

/-! ## One entry of the stored block -/

/-- The zero offsets of a whole-block access, as the constant function. -/
theorem zero_offsets : (![0, 0] : Fin 2 → Nat) = fun _ => 0 :=
  funext fun a => by match a with | ⟨0, _⟩ => rfl | ⟨1, _⟩ => rfl

/-- A degree column [5000, 1] stretched along the rows' entries: entry (p, q) is the column's entry at row p. -/
theorem stretch_column (v : FVec Ideal S5000x1 .f32) (p : Fin 5000) (q : Fin 32) :
    broadcastTo S5000x32 v broadcasts_S5000x1_S5000x32 (ix2 p q) = v (ix2 (n0 := 5000) (n1 := 1) p ⟨0, Nat.one_pos⟩) :=
  broadcastTo_apply v broadcasts_S5000x1_S5000x32 (ix2 p q) (ix2 (n0 := 5000) (n1 := 1) p ⟨0, Nat.one_pos⟩) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The bias row [1, 32] stretched down the rows: entry (p, q) is the row's entry at column q. -/
theorem stretch_row (v : FVec Ideal S1x32 .f32) (p : Fin 5000) (q : Fin 32) :
    broadcastTo S5000x32 v broadcasts_S1x32_S5000x32 (ix2 p q) = v (ix2 (n0 := 1) (n1 := 32) ⟨0, Nat.one_pos⟩ q) :=
  broadcastTo_apply v broadcasts_S1x32_S5000x32 (ix2 p q) (ix2 (n0 := 1) (n1 := 32) ⟨0, Nat.one_pos⟩ q) (fun a => by
    match a with
    | ⟨0, _⟩ => show (0 : Nat) = if (1 : Nat) = 1 then 0 else p.val; rw [if_pos rfl]
    | ⟨1, _⟩ => show q.val = if (32 : Nat) = 1 then 0 else q.val; rw [if_neg (by decide)])

/-- The body's stored value at entry (p, q) of the block, in terms of the five blocks it loads: the two sums at
    (p, q), the two degrees at row p, the bias at column q. -/
theorem stored_entry (x0 : Vec Ideal S5000x32 .f32) (x1 : Vec Ideal S5000x1 .f32) (x2 : Vec Ideal S5000x32 .f32)
    (x3 : Vec Ideal S5000x1 .f32) (x4 : Vec Ideal S1x32 .f32) (p : Fin 5000) (q : Fin 32) :
    k6_pay1 (F := Ideal) x1 x3 x0 x2 x4 (ix2 p q)
      = mixAt (x0 (ix2 p q)) (x1 (ix2 (n0 := 5000) (n1 := 1) p ⟨0, Nat.one_pos⟩)) (x2 (ix2 p q)) (x3 (ix2 (n0 := 5000) (n1 := 1) p ⟨0, Nat.one_pos⟩)) (x4 (ix2 (n0 := 1) (n1 := 32) ⟨0, Nat.one_pos⟩ q)) := by
  unfold k6_pay1
  simp only [shapeCast_self]
  refine congrArg₂ FloatOps.addf (congrArg₂ FloatOps.addf (congrArg₂ FloatOps.divf rfl ?_) (congrArg₂ FloatOps.divf rfl ?_)) ?_
  · exact stretch_column _ p q
  · exact stretch_column _ p q
  · exact stretch_row x4 p q

/-- The stored entry is the specification's entry at an array index `i` as soon as the five block reads are the
    arrays' reads at `i`'s row and column. -/
theorem stored_entry_eq (x0 : Vec Ideal S5000x32 .f32) (x1 : Vec Ideal S5000x1 .f32) (x2 : Vec Ideal S5000x32 .f32)
    (x3 : Vec Ideal S5000x1 .f32) (x4 : Vec Ideal S1x32 .f32)
    (s1 : FVec Ideal S50000x32 .f32) (d1 : FVec Ideal S50000x1 .f32) (s2 : FVec Ideal S50000x32 .f32)
    (d2 : FVec Ideal S50000x1 .f32) (b : FVec Ideal S1x32 .f32)
    (p : Fin 5000) (q : Fin 32) (i : S50000x32.Idx)
    (h0 : x0 (ix2 p q) = s1 i)
    (h1 : x1 (ix2 (n0 := 5000) (n1 := 1) p ⟨0, Nat.one_pos⟩) = d1 (colIdx ⟨(i 0).val, (i 0).isLt⟩))
    (h2 : x2 (ix2 p q) = s2 i)
    (h3 : x3 (ix2 (n0 := 5000) (n1 := 1) p ⟨0, Nat.one_pos⟩) = d2 (colIdx ⟨(i 0).val, (i 0).isLt⟩))
    (h4 : x4 (ix2 (n0 := 1) (n1 := 32) ⟨0, Nat.one_pos⟩ q) = b (rowIdx32 ⟨(i 1).val, (i 1).isLt⟩)) :
    k6_pay1 (F := Ideal) x1 x3 x0 x2 x4 (ix2 p q) = mix32 s1 d1 s2 d2 b i := by
  rw [stored_entry, h0, h1, h2, h3, h4]
  rfl

/-! ## The printed index maps, decided over the ten points -/

/-- The four row-blocked inputs move with the output (same row block, column block 0), the bias window stays at its
    one block, and the output's row block is one of the ten. -/
theorem idx_facts : ∀ t : Fin cfg6.N,
    win6_0.index t (0 : Fin 2) = win6_5.index t (0 : Fin 2) ∧ win6_0.index t (1 : Fin 2) = 0
    ∧ win6_1.index t (0 : Fin 2) = win6_5.index t (0 : Fin 2) ∧ win6_1.index t (1 : Fin 2) = 0
    ∧ win6_2.index t (0 : Fin 2) = win6_5.index t (0 : Fin 2) ∧ win6_2.index t (1 : Fin 2) = 0
    ∧ win6_3.index t (0 : Fin 2) = win6_5.index t (0 : Fin 2) ∧ win6_3.index t (1 : Fin 2) = 0
    ∧ win6_4.index t (0 : Fin 2) = 0 ∧ win6_4.index t (1 : Fin 2) = 0
    ∧ win6_5.index t (0 : Fin 2) ≤ 9 ∧ win6_5.index t (1 : Fin 2) = 0 :=
  (by decide +kernel : ∀ t : Fin grid6.N, _)

/-- Every one of the ten row blocks is some point's. -/
theorem idx_onto : ∀ q0 : Fin 10, ∃ t : Fin cfg6.N, win6_5.index t = ![q0.val, 0] :=
  (by decide +kernel : ∀ q0 : Fin 10, ∃ t : Fin grid6.N, win6_5.index t = ![q0.val, 0])

/-! ## Each input block, read where the output's block lies -/

/-- The first relation's block of sums at a block index is the array at the output block's array index. -/
theorem read_sums1 (c : Dev nD) (t : Fin cfg6.N) (j : S5000x32.Idx) :
    iblk6 V c 0 t j = V c (Pipeline.arrRef spec6 0) (((cfg6.win 5).blk t).view.emb j) := by
  obtain ⟨e00, e01, e10, e11, e20, e21, e30, e31, e40, e41, -, e51⟩ := idx_facts t
  have hj0 : (j 0).val < 5000 := (j 0).isLt
  have hj1 : (j 1).val < 32 := (j 1).isLt
  show V c (Pipeline.arrRef spec6 0) (((cfg6.win 0).blk t).view.emb j) = V c (Pipeline.arrRef spec6 0) (((cfg6.win 5).blk t).view.emb j)
  refine congrArg _ (funext fun a => Fin.ext ?_)
  match a with
  | ⟨0, _⟩ => show win6_0.index t (0 : Fin 2) * 5000 + 1 * (j 0).val = win6_5.index t (0 : Fin 2) * 5000 + 1 * (j 0).val; omega
  | ⟨1, _⟩ => show win6_0.index t (1 : Fin 2) * 32 + 1 * (j 1).val = win6_5.index t (1 : Fin 2) * 32 + 1 * (j 1).val; omega

/-- The first relation's block of degrees at a row of the block is the degree column at the output block's array row. -/
theorem read_degrees1 (c : Dev nD) (t : Fin cfg6.N) (j : S5000x32.Idx) :
    iblk6 V c 1 t (ix2 (n0 := 5000) (n1 := 1) (j 0) ⟨0, Nat.one_pos⟩)
      = V c (Pipeline.arrRef spec6 1) (colIdx ⟨((((cfg6.win 5).blk t).view.emb j) 0).val, ((((cfg6.win 5).blk t).view.emb j) 0).isLt⟩) := by
  obtain ⟨e00, e01, e10, e11, e20, e21, e30, e31, e40, e41, -, e51⟩ := idx_facts t
  have hj0 : (j 0).val < 5000 := (j 0).isLt
  show V c (Pipeline.arrRef spec6 1) (((cfg6.win 1).blk t).view.emb (ix2 (n0 := 5000) (n1 := 1) (j 0) ⟨0, Nat.one_pos⟩))
    = V c (Pipeline.arrRef spec6 1) (colIdx ⟨((((cfg6.win 5).blk t).view.emb j) 0).val, ((((cfg6.win 5).blk t).view.emb j) 0).isLt⟩)
  refine congrArg _ (funext fun a => Fin.ext ?_)
  match a with
  | ⟨0, _⟩ => show win6_1.index t (0 : Fin 2) * 5000 + 1 * (j 0).val = win6_5.index t (0 : Fin 2) * 5000 + 1 * (j 0).val; omega
  | ⟨1, _⟩ => show win6_1.index t (1 : Fin 2) * 1 + 1 * 0 = 0; omega

/-- The second relation's block of sums at a block index is the array at the output block's array index. -/
theorem read_sums2 (c : Dev nD) (t : Fin cfg6.N) (j : S5000x32.Idx) :
    iblk6 V c 2 t j = V c (Pipeline.arrRef spec6 2) (((cfg6.win 5).blk t).view.emb j) := by
  obtain ⟨e00, e01, e10, e11, e20, e21, e30, e31, e40, e41, -, e51⟩ := idx_facts t
  have hj0 : (j 0).val < 5000 := (j 0).isLt
  have hj1 : (j 1).val < 32 := (j 1).isLt
  show V c (Pipeline.arrRef spec6 2) (((cfg6.win 2).blk t).view.emb j) = V c (Pipeline.arrRef spec6 2) (((cfg6.win 5).blk t).view.emb j)
  refine congrArg _ (funext fun a => Fin.ext ?_)
  match a with
  | ⟨0, _⟩ => show win6_2.index t (0 : Fin 2) * 5000 + 1 * (j 0).val = win6_5.index t (0 : Fin 2) * 5000 + 1 * (j 0).val; omega
  | ⟨1, _⟩ => show win6_2.index t (1 : Fin 2) * 32 + 1 * (j 1).val = win6_5.index t (1 : Fin 2) * 32 + 1 * (j 1).val; omega

/-- The second relation's block of degrees at a row of the block is the degree column at the output block's array row. -/
theorem read_degrees2 (c : Dev nD) (t : Fin cfg6.N) (j : S5000x32.Idx) :
    iblk6 V c 3 t (ix2 (n0 := 5000) (n1 := 1) (j 0) ⟨0, Nat.one_pos⟩)
      = V c (Pipeline.arrRef spec6 3) (colIdx ⟨((((cfg6.win 5).blk t).view.emb j) 0).val, ((((cfg6.win 5).blk t).view.emb j) 0).isLt⟩) := by
  obtain ⟨e00, e01, e10, e11, e20, e21, e30, e31, e40, e41, -, e51⟩ := idx_facts t
  have hj0 : (j 0).val < 5000 := (j 0).isLt
  show V c (Pipeline.arrRef spec6 3) (((cfg6.win 3).blk t).view.emb (ix2 (n0 := 5000) (n1 := 1) (j 0) ⟨0, Nat.one_pos⟩))
    = V c (Pipeline.arrRef spec6 3) (colIdx ⟨((((cfg6.win 5).blk t).view.emb j) 0).val, ((((cfg6.win 5).blk t).view.emb j) 0).isLt⟩)
  refine congrArg _ (funext fun a => Fin.ext ?_)
  match a with
  | ⟨0, _⟩ => show win6_3.index t (0 : Fin 2) * 5000 + 1 * (j 0).val = win6_5.index t (0 : Fin 2) * 5000 + 1 * (j 0).val; omega
  | ⟨1, _⟩ => show win6_3.index t (1 : Fin 2) * 1 + 1 * 0 = 0; omega

/-- The bias window's one block at a column is the bias row at the output block's array column. -/
theorem read_bias (c : Dev nD) (t : Fin cfg6.N) (j : S5000x32.Idx) :
    iblk6 V c 4 t (ix2 (n0 := 1) (n1 := 32) ⟨0, Nat.one_pos⟩ (j 1))
      = V c (Pipeline.arrRef spec6 4) (rowIdx32 ⟨((((cfg6.win 5).blk t).view.emb j) 1).val, ((((cfg6.win 5).blk t).view.emb j) 1).isLt⟩) := by
  obtain ⟨e00, e01, e10, e11, e20, e21, e30, e31, e40, e41, -, e51⟩ := idx_facts t
  have hj1 : (j 1).val < 32 := (j 1).isLt
  show V c (Pipeline.arrRef spec6 4) (((cfg6.win 4).blk t).view.emb (ix2 (n0 := 1) (n1 := 32) ⟨0, Nat.one_pos⟩ (j 1)))
    = V c (Pipeline.arrRef spec6 4) (rowIdx32 ⟨((((cfg6.win 5).blk t).view.emb j) 1).val, ((((cfg6.win 5).blk t).view.emb j) 1).isLt⟩)
  refine congrArg _ (funext fun a => Fin.ext ?_)
  match a with
  | ⟨0, _⟩ => show win6_4.index t (0 : Fin 2) * 1 + 1 * 0 = 0; omega
  | ⟨1, _⟩ => show win6_4.index t (1 : Fin 2) * 32 + 1 * (j 1).val = win6_5.index t (1 : Fin 2) * 32 + 1 * (j 1).val; omega

/-! ## What a point writes back -/

/-- What point `t` writes back is block `t` of the specification of the five arrays as the region finds them. -/
theorem flushed_eq (c : Dev nD) (t : Fin cfg6.N) :
    (dat6 (F := Ideal) V c).flushed 5 t = ((cfg6.win 5).blk t).view.read (Elt Ideal)
      (mix32 (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 (F := Ideal) V c).after 5 t) = _
  rw [after6_5]
  unfold out6_5
  rw [View.canon_unit_zero zero_offsets]
  simp only [View.ld_unit_zero (S := S5000x32) zero_offsets, View.ld_unit_zero (S := S5000x1) zero_offsets,
    View.ld_unit_zero (S := S1x32) zero_offsets]
  funext j
  have hj : j = ix2 (n0 := 5000) (n1 := 32) (j 0) (j 1) := eq_ix2 (n0 := 5000) (n1 := 32) j
  refine (congrArg (k6_pay1 (F := Ideal) (iblk6 V c 1 t) (iblk6 V c 3 t) (iblk6 V c 0 t) (iblk6 V c 2 t) (iblk6 V c 4 t)) hj).trans ?_
  exact stored_entry_eq (iblk6 V c 0 t) (iblk6 V c 1 t) (iblk6 V c 2 t) (iblk6 V c 3 t) (iblk6 V c 4 t)
    (V c (Pipeline.arrRef spec6 0)) (V c (Pipeline.arrRef spec6 1)) (V c (Pipeline.arrRef spec6 2))
    (V c (Pipeline.arrRef spec6 3)) (V c (Pipeline.arrRef spec6 4))
    (j 0) (j 1) (((cfg6.win 5).blk t).view.emb j)
    ((congrArg (iblk6 V c 0 t) hj.symm).trans (read_sums1 V c t j))
    (read_degrees1 V c t j)
    ((congrArg (iblk6 V c 2 t) hj.symm).trans (read_sums2 V c t j))
    (read_degrees2 V c t j)
    (read_bias V c t j)

/-! ## The ten blocks tile the array -/

/-- An index of the array is in point `t`'s block iff each coordinate is in the block's range on its axis. -/
theorem mem_blk (t : Fin cfg6.N) (i : S50000x32.Idx) :
    i ∈ ((cfg6.win 5).blk t).view.set ↔ ∀ a : Fin 2, win6_5.index t a * S5000x32.size a ≤ (i a).val
      ∧ (i a).val < win6_5.index t a * S5000x32.size a + S5000x32.size a := by
  show i ∈ ((View.whole main_v118).slice (win6_5.rect t)).set ↔ _
  rw [View.set_slice_whole, Rect.mem_set_unit]
  exact Iff.rfl

/-- Row r lies in the block of the point whose row block is r / 5000, and every point writes back. -/
theorem cover (i : S50000x32.Idx) :
    ∃ t : Fin cfg6.N, (cfg6.win 5).flush t = true ∧ i ∈ ((cfg6.win 5).blk t).view.set := by
  have hi0 : (i 0).val < 50000 := (i 0).isLt
  have hi1 : (i 1).val < 32 := (i 1).isLt
  obtain ⟨t, ht⟩ := idx_onto ⟨(i 0).val / 5000, by omega⟩
  have q0 : win6_5.index t (0 : Fin 2) = (i 0).val / 5000 := congrFun ht 0
  have q1 : win6_5.index t (1 : Fin 2) = 0 := congrFun ht 1
  refine ⟨t, flush6_5 t, ?_⟩
  rw [mem_blk]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 32 ≤ (i 1).val ∧ (i 1).val < win6_5.index t (1 : Fin 2) * 32 + 32; omega

/-! ## The array the region leaves -/

theorem final (c : Dev nD) :
    (dat6 (F := Ideal) V c).arrAt 5 cfg6.N
      = mix32 (V c (Pipeline.arrRef spec6 0)) (V c (Pipeline.arrRef spec6 1)) (V c (Pipeline.arrRef spec6 2))
          (V c (Pipeline.arrRef spec6 3)) (V c (Pipeline.arrRef spec6 4)) :=
  (dat6 (F := Ideal) V c).arrAt_eq_of_cover 5
    (mix32 (V c (Pipeline.arrRef spec6 0)) (V c (Pipeline.arrRef spec6 1)) (V c (Pipeline.arrRef spec6 2))
      (V c (Pipeline.arrRef spec6 3)) (V c (Pipeline.arrRef spec6 4)))
    (fun t _ => flushed_eq V c t) cover

end Cert.Rgcn.MixOut

end
-- ==== Proof.MixOutB.lean ====
/-
  The output layer's normalise-add-bias region. Its body stores, entry by entry,
  s₁ / max(d₁, 1) + s₂ / max(d₂, 1) + b, read off a row block of the two sums, the same rows of the two degree
  columns and the bias row; the ten row blocks of 5000 rows tile the array of 50000 rows, so the array the region
  leaves is that function of the five arrays it reads, at every index.
-/
import proofs.«126396_j55757265437245_2_alg».proof.Proof.Spec
import proofs.«126396_j55757265437245_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.MixOutB

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rgcn

-- The TensorCore's buffer contents when the region is entered.
variable (V : (c : Dev nD) → (b : Ref sig .tc) → Buf (Elt Ideal) ((c : Thread nD τ).loc b))

/-! ## One entry of the stored block -/

/-- The zero offsets of a whole-block access, as the constant function. -/
theorem zero_offsets : (![0, 0] : Fin 2 → Nat) = fun _ => 0 :=
  funext fun a => by match a with | ⟨0, _⟩ => rfl | ⟨1, _⟩ => rfl

/-- A degree column [5000, 1] stretched along the rows' entries: entry (p, q) is the column's entry at row p. -/
theorem stretch_column (v : FVec Ideal S5000x1 .f32) (p : Fin 5000) (q : Fin 32) :
    broadcastTo S5000x32 v broadcasts_S5000x1_S5000x32 (ix2 p q) = v (ix2 (n0 := 5000) (n1 := 1) p ⟨0, Nat.one_pos⟩) :=
  broadcastTo_apply v broadcasts_S5000x1_S5000x32 (ix2 p q) (ix2 (n0 := 5000) (n1 := 1) p ⟨0, Nat.one_pos⟩) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The bias row [1, 32] stretched down the rows: entry (p, q) is the row's entry at column q. -/
theorem stretch_row (v : FVec Ideal S1x32 .f32) (p : Fin 5000) (q : Fin 32) :
    broadcastTo S5000x32 v broadcasts_S1x32_S5000x32 (ix2 p q) = v (ix2 (n0 := 1) (n1 := 32) ⟨0, Nat.one_pos⟩ q) :=
  broadcastTo_apply v broadcasts_S1x32_S5000x32 (ix2 p q) (ix2 (n0 := 1) (n1 := 32) ⟨0, Nat.one_pos⟩ q) (fun a => by
    match a with
    | ⟨0, _⟩ => show (0 : Nat) = if (1 : Nat) = 1 then 0 else p.val; rw [if_pos rfl]
    | ⟨1, _⟩ => show q.val = if (32 : Nat) = 1 then 0 else q.val; rw [if_neg (by decide)])

/-- The body's stored value at entry (p, q) of the block, in terms of the five blocks it loads: the two sums at
    (p, q), the two degrees at row p, the bias at column q. -/
theorem stored_entry (x0 : Vec Ideal S5000x32 .f32) (x1 : Vec Ideal S5000x1 .f32) (x2 : Vec Ideal S5000x32 .f32)
    (x3 : Vec Ideal S5000x1 .f32) (x4 : Vec Ideal S1x32 .f32) (p : Fin 5000) (q : Fin 32) :
    k7_pay1 (F := Ideal) x1 x3 x0 x2 x4 (ix2 p q)
      = mixAt (x0 (ix2 p q)) (x1 (ix2 (n0 := 5000) (n1 := 1) p ⟨0, Nat.one_pos⟩)) (x2 (ix2 p q)) (x3 (ix2 (n0 := 5000) (n1 := 1) p ⟨0, Nat.one_pos⟩)) (x4 (ix2 (n0 := 1) (n1 := 32) ⟨0, Nat.one_pos⟩ q)) := by
  unfold k7_pay1
  simp only [shapeCast_self]
  refine congrArg₂ FloatOps.addf (congrArg₂ FloatOps.addf (congrArg₂ FloatOps.divf rfl ?_) (congrArg₂ FloatOps.divf rfl ?_)) ?_
  · exact stretch_column _ p q
  · exact stretch_column _ p q
  · exact stretch_row x4 p q

/-- The stored entry is the specification's entry at an array index `i` as soon as the five block reads are the
    arrays' reads at `i`'s row and column. -/
theorem stored_entry_eq (x0 : Vec Ideal S5000x32 .f32) (x1 : Vec Ideal S5000x1 .f32) (x2 : Vec Ideal S5000x32 .f32)
    (x3 : Vec Ideal S5000x1 .f32) (x4 : Vec Ideal S1x32 .f32)
    (s1 : FVec Ideal S50000x32 .f32) (d1 : FVec Ideal S50000x1 .f32) (s2 : FVec Ideal S50000x32 .f32)
    (d2 : FVec Ideal S50000x1 .f32) (b : FVec Ideal S1x32 .f32)
    (p : Fin 5000) (q : Fin 32) (i : S50000x32.Idx)
    (h0 : x0 (ix2 p q) = s1 i)
    (h1 : x1 (ix2 (n0 := 5000) (n1 := 1) p ⟨0, Nat.one_pos⟩) = d1 (colIdx ⟨(i 0).val, (i 0).isLt⟩))
    (h2 : x2 (ix2 p q) = s2 i)
    (h3 : x3 (ix2 (n0 := 5000) (n1 := 1) p ⟨0, Nat.one_pos⟩) = d2 (colIdx ⟨(i 0).val, (i 0).isLt⟩))
    (h4 : x4 (ix2 (n0 := 1) (n1 := 32) ⟨0, Nat.one_pos⟩ q) = b (rowIdx32 ⟨(i 1).val, (i 1).isLt⟩)) :
    k7_pay1 (F := Ideal) x1 x3 x0 x2 x4 (ix2 p q) = mix32 s1 d1 s2 d2 b i := by
  rw [stored_entry, h0, h1, h2, h3, h4]
  rfl

/-! ## The printed index maps, decided over the ten points -/

/-- The four row-blocked inputs move with the output (same row block, column block 0), the bias window stays at its
    one block, and the output's row block is one of the ten. -/
theorem idx_facts : ∀ t : Fin cfg7.N,
    win7_0.index t (0 : Fin 2) = win7_5.index t (0 : Fin 2) ∧ win7_0.index t (1 : Fin 2) = 0
    ∧ win7_1.index t (0 : Fin 2) = win7_5.index t (0 : Fin 2) ∧ win7_1.index t (1 : Fin 2) = 0
    ∧ win7_2.index t (0 : Fin 2) = win7_5.index t (0 : Fin 2) ∧ win7_2.index t (1 : Fin 2) = 0
    ∧ win7_3.index t (0 : Fin 2) = win7_5.index t (0 : Fin 2) ∧ win7_3.index t (1 : Fin 2) = 0
    ∧ win7_4.index t (0 : Fin 2) = 0 ∧ win7_4.index t (1 : Fin 2) = 0
    ∧ win7_5.index t (0 : Fin 2) ≤ 9 ∧ win7_5.index t (1 : Fin 2) = 0 :=
  (by decide +kernel : ∀ t : Fin grid7.N, _)

/-- Every one of the ten row blocks is some point's. -/
theorem idx_onto : ∀ q0 : Fin 10, ∃ t : Fin cfg7.N, win7_5.index t = ![q0.val, 0] :=
  (by decide +kernel : ∀ q0 : Fin 10, ∃ t : Fin grid7.N, win7_5.index t = ![q0.val, 0])

/-! ## Each input block, read where the output's block lies -/

/-- The first relation's block of sums at a block index is the array at the output block's array index. -/
theorem read_sums1 (c : Dev nD) (t : Fin cfg7.N) (j : S5000x32.Idx) :
    iblk7 V c 0 t j = V c (Pipeline.arrRef spec7 0) (((cfg7.win 5).blk t).view.emb j) := by
  obtain ⟨e00, e01, e10, e11, e20, e21, e30, e31, e40, e41, -, e51⟩ := idx_facts t
  have hj0 : (j 0).val < 5000 := (j 0).isLt
  have hj1 : (j 1).val < 32 := (j 1).isLt
  show V c (Pipeline.arrRef spec7 0) (((cfg7.win 0).blk t).view.emb j) = V c (Pipeline.arrRef spec7 0) (((cfg7.win 5).blk t).view.emb j)
  refine congrArg _ (funext fun a => Fin.ext ?_)
  match a with
  | ⟨0, _⟩ => show win7_0.index t (0 : Fin 2) * 5000 + 1 * (j 0).val = win7_5.index t (0 : Fin 2) * 5000 + 1 * (j 0).val; omega
  | ⟨1, _⟩ => show win7_0.index t (1 : Fin 2) * 32 + 1 * (j 1).val = win7_5.index t (1 : Fin 2) * 32 + 1 * (j 1).val; omega

/-- The first relation's block of degrees at a row of the block is the degree column at the output block's array row. -/
theorem read_degrees1 (c : Dev nD) (t : Fin cfg7.N) (j : S5000x32.Idx) :
    iblk7 V c 1 t (ix2 (n0 := 5000) (n1 := 1) (j 0) ⟨0, Nat.one_pos⟩)
      = V c (Pipeline.arrRef spec7 1) (colIdx ⟨((((cfg7.win 5).blk t).view.emb j) 0).val, ((((cfg7.win 5).blk t).view.emb j) 0).isLt⟩) := by
  obtain ⟨e00, e01, e10, e11, e20, e21, e30, e31, e40, e41, -, e51⟩ := idx_facts t
  have hj0 : (j 0).val < 5000 := (j 0).isLt
  show V c (Pipeline.arrRef spec7 1) (((cfg7.win 1).blk t).view.emb (ix2 (n0 := 5000) (n1 := 1) (j 0) ⟨0, Nat.one_pos⟩))
    = V c (Pipeline.arrRef spec7 1) (colIdx ⟨((((cfg7.win 5).blk t).view.emb j) 0).val, ((((cfg7.win 5).blk t).view.emb j) 0).isLt⟩)
  refine congrArg _ (funext fun a => Fin.ext ?_)
  match a with
  | ⟨0, _⟩ => show win7_1.index t (0 : Fin 2) * 5000 + 1 * (j 0).val = win7_5.index t (0 : Fin 2) * 5000 + 1 * (j 0).val; omega
  | ⟨1, _⟩ => show win7_1.index t (1 : Fin 2) * 1 + 1 * 0 = 0; omega

/-- The second relation's block of sums at a block index is the array at the output block's array index. -/
theorem read_sums2 (c : Dev nD) (t : Fin cfg7.N) (j : S5000x32.Idx) :
    iblk7 V c 2 t j = V c (Pipeline.arrRef spec7 2) (((cfg7.win 5).blk t).view.emb j) := by
  obtain ⟨e00, e01, e10, e11, e20, e21, e30, e31, e40, e41, -, e51⟩ := idx_facts t
  have hj0 : (j 0).val < 5000 := (j 0).isLt
  have hj1 : (j 1).val < 32 := (j 1).isLt
  show V c (Pipeline.arrRef spec7 2) (((cfg7.win 2).blk t).view.emb j) = V c (Pipeline.arrRef spec7 2) (((cfg7.win 5).blk t).view.emb j)
  refine congrArg _ (funext fun a => Fin.ext ?_)
  match a with
  | ⟨0, _⟩ => show win7_2.index t (0 : Fin 2) * 5000 + 1 * (j 0).val = win7_5.index t (0 : Fin 2) * 5000 + 1 * (j 0).val; omega
  | ⟨1, _⟩ => show win7_2.index t (1 : Fin 2) * 32 + 1 * (j 1).val = win7_5.index t (1 : Fin 2) * 32 + 1 * (j 1).val; omega

/-- The second relation's block of degrees at a row of the block is the degree column at the output block's array row. -/
theorem read_degrees2 (c : Dev nD) (t : Fin cfg7.N) (j : S5000x32.Idx) :
    iblk7 V c 3 t (ix2 (n0 := 5000) (n1 := 1) (j 0) ⟨0, Nat.one_pos⟩)
      = V c (Pipeline.arrRef spec7 3) (colIdx ⟨((((cfg7.win 5).blk t).view.emb j) 0).val, ((((cfg7.win 5).blk t).view.emb j) 0).isLt⟩) := by
  obtain ⟨e00, e01, e10, e11, e20, e21, e30, e31, e40, e41, -, e51⟩ := idx_facts t
  have hj0 : (j 0).val < 5000 := (j 0).isLt
  show V c (Pipeline.arrRef spec7 3) (((cfg7.win 3).blk t).view.emb (ix2 (n0 := 5000) (n1 := 1) (j 0) ⟨0, Nat.one_pos⟩))
    = V c (Pipeline.arrRef spec7 3) (colIdx ⟨((((cfg7.win 5).blk t).view.emb j) 0).val, ((((cfg7.win 5).blk t).view.emb j) 0).isLt⟩)
  refine congrArg _ (funext fun a => Fin.ext ?_)
  match a with
  | ⟨0, _⟩ => show win7_3.index t (0 : Fin 2) * 5000 + 1 * (j 0).val = win7_5.index t (0 : Fin 2) * 5000 + 1 * (j 0).val; omega
  | ⟨1, _⟩ => show win7_3.index t (1 : Fin 2) * 1 + 1 * 0 = 0; omega

/-- The bias window's one block at a column is the bias row at the output block's array column. -/
theorem read_bias (c : Dev nD) (t : Fin cfg7.N) (j : S5000x32.Idx) :
    iblk7 V c 4 t (ix2 (n0 := 1) (n1 := 32) ⟨0, Nat.one_pos⟩ (j 1))
      = V c (Pipeline.arrRef spec7 4) (rowIdx32 ⟨((((cfg7.win 5).blk t).view.emb j) 1).val, ((((cfg7.win 5).blk t).view.emb j) 1).isLt⟩) := by
  obtain ⟨e00, e01, e10, e11, e20, e21, e30, e31, e40, e41, -, e51⟩ := idx_facts t
  have hj1 : (j 1).val < 32 := (j 1).isLt
  show V c (Pipeline.arrRef spec7 4) (((cfg7.win 4).blk t).view.emb (ix2 (n0 := 1) (n1 := 32) ⟨0, Nat.one_pos⟩ (j 1)))
    = V c (Pipeline.arrRef spec7 4) (rowIdx32 ⟨((((cfg7.win 5).blk t).view.emb j) 1).val, ((((cfg7.win 5).blk t).view.emb j) 1).isLt⟩)
  refine congrArg _ (funext fun a => Fin.ext ?_)
  match a with
  | ⟨0, _⟩ => show win7_4.index t (0 : Fin 2) * 1 + 1 * 0 = 0; omega
  | ⟨1, _⟩ => show win7_4.index t (1 : Fin 2) * 32 + 1 * (j 1).val = win7_5.index t (1 : Fin 2) * 32 + 1 * (j 1).val; omega

/-! ## What a point writes back -/

/-- What point `t` writes back is block `t` of the specification of the five arrays as the region finds them. -/
theorem flushed_eq (c : Dev nD) (t : Fin cfg7.N) :
    (dat7 (F := Ideal) V c).flushed 5 t = ((cfg7.win 5).blk t).view.read (Elt Ideal)
      (mix32 (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 (F := Ideal) V c).after 5 t) = _
  rw [after7_5]
  unfold out7_5
  rw [View.canon_unit_zero zero_offsets]
  simp only [View.ld_unit_zero (S := S5000x32) zero_offsets, View.ld_unit_zero (S := S5000x1) zero_offsets,
    View.ld_unit_zero (S := S1x32) zero_offsets]
  funext j
  have hj : j = ix2 (n0 := 5000) (n1 := 32) (j 0) (j 1) := eq_ix2 (n0 := 5000) (n1 := 32) j
  refine (congrArg (k7_pay1 (F := Ideal) (iblk7 V c 1 t) (iblk7 V c 3 t) (iblk7 V c 0 t) (iblk7 V c 2 t) (iblk7 V c 4 t)) hj).trans ?_
  exact stored_entry_eq (iblk7 V c 0 t) (iblk7 V c 1 t) (iblk7 V c 2 t) (iblk7 V c 3 t) (iblk7 V c 4 t)
    (V c (Pipeline.arrRef spec7 0)) (V c (Pipeline.arrRef spec7 1)) (V c (Pipeline.arrRef spec7 2))
    (V c (Pipeline.arrRef spec7 3)) (V c (Pipeline.arrRef spec7 4))
    (j 0) (j 1) (((cfg7.win 5).blk t).view.emb j)
    ((congrArg (iblk7 V c 0 t) hj.symm).trans (read_sums1 V c t j))
    (read_degrees1 V c t j)
    ((congrArg (iblk7 V c 2 t) hj.symm).trans (read_sums2 V c t j))
    (read_degrees2 V c t j)
    (read_bias V c t j)

/-! ## The ten blocks tile the array -/

/-- An index of the array is in point `t`'s block iff each coordinate is in the block's range on its axis. -/
theorem mem_blk (t : Fin cfg7.N) (i : S50000x32.Idx) :
    i ∈ ((cfg7.win 5).blk t).view.set ↔ ∀ a : Fin 2, win7_5.index t a * S5000x32.size a ≤ (i a).val
      ∧ (i a).val < win7_5.index t a * S5000x32.size a + S5000x32.size a := by
  show i ∈ ((View.whole main_v120).slice (win7_5.rect t)).set ↔ _
  rw [View.set_slice_whole, Rect.mem_set_unit]
  exact Iff.rfl

/-- Row r lies in the block of the point whose row block is r / 5000, and every point writes back. -/
theorem cover (i : S50000x32.Idx) :
    ∃ t : Fin cfg7.N, (cfg7.win 5).flush t = true ∧ i ∈ ((cfg7.win 5).blk t).view.set := by
  have hi0 : (i 0).val < 50000 := (i 0).isLt
  have hi1 : (i 1).val < 32 := (i 1).isLt
  obtain ⟨t, ht⟩ := idx_onto ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem_blk]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 32 ≤ (i 1).val ∧ (i 1).val < win7_5.index t (1 : Fin 2) * 32 + 32; omega

/-! ## The array the region leaves -/

theorem final (c : Dev nD) :
    (dat7 (F := Ideal) V c).arrAt 5 cfg7.N
      = mix32 (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5
    (mix32 (V c (Pipeline.arrRef spec7 0)) (V c (Pipeline.arrRef spec7 1)) (V c (Pipeline.arrRef spec7 2))
      (V c (Pipeline.arrRef spec7 3)) (V c (Pipeline.arrRef spec7 4)))
    (fun t _ => flushed_eq V c t) cover

end Cert.Rgcn.MixOutB

end
-- ==== Proof.RunOut.lean ====
/-
  The kernel program's run from the hidden features to the result: the joined second-layer weights, the two
  projections of the hidden features, the four aggregates, the two output-layer steps, and the drug rows joined above
  the gene rows. The degree columns computed before the first region are read again here: no stretch in between
  writes them (two regions read them through input windows, which leave an array as it was).
-/
import proofs.«126396_j55757265437245_2_alg».proof.Proof.Gen.KernelIdeal.Frame
import proofs.«126396_j55757265437245_2_alg».proof.Proof.LibHostKeeps
import proofs.«126396_j55757265437245_2_alg».proof.Proof.Glue
import proofs.«126396_j55757265437245_2_alg».proof.Proof.LayerTerms
import proofs.«126396_j55757265437245_2_alg».proof.Proof.KeptArgs
import proofs.«126396_j55757265437245_2_alg».proof.Proof.RunHidden
import proofs.«126396_j55757265437245_2_alg».proof.Proof.ProjHidden
import proofs.«126396_j55757265437245_2_alg».proof.Proof.ProjHiddenB
import proofs.«126396_j55757265437245_2_alg».proof.Proof.MixOut
import proofs.«126396_j55757265437245_2_alg».proof.Proof.MixOutB

noncomputable section

namespace Cert.Rgcn.Run

open Idealize.ShloMosaic Idealize.ShloMosaic.TcCoe Idealize.SL.Sem Idealize.ShloMosaic.StableHlo
open Cert.KernelIdeal Cert.KernelIdeal.Gen Cert.Rgcn

variable (m : (ℓ : Loc nD τ sig) → Buf (Elt Ideal) ℓ) (ρ : Dev nD → PrngReg)

/-- The hidden drug and gene features as the run has them. -/
abbrev HD (c : Dev nD) := kHidD (A0 m c) (A1 m c) (A2 m c) (A3 m c) (A6 m c) (A7 m c) (A10 m c) (A11 m c) (A12 m c) (A13 m c) (A14 m c)
abbrev HG (c : Dev nD) := kHidG (A0 m c) (A1 m c) (A4 m c) (A5 m c) (A8 m c) (A9 m c) (A10 m c) (A11 m c) (A12 m c) (A13 m c) (A15 m c)

/-! ## Boundary 8: the joined second-layer weights -/

theorem W8_v69 (c : Dev nD) : W8 m ρ c (Proc.devRef .tc main_v69) = wcat64 (A16 m c) (A17 m c) := by
  have h : W8 m ρ c (Proc.devRef .tc main_v69)
      = wcat64 (W7 m ρ c (Proc.devRef .tc main_arg16)) (W7 m ρ c (Proc.devRef .tc main_arg17)) := by
    show StableHlo.after hostOps4 (W7 m ρ c) (Proc.devRef .tc main_v69) = _
    after_results_simp
    rfl
  rw [h, show W7 m ρ c (Proc.devRef .tc main_arg16) = A16 m c from Kept.args7 m ρ c ⟨16, by decide⟩,
    show W7 m ρ c (Proc.devRef .tc main_arg17) = A17 m c from Kept.args7 m ρ c ⟨17, by decide⟩]

theorem W8_v70 (c : Dev nD) : W8 m ρ c (Proc.devRef .tc main_v70) = wcat64 (A18 m c) (A19 m c) := by
  have h : W8 m ρ c (Proc.devRef .tc main_v70)
      = wcat64 (W7 m ρ c (Proc.devRef .tc main_arg18)) (W7 m ρ c (Proc.devRef .tc main_arg19)) := by
    show StableHlo.after hostOps4 (W7 m ρ c) (Proc.devRef .tc main_v70) = _
    after_results_simp
    rfl
  rw [h, show W7 m ρ c (Proc.devRef .tc main_arg18) = A18 m c from Kept.args7 m ρ c ⟨18, by decide⟩,
    show W7 m ρ c (Proc.devRef .tc main_arg19) = A19 m c from Kept.args7 m ρ c ⟨19, by decide⟩]

theorem W8_v66 (c : Dev nD) : W8 m ρ c (Proc.devRef .tc main_v66) = HD m c :=
  (show W8 m ρ c (Proc.devRef .tc main_v66) = W7 m ρ c (Proc.devRef .tc main_v66) by host_keeps hostOps4).trans (W7_v66 m ρ c)
theorem W8_v68 (c : Dev nD) : W8 m ρ c (Proc.devRef .tc main_v68) = HG m c :=
  (show W8 m ρ c (Proc.devRef .tc main_v68) = W7 m ρ c (Proc.devRef .tc main_v68) by host_keeps hostOps4).trans (W7_v68 m ρ c)

/-! ## Boundaries 9 and 10: the two projections of the hidden features -/

theorem W9_v71 (c : Dev nD) : W9 m ρ c (Proc.devRef .tc main_v71) = proj64 (HD m c) (wcat64 (A16 m c) (A17 m c)) := by
  refine (W9_arr m ρ c 2).trans ((ProjHidden.final (V8 m ρ) c).trans ?_)
  show proj64 (W8 m ρ c (Proc.devRef .tc main_v66)) (W8 m ρ c (Proc.devRef .tc main_v69)) = _
  rw [W8_v66, W8_v69]

theorem W10_v71 (c : Dev nD) : W10 m ρ c (Proc.devRef .tc main_v71) = proj64 (HD m c) (wcat64 (A16 m c) (A17 m c)) :=
  (W10_of_ne m ρ c main_v71 (by decide)).trans (W9_v71 m ρ c)

theorem W10_v72 (c : Dev nD) : W10 m ρ c (Proc.devRef .tc main_v72) = proj64 (HG m c) (wcat64 (A18 m c) (A19 m c)) := by
  refine (W10_arr m ρ c 2).trans ((ProjHiddenB.final (V9 m ρ) c).trans ?_)
  show proj64 (W9 m ρ c (Proc.devRef .tc main_v68)) (W9 m ρ c (Proc.devRef .tc main_v70)) = _
  rw [(W9_of_ne m ρ c main_v68 (by decide)).trans (W8_v68 m ρ c), (W9_of_ne m ρ c main_v70 (by decide)).trans (W8_v70 m ρ c)]

/-! ## Boundary 11: the four second-layer aggregates and the drug bias row -/

theorem W11_v86 (c : Dev nD) : W11 m ρ c (Proc.devRef .tc main_v86)
    = agg32 (colsL32 (proj64 (HD m c) (wcat64 (A16 m c) (A17 m c)))) (A2 m c) (A3 m c) := by
  have h : W11 m ρ c (Proc.devRef .tc main_v86) = agg32 (colsL32 (W10 m ρ c (Proc.devRef .tc main_v71)))
      (W10 m ρ c (Proc.devRef .tc main_arg2)) (W10 m ρ c (Proc.devRef .tc main_arg3)) := by
    show StableHlo.after hostOps6 (W10 m ρ c) (Proc.devRef .tc main_v86) = _
    after_results_simp
    rfl
  rw [h, W10_v71, show W10 m ρ c (Proc.devRef .tc main_arg2) = A2 m c from Kept.args10 m ρ c ⟨2, by decide⟩,
    show W10 m ρ c (Proc.devRef .tc main_arg3) = A3 m c from Kept.args10 m ρ c ⟨3, by decide⟩]

theorem W11_v96 (c : Dev nD) : W11 m ρ c (Proc.devRef .tc main_v96)
    = agg32 (colsR32 (proj64 (HD m c) (wcat64 (A16 m c) (A17 m c)))) (A4 m c) (A5 m c) := by
  have h : W11 m ρ c (Proc.devRef .tc main_v96) = agg32 (colsR32 (W10 m ρ c (Proc.devRef .tc main_v71)))
      (W10 m ρ c (Proc.devRef .tc main_arg4)) (W10 m ρ c (Proc.devRef .tc main_arg5)) := by
    show StableHlo.after hostOps6 (W10 m ρ c) (Proc.devRef .tc main_v96) = _
    after_results_simp
    rfl
  rw [h, W10_v71, show W10 m ρ c (Proc.devRef .tc main_arg4) = A4 m c from Kept.args10 m ρ c ⟨4, by decide⟩,
    show W10 m ρ c (Proc.devRef .tc main_arg5) = A5 m c from Kept.args10 m ρ c ⟨5, by decide⟩]

theorem W11_v106 (c : Dev nD) : W11 m ρ c (Proc.devRef .tc main_v106)
    = agg32 (colsL32 (proj64 (HG m c) (wcat64 (A18 m c) (A19 m c)))) (A6 m c) (A7 m c) := by
  have h : W11 m ρ c (Proc.devRef .tc main_v106) = agg32 (colsL32 (W10 m ρ c (Proc.devRef .tc main_v72)))
      (W10 m ρ c (Proc.devRef .tc main_arg6)) (W10 m ρ c (Proc.devRef .tc main_arg7)) := by
    show StableHlo.after hostOps6 (W10 m ρ c) (Proc.devRef .tc main_v106) = _
    after_results_simp
    rfl
  rw [h, W10_v72, show W10 m ρ c (Proc.devRef .tc main_arg6) = A6 m c from Kept.args10 m ρ c ⟨6, by decide⟩,
    show W10 m ρ c (Proc.devRef .tc main_arg7) = A7 m c from Kept.args10 m ρ c ⟨7, by decide⟩]

theorem W11_v116 (c : Dev nD) : W11 m ρ c (Proc.devRef .tc main_v116)
    = agg32 (colsR32 (proj64 (HG m c) (wcat64 (A18 m c) (A19 m c)))) (A8 m c) (A9 m c) := by
  have h : W11 m ρ c (Proc.devRef .tc main_v116) = agg32 (colsR32 (W10 m ρ c (Proc.devRef .tc main_v72)))
      (W10 m ρ c (Proc.devRef .tc main_arg8)) (W10 m ρ c (Proc.devRef .tc main_arg9)) := by
    show StableHlo.after hostOps6 (W10 m ρ c) (Proc.devRef .tc main_v116) = _
    after_results_simp
    rfl
  rw [h, W10_v72, show W10 m ρ c (Proc.devRef .tc main_arg8) = A8 m c from Kept.args10 m ρ c ⟨8, by decide⟩,
    show W10 m ρ c (Proc.devRef .tc main_arg9) = A9 m c from Kept.args10 m ρ c ⟨9, by decide⟩]

theorem W11_v117 (c : Dev nD) : W11 m ρ c (Proc.devRef .tc main_v117) = rowOf32 (A20 m c) := by
  have h : W11 m ρ c (Proc.devRef .tc main_v117) = rowOf32 (W10 m ρ c (Proc.devRef .tc main_arg20)) := by
    show StableHlo.after hostOps6 (W10 m ρ c) (Proc.devRef .tc main_v117) = _
    after_results_simp
    rfl
  rw [h, show W10 m ρ c (Proc.devRef .tc main_arg20) = A20 m c from Kept.args10 m ρ c ⟨20, by decide⟩]

/-! ## The degree columns, carried from boundary 4 to boundaries 11 and 13 -/

/-- The drug-side degree columns are input windows of the first hidden-layer step: an input window's array ends a region
    as it entered. -/
theorem W5_v4 (c : Dev nD) : W5 m ρ c (Proc.devRef .tc main_v4) = colOf (degOf (A3 m c)) :=
  (W5_arr m ρ c 1).trans (((dat2 (V4 m ρ) c).arrAt_in 1 rfl _).trans ((A_eq2 (V4 m ρ) c 1).trans (W4_v4 m ρ c)))
theorem W5_v12 (c : Dev nD) : W5 m ρ c (Proc.devRef .tc main_v12) = colOf (degOf (A7 m c)) :=
  (W5_arr m ρ c 3).trans (((dat2 (V4 m ρ) c).arrAt_in 3 rfl _).trans ((A_eq2 (V4 m ρ) c 3).trans (W4_v12 m ρ c)))

/-- From boundary 5 to boundary 11: two reshapes and a pair of joins (no float buffer of ours), three regions that do not
    hold the buffer, and the second-layer gathers and sums. -/
theorem at11_of5 (c : Dev nD) (b : Ref sig .tc)
    (h6 : W6 m ρ c (Proc.devRef .tc b) = W5 m ρ c (Proc.devRef .tc b)) (h7 : ∀ w, Pipeline.arrRef spec3 w ≠ b)
    (h8 : W8 m ρ c (Proc.devRef .tc b) = W7 m ρ c (Proc.devRef .tc b)) (h9 : ∀ w, Pipeline.arrRef spec4 w ≠ b)
    (h10 : ∀ w, Pipeline.arrRef spec5 w ≠ b) (h11 : W11 m ρ c (Proc.devRef .tc b) = W10 m ρ c (Proc.devRef .tc b)) :
    W11 m ρ c (Proc.devRef .tc b) = W5 m ρ c (Proc.devRef .tc b) :=
  h11.trans ((W10_of_ne m ρ c b h10).trans ((W9_of_ne m ρ c b h9).trans (h8.trans ((W7_of_ne m ρ c b h7).trans h6))))

theorem W11_v4 (c : Dev nD) : W11 m ρ c (Proc.devRef .tc main_v4) = colOf (degOf (A3 m c)) :=
  (at11_of5 m ρ c main_v4 (by host_keeps hostOps3) (by decide) (by host_keeps hostOps4) (by decide) (by decide)
    (by host_keeps hostOps6)).trans (W5_v4 m ρ c)
theorem W11_v12 (c : Dev nD) : W11 m ρ c (Proc.devRef .tc main_v12) = colOf (degOf (A7 m c)) :=
  (at11_of5 m ρ c main_v12 (by host_keeps hostOps3) (by decide) (by host_keeps hostOps4) (by decide) (by decide)
    (by host_keeps hostOps6)).trans (W5_v12 m ρ c)

/-- The gene-side degree columns: input windows of the second hidden-layer step (boundary 7). -/
theorem W7_v8 (c : Dev nD) : W7 m ρ c (Proc.devRef .tc main_v8) = colOf (degOf (A5 m c)) :=
  (W7_arr m ρ c 1).trans (((dat3 (V6 m ρ) c).arrAt_in 1 rfl _).trans ((A_eq3 (V6 m ρ) c 1).trans
    ((at6_of4 m ρ c main_v8 (by decide) (by host_keeps hostOps3)).trans (W4_v8 m ρ c))))
theorem W7_v16 (c : Dev nD) : W7 m ρ c (Proc.devRef .tc main_v16) = colOf (degOf (A9 m c)) :=
  (W7_arr m ρ c 3).trans (((dat3 (V6 m ρ) c).arrAt_in 3 rfl _).trans ((A_eq3 (V6 m ρ) c 3).trans
    ((at6_of4 m ρ c main_v16 (by decide) (by host_keeps hostOps3)).trans (W4_v16 m ρ c))))

theorem at13_of7 (c : Dev nD) (b : Ref sig .tc)
    (h8 : W8 m ρ c (Proc.devRef .tc b) = W7 m ρ c (Proc.devRef .tc b)) (h9 : ∀ w, Pipeline.arrRef spec4 w ≠ b)
    (h10 : ∀ w, Pipeline.arrRef spec5 w ≠ b) (h11 : W11 m ρ c (Proc.devRef .tc b) = W10 m ρ c (Proc.devRef .tc b))
    (h12 : ∀ w, Pipeline.arrRef spec6 w ≠ b) (h13 : W13 m ρ c (Proc.devRef .tc b) = W12 m ρ c (Proc.devRef .tc b)) :
    W13 m ρ c (Proc.devRef .tc b) = W7 m ρ c (Proc.devRef .tc b) :=
  h13.trans ((W12_of_ne m ρ c b h12).trans (h11.trans ((W10_of_ne m ρ c b h10).trans ((W9_of_ne m ρ c b h9).trans h8))))

theorem W13_v8 (c : Dev nD) : W13 m ρ c (Proc.devRef .tc main_v8) = colOf (degOf (A5 m c)) :=
  (at13_of7 m ρ c main_v8 (by host_keeps hostOps4) (by decide) (by decide) (by host_keeps hostOps6) (by decide)
    (by host_keeps hostOps7)).trans (W7_v8 m ρ c)
theorem W13_v16 (c : Dev nD) : W13 m ρ c (Proc.devRef .tc main_v16) = colOf (degOf (A9 m c)) :=
  (at13_of7 m ρ c main_v16 (by host_keeps hostOps4) (by decide) (by decide) (by host_keeps hostOps6) (by decide)
    (by host_keeps hostOps7)).trans (W7_v16 m ρ c)

/-! ## Boundaries 12 to 15: the two output-layer steps and the result -/

theorem W12_v118 (c : Dev nD) : W12 m ρ c (Proc.devRef .tc main_v118)
    = kOutD (A2 m c) (A3 m c) (A6 m c) (A7 m c) (A16 m c) (A17 m c) (A18 m c) (A19 m c) (A20 m c) (HD m c) (HG m c) := by
  refine (W12_arr m ρ c 5).trans ((MixOut.final (V11 m ρ) c).trans ?_)
  show mix32 (W11 m ρ c (Proc.devRef .tc main_v86)) (W11 m ρ c (Proc.devRef .tc main_v4))
      (W11 m ρ c (Proc.devRef .tc main_v106)) (W11 m ρ c (Proc.devRef .tc main_v12)) (W11 m ρ c (Proc.devRef .tc main_v117)) = _
  rw [W11_v86, W11_v4, W11_v106, W11_v12, W11_v117]
  rfl

theorem W13_v119 (c : Dev nD) : W13 m ρ c (Proc.devRef .tc main_v119) = rowOf32 (A21 m c) := by
  have h : W13 m ρ c (Proc.devRef .tc main_v119) = rowOf32 (W12 m ρ c (Proc.devRef .tc main_arg21)) := by
    show StableHlo.after hostOps7 (W12 m ρ c) (Proc.devRef .tc main_v119) = _
    after_results_simp
    rfl
  rw [h, show W12 m ρ c (Proc.devRef .tc main_arg21) = A21 m c from Kept.args12 m ρ c ⟨21, by decide⟩]

theorem at13_of11 (c : Dev nD) (b : Ref sig .tc) (h12 : ∀ w, Pipeline.arrRef spec6 w ≠ b)
    (h13 : W13 m ρ c (Proc.devRef .tc b) = W12 m ρ c (Proc.devRef .tc b)) :
    W13 m ρ c (Proc.devRef .tc b) = W11 m ρ c (Proc.devRef .tc b) :=
  h13.trans (W12_of_ne m ρ c b h12)

theorem W14_v120 (c : Dev nD) : W14 m ρ c (Proc.devRef .tc main_v120)
    = kOutG (A4 m c) (A5 m c) (A8 m c) (A9 m c) (A16 m c) (A17 m c) (A18 m c) (A19 m c) (A21 m c) (HD m c) (HG m c) := by
  refine (W14_arr m ρ c 5).trans ((MixOutB.final (V13 m ρ) c).trans ?_)
  show mix32 (W13 m ρ c (Proc.devRef .tc main_v96)) (W13 m ρ c (Proc.devRef .tc main_v8))
      (W13 m ρ c (Proc.devRef .tc main_v116)) (W13 m ρ c (Proc.devRef .tc main_v16)) (W13 m ρ c (Proc.devRef .tc main_v119)) = _
  rw [(at13_of11 m ρ c main_v96 (by decide) (by host_keeps hostOps7)).trans (W11_v96 m ρ c), W13_v8,
    (at13_of11 m ρ c main_v116 (by decide) (by host_keeps hostOps7)).trans (W11_v116 m ρ c), W13_v16, W13_v119]
  rfl

theorem W14_v118 (c : Dev nD) : W14 m ρ c (Proc.devRef .tc main_v118)
    = kOutD (A2 m c) (A3 m c) (A6 m c) (A7 m c) (A16 m c) (A17 m c) (A18 m c) (A19 m c) (A20 m c) (HD m c) (HG m c) :=
  (W14_of_ne m ρ c main_v118 (by decide)).trans
    ((show W13 m ρ c (Proc.devRef .tc main_v118) = W12 m ρ c (Proc.devRef .tc main_v118) by host_keeps hostOps7).trans
      (W12_v118 m ρ c))

/-- THE RESULT BUFFER at the end of the run: the kernel program's function of the argument arrays. -/
theorem W15_v121 (c : Dev nD) : W15 m ρ c (Proc.devRef .tc main_v121)
    = kernelOut (A0 m c) (A1 m c) (A2 m c) (A3 m c) (A4 m c) (A5 m c) (A6 m c) (A7 m c) (A8 m c) (A9 m c) (A10 m c) (A11 m c)
        (A12 m c) (A13 m c) (A14 m c) (A15 m c) (A16 m c) (A17 m c) (A18 m c) (A19 m c) (A20 m c) (A21 m c) := by
  have h : W15 m ρ c (Proc.devRef .tc main_v121)
      = joinRows (W14 m ρ c (Proc.devRef .tc main_v118)) (W14 m ρ c (Proc.devRef .tc main_v120)) := by
    show StableHlo.after hostOps8 (W14 m ρ c) (Proc.devRef .tc main_v121) = _
    after_results_simp
    rfl
  rw [h, W14_v118, W14_v120]
  rfl

end Cert.Rgcn.Run

end
-- ==== Proof.KRun.lean ====
/-
  The kernel program's run with its result named: from any memory with zero counters every weakly fair execution of the
  program terminates without a fault, the result buffer ends holding the kernel program's function of the argument
  arrays (its regions' whole-array values composed through the host stretches), and the arguments end unchanged.
  The run itself is the launch theorem for a program of several regions applied to the generated segments; its final
  predicate says every unscoped buffer ends at its contents after the last stretch, and the result buffer is one of them.
-/
import proofs.«126396_j55757265437245_2_alg».proof.Proof.Gen.KernelIdeal.Frame
import proofs.«126396_j55757265437245_2_alg».proof.Proof.RunOut

set_option maxRecDepth 16384

noncomputable section

namespace Cert.Rgcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Rgcn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates, nothing faulting, with every unscoped buffer of every core at its contents
    after the program's last stretch. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE KERNEL PROGRAM'S RUN: the result buffer ends at `kernelOut` of the argument arrays, the arguments unchanged. -/
theorem run_value : θ_run defs (onTc (τ := τ) (main (F := Ideal))) ⟨m, fun _ => 0, ρ⟩ (fun r => ∀ c : Dev nD,
      r.2.mem ((c.tc : Thread nD τ).loc main_v121)
        = kernelOut (A0 m c) (A1 m c) (A2 m c) (A3 m c) (A4 m c) (A5 m c) (A6 m c) (A7 m c) (A8 m c) (A9 m c) (A10 m c) (A11 m c)
            (A12 m c) (A13 m c) (A14 m c) (A15 m c) (A16 m c) (A17 m c) (A18 m c) (A19 m c) (A20 m c) (A21 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_v121 (by decide))).trans (W15_v121 m ρ c),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c),
      (h c _ (mem_uc main_arg14 (by decide))).trans (W15_main_arg14 m ρ c),
      (h c _ (mem_uc main_arg15 (by decide))).trans (W15_main_arg15 m ρ c),
      (h c _ (mem_uc main_arg16 (by decide))).trans (W15_main_arg16 m ρ c),
      (h c _ (mem_uc main_arg17 (by decide))).trans (W15_main_arg17 m ρ c),
      (h c _ (mem_uc main_arg18 (by decide))).trans (W15_main_arg18 m ρ c),
      (h c _ (mem_uc main_arg19 (by decide))).trans (W15_main_arg19 m ρ c),
      (h c _ (mem_uc main_arg20 (by decide))).trans (W15_main_arg20 m ρ c),
      (h c _ (mem_uc main_arg21 (by decide))).trans (W15_main_arg21 m ρ c)⟩)
    (run_all m ρ)

end Cert.Rgcn.Run

end
-- ==== Proof.RefSide.lean ====
/-
  The reference's result, as its generated run states it, is `refOut` of the argument arrays: the run's composed term
  is, read layer by layer, the reference's projections, aggregates and normalise-add-bias steps with the shared host
  chains named. Nothing is computed here: the two sides are the same term once the names are unfolded.
-/
import proofs.«126396_j55757265437245_2_alg».proof.Proof.LayerTerms
import proofs.«126396_j55757265437245_2_alg».proof.Proof.Gen.ReferenceIdeal.Run

set_option maxRecDepth 16384

noncomputable section

namespace Cert.Rgcn

open Idealize.ShloMosaic Idealize.ShloMosaic.TcCoe Idealize.SL.Sem
open Cert.ReferenceIdeal Cert.ReferenceIdeal.Gen

theorem ref_result (m : (ℓ : Loc nD τ sig) → Buf (Elt Ideal) ℓ) (c : Dev nD) :
    Cert.ReferenceIdeal.Value.res_main_v178 (F := Ideal) m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold Cert.ReferenceIdeal.Value.res_main_v178 refOut rOutD rOutG rHidD rHidG refMix32 refMixRelu64 clampCol agg32 agg64 degOf
    dstCol srcCol joinRows
  rfl

end Cert.Rgcn

end
-- ==== Proof.Bridge.lean ====
/-
  Whole-array identities at the ideal values that join the kernel program's arithmetic to the reference's. The left
  (right) half of the columns of x · [a | b] is x · a (x · b), entry by entry the same sum over the contracted axis as
  the host's dot_general. The normalise-add-bias step read over degree columns [n, 1] and a bias row [1, f] equals the
  same step over the clamped degree vector broadcast along the features and the bias broadcast along the nodes: at
  every index both are s₁ / max(g₁, 1) + s₂ / max(g₂, 1) + bias (rectified against zero for the hidden layer).
-/
import proofs.«126396_j55757265437245_2_alg».proof.Proof.Glue
import proofs.«126396_j55757265437245_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn

open Idealize.ShloMosaic Idealize.ShloMosaic.ValueIdx Cert.ReferenceIdeal Cert.ReferenceIdeal.Gen

/-! ## The projections -/

/-- Entry (k, q) of [a | b] with q among the first 64 columns is a's entry (k, q). -/
theorem wcat128_left (a b : FVec Ideal S128x64 .f32) (k : Fin 128) (q : Fin 64) :
    wcat128 a b (ix2 (n0 := 128) (n1 := 128) k ⟨q.val, by have := q.isLt; omega⟩)
      = a (ix2 (n0 := 128) (n1 := 64) k q) := by
  unfold wcat128
  exact concatenate_pair_apply_left (1 : Fin Cert.KernelIdeal.S128x128.rank) a b
    _ _ rfl (ix2 (n0 := 128) (n1 := 64) k q)
    (fun c => match c with | ⟨0, _⟩ => rfl | ⟨1, _⟩ => rfl)

/-- Entry (k, q + 64) of [a | b] is b's entry (k, q). -/
theorem wcat128_right (a b : FVec Ideal S128x64 .f32) (k : Fin 128) (q : Fin 64) :
    wcat128 a b (ix2 (n0 := 128) (n1 := 128) k ⟨q.val + 64, by have := q.isLt; omega⟩)
      = b (ix2 (n0 := 128) (n1 := 64) k q) := by
  unfold wcat128
  exact concatenate_pair_apply_right (1 : Fin Cert.KernelIdeal.S128x128.rank) a b
    _ _ rfl rfl (ix2 (n0 := 128) (n1 := 64) k q)
    (fun c => match c with | ⟨0, _⟩ => fun _ => rfl | ⟨1, _⟩ => fun h => absurd rfl h)
    rfl

/-- Entry (k, q) of [a | b] with q among the first 32 columns is a's entry (k, q). -/
theorem wcat64_left (a b : FVec Ideal S64x32 .f32) (k : Fin 64) (q : Fin 32) :
    wcat64 a b (ix2 (n0 := 64) (n1 := 64) k ⟨q.val, by have := q.isLt; omega⟩)
      = a (ix2 (n0 := 64) (n1 := 32) k q) := by
  unfold wcat64
  exact concatenate_pair_apply_left (1 : Fin Cert.KernelIdeal.S64x64.rank) a b
    _ _ rfl (ix2 (n0 := 64) (n1 := 32) k q)
    (fun c => match c with | ⟨0, _⟩ => rfl | ⟨1, _⟩ => rfl)

/-- Entry (k, q + 32) of [a | b] is b's entry (k, q). -/
theorem wcat64_right (a b : FVec Ideal S64x32 .f32) (k : Fin 64) (q : Fin 32) :
    wcat64 a b (ix2 (n0 := 64) (n1 := 64) k ⟨q.val + 32, by have := q.isLt; omega⟩)
      = b (ix2 (n0 := 64) (n1 := 32) k q) := by
  unfold wcat64
  exact concatenate_pair_apply_right (1 : Fin Cert.KernelIdeal.S64x64.rank) a b
    _ _ rfl rfl (ix2 (n0 := 64) (n1 := 32) k q)
    (fun c => match c with | ⟨0, _⟩ => fun _ => rfl | ⟨1, _⟩ => fun h => absurd rfl h)
    rfl

/-- The host's dot_general of a [50000, 128] by a [128, 64] array at (r, q): the sum over k of x[r, k] · w[k, q]. -/
theorem dot128_apply (x : FVec Ideal S50000x128 .f32) (w : FVec Ideal S128x64 .f32) (r : Fin 50000) (q : Fin 64) :
    Host.dotGeneral (F := Ideal) dot_S50000x128_S128x64_S50000x64_1_0_0_1_n_n none x w (ix2 (n0 := 50000) (n1 := 64) r q)
      = ∑ k : Fin 128, x (ix2 (n0 := 50000) (n1 := 128) r k) * w (ix2 (n0 := 128) (n1 := 64) k q) := by
  refine (Cert.ReferenceIdeal.Read.val_main_v0_apply x w (ix2 (n0 := 50000) (n1 := 64) r q)).trans ?_
  refine Finset.sum_congr rfl fun k _ => ?_
  refine congrArg₂ (· * ·) (congrArg x ?_) (congrArg w ?_)
  · exact funext fun c => Fin.ext (by match c with | ⟨0, _⟩ => rfl | ⟨1, _⟩ => rfl)
  · exact funext fun c => Fin.ext (by match c with | ⟨0, _⟩ => rfl | ⟨1, _⟩ => rfl)

/-- The projection by [a | b] at (r, q), q among the first 64 columns: the sum over k of x[r, k] · a[k, q]. -/
theorem proj128_left (x : FVec Ideal S50000x128 .f32) (a b : FVec Ideal S128x64 .f32) (r : Fin 50000) (q : Fin 64) :
    proj128 x (wcat128 a b) (ix2 (n0 := 50000) (n1 := 128) r ⟨q.val, by have := q.isLt; omega⟩)
      = ∑ k : Fin 128, x (ix2 (n0 := 50000) (n1 := 128) r k) * a (ix2 (n0 := 128) (n1 := 64) k q) := by
  unfold proj128
  refine Finset.sum_congr rfl fun k _ => ?_
  exact congrArg₂ (· * ·) rfl (wcat128_left a b k q)

/-- The same at (r, q + 64): the sum over k of x[r, k] · b[k, q]. -/
theorem proj128_right (x : FVec Ideal S50000x128 .f32) (a b : FVec Ideal S128x64 .f32) (r : Fin 50000) (q : Fin 64) :
    proj128 x (wcat128 a b) (ix2 (n0 := 50000) (n1 := 128) r ⟨q.val + 64, by have := q.isLt; omega⟩)
      = ∑ k : Fin 128, x (ix2 (n0 := 50000) (n1 := 128) r k) * b (ix2 (n0 := 128) (n1 := 64) k q) := by
  unfold proj128
  refine Finset.sum_congr rfl fun k _ => ?_
  exact congrArg₂ (· * ·) rfl (wcat128_right a b k q)

/-- The left 64 columns of x · [a | b] are x · a: the host's dot_general, entry by entry the same sum over k. -/
theorem colsL64_proj128 (x : FVec Ideal S50000x128 .f32) (a b : FVec Ideal S128x64 .f32) :
    colsL64 (proj128 x (wcat128 a b)) = Host.dotGeneral (F := Ideal) dot_S50000x128_S128x64_S50000x64_1_0_0_1_n_n none x a := by
  funext i
  obtain ⟨r, q, rfl⟩ : ∃ (r : Fin 50000) (q : Fin 64), i = ix2 r q := ⟨i 0, i 1, eq_ix2 i⟩
  rw [dot128_apply]
  unfold colsL64
  refine (extractStridedSlice_apply _ _ _ (ix2 (n0 := 50000) (n1 := 64) r q)
    (ix2 (n0 := 50000) (n1 := 128) r ⟨q.val, by have := q.isLt; omega⟩)
    (fun c => match c with | ⟨0, _⟩ => (Nat.zero_add _).symm | ⟨1, _⟩ => (Nat.zero_add _).symm)).trans ?_
  exact proj128_left x a b r q

/-- The right 64 columns of x · [a | b] are x · b. -/
theorem colsR64_proj128 (x : FVec Ideal S50000x128 .f32) (a b : FVec Ideal S128x64 .f32) :
    colsR64 (proj128 x (wcat128 a b)) = Host.dotGeneral (F := Ideal) dot_S50000x128_S128x64_S50000x64_1_0_0_1_n_n none x b := by
  funext i
  obtain ⟨r, q, rfl⟩ : ∃ (r : Fin 50000) (q : Fin 64), i = ix2 r q := ⟨i 0, i 1, eq_ix2 i⟩
  rw [dot128_apply]
  unfold colsR64
  refine (extractStridedSlice_apply _ _ _ (ix2 (n0 := 50000) (n1 := 64) r q)
    (ix2 (n0 := 50000) (n1 := 128) r ⟨q.val + 64, by have := q.isLt; omega⟩)
    (fun c => match c with | ⟨0, _⟩ => (Nat.zero_add _).symm | ⟨1, _⟩ => Nat.add_comm _ _)).trans ?_
  exact proj128_right x a b r q

/-- The host's dot_general of a [50000, 64] by a [64, 32] array at (r, q): the sum over k of x[r, k] · w[k, q]. -/
theorem dot64_apply (x : FVec Ideal S50000x64 .f32) (w : FVec Ideal S64x32 .f32) (r : Fin 50000) (q : Fin 32) :
    Host.dotGeneral (F := Ideal) dot_S50000x64_S64x32_S50000x32_1_0_0_1_n_n none x w (ix2 (n0 := 50000) (n1 := 32) r q)
      = ∑ k : Fin 64, x (ix2 (n0 := 50000) (n1 := 64) r k) * w (ix2 (n0 := 64) (n1 := 32) k q) := by
  simp only [Host.dotGeneral]
  rw [Ideal.dotGeneral_apply, ← Equiv.sum_comp (ValueIdx.contrEquiv1 dot_S50000x64_S64x32_S50000x32_1_0_0_1_n_n 64 rfl rfl).symm]
  refine Finset.sum_congr rfl fun k _ => ?_
  have hk := ValueIdx.contrEquiv1_symm_val dot_S50000x64_S64x32_S50000x32_1_0_0_1_n_n 64 rfl rfl k
  have el : dot_S50000x64_S64x32_S50000x32_1_0_0_1_n_n.lhsIdx (ix2 (n0 := 50000) (n1 := 32) r q)
      ((ValueIdx.contrEquiv1 dot_S50000x64_S64x32_S50000x32_1_0_0_1_n_n 64 rfl rfl).symm k)
      = ix2 (n0 := 50000) (n1 := 64) r k := funext fun c => Fin.ext (by
    match c with
    | ⟨0, _⟩ => exact Cert.ReferenceIdeal.Read.lhs_main_v90_0 _ _
    | ⟨1, _⟩ => exact (Cert.ReferenceIdeal.Read.lhs_main_v90_1 _ _).trans hk)
  have er : dot_S50000x64_S64x32_S50000x32_1_0_0_1_n_n.rhsIdx (ix2 (n0 := 50000) (n1 := 32) r q)
      ((ValueIdx.contrEquiv1 dot_S50000x64_S64x32_S50000x32_1_0_0_1_n_n 64 rfl rfl).symm k)
      = ix2 (n0 := 64) (n1 := 32) k q := funext fun c => Fin.ext (by
    match c with
    | ⟨0, _⟩ => exact (Cert.ReferenceIdeal.Read.rhs_main_v90_0 _ _).trans hk
    | ⟨1, _⟩ => exact Cert.ReferenceIdeal.Read.rhs_main_v90_1 _ _)
  rw [el, er]

/-- The projection by [a | b] at (r, q), q among the first 32 columns: the sum over k of x[r, k] · a[k, q]. -/
theorem proj64_left (x : FVec Ideal S50000x64 .f32) (a b : FVec Ideal S64x32 .f32) (r : Fin 50000) (q : Fin 32) :
    proj64 x (wcat64 a b) (ix2 (n0 := 50000) (n1 := 64) r ⟨q.val, by have := q.isLt; omega⟩)
      = ∑ k : Fin 64, x (ix2 (n0 := 50000) (n1 := 64) r k) * a (ix2 (n0 := 64) (n1 := 32) k q) := by
  unfold proj64
  refine Finset.sum_congr rfl fun k _ => ?_
  exact congrArg₂ (· * ·) rfl (wcat64_left a b k q)

/-- The same at (r, q + 32): the sum over k of x[r, k] · b[k, q]. -/
theorem proj64_right (x : FVec Ideal S50000x64 .f32) (a b : FVec Ideal S64x32 .f32) (r : Fin 50000) (q : Fin 32) :
    proj64 x (wcat64 a b) (ix2 (n0 := 50000) (n1 := 64) r ⟨q.val + 32, by have := q.isLt; omega⟩)
      = ∑ k : Fin 64, x (ix2 (n0 := 50000) (n1 := 64) r k) * b (ix2 (n0 := 64) (n1 := 32) k q) := by
  unfold proj64
  refine Finset.sum_congr rfl fun k _ => ?_
  exact congrArg₂ (· * ·) rfl (wcat64_right a b k q)

/-- The left 32 columns of x · [a | b] are x · a. -/
theorem colsL32_proj64 (x : FVec Ideal S50000x64 .f32) (a b : FVec Ideal S64x32 .f32) :
    colsL32 (proj64 x (wcat64 a b)) = Host.dotGeneral (F := Ideal) dot_S50000x64_S64x32_S50000x32_1_0_0_1_n_n none x a := by
  funext i
  obtain ⟨r, q, rfl⟩ : ∃ (r : Fin 50000) (q : Fin 32), i = ix2 r q := ⟨i 0, i 1, eq_ix2 i⟩
  rw [dot64_apply]
  unfold colsL32
  refine (extractStridedSlice_apply _ _ _ (ix2 (n0 := 50000) (n1 := 32) r q)
    (ix2 (n0 := 50000) (n1 := 64) r ⟨q.val, by have := q.isLt; omega⟩)
    (fun c => match c with | ⟨0, _⟩ => (Nat.zero_add _).symm | ⟨1, _⟩ => (Nat.zero_add _).symm)).trans ?_
  exact proj64_left x a b r q

/-- The right 32 columns of x · [a | b] are x · b. -/
theorem colsR32_proj64 (x : FVec Ideal S50000x64 .f32) (a b : FVec Ideal S64x32 .f32) :
    colsR32 (proj64 x (wcat64 a b)) = Host.dotGeneral (F := Ideal) dot_S50000x64_S64x32_S50000x32_1_0_0_1_n_n none x b := by
  funext i
  obtain ⟨r, q, rfl⟩ : ∃ (r : Fin 50000) (q : Fin 32), i = ix2 r q := ⟨i 0, i 1, eq_ix2 i⟩
  rw [dot64_apply]
  unfold colsR32
  refine (extractStridedSlice_apply _ _ _ (ix2 (n0 := 50000) (n1 := 32) r q)
    (ix2 (n0 := 50000) (n1 := 64) r ⟨q.val + 32, by have := q.isLt; omega⟩)
    (fun c => match c with | ⟨0, _⟩ => (Nat.zero_add _).symm | ⟨1, _⟩ => Nat.add_comm _ _)).trans ?_
  exact proj64_right x a b r q

/-! ## The normalise-add-bias step -/

/-- A per-node vector laid out as a column, read at row r. -/
theorem colOf_apply (g : FVec Ideal S50000 .f32) (r : Fin 50000) : colOf g (colIdx r) = g (ix1 (n := 50000) r) := by
  unfold colOf
  exact broadcastInDim_apply _ _ g (colIdx r) (ix1 (n := 50000) r) (fun a => match a with
    | ⟨0, _⟩ => by show r.val = if (50000 : Nat) = 1 then 0 else r.val; rw [if_neg (by decide)])

/-- A bias vector laid out as a row, read at column q. -/
theorem rowOf64_apply (b : FVec Ideal S64 .f32) (q : Fin 64) : rowOf64 b (rowIdx64 q) = b (ix1 (n := 64) q) := by
  unfold rowOf64
  refine shapeCast_apply b _ (rowIdx64 q) (ix1 (n := 64) q) ?_
  rw [Shape.rowMajor_val_one, Shape.rowMajor_val_two]
  show q.val = 0 * 64 + q.val
  omega

theorem rowOf32_apply (b : FVec Ideal S32 .f32) (q : Fin 32) : rowOf32 b (rowIdx32 q) = b (ix1 (n := 32) q) := by
  unfold rowOf32
  refine shapeCast_apply b _ (rowIdx32 q) (ix1 (n := 32) q) ?_
  rw [Shape.rowMajor_val_one, Shape.rowMajor_val_two]
  show q.val = 0 * 32 + q.val
  omega

/-- The clamped degree column read at row r: max(g r, 1). -/
theorem clampCol_apply (g : FVec Ideal S50000 .f32) (r : Fin 50000) :
    clampCol g (colIdx r) = FloatOps.maximumf (g (ix1 (n := 50000) r)) one := by
  unfold clampCol
  refine (broadcastInDim_apply _ _ _ (colIdx r) (ix1 (n := 50000) r) (fun a => match a with
    | ⟨0, _⟩ => by show r.val = if (50000 : Nat) = 1 then 0 else r.val; rw [if_neg (by decide)])).trans ?_
  refine congrArg (FloatOps.maximumf (g (ix1 (n := 50000) r))) ?_
  exact broadcastInDim_apply _ _ (constant (F := Ideal) S_ .f32 0x3F800000#32) _ (fun a => a.elim0) (fun a => a.elim0)

/-- The clamped degree column broadcast along the 64 features, at (r, q): max(g r, 1). -/
theorem clampBcast64_apply (g : FVec Ideal S50000 .f32) (r : Fin 50000) (q : Fin 64) :
    broadcastInDim S50000x64 ![0, 1] bcast_S50000x1_S50000x64_0_1 (clampCol g) (ix2 (n0 := 50000) (n1 := 64) r q)
      = FloatOps.maximumf (g (ix1 (n := 50000) r)) one := by
  refine (broadcastInDim_apply _ _ (clampCol g) _ (colIdx r) (fun a => match a with
    | ⟨0, _⟩ => by show r.val = if (50000 : Nat) = 1 then 0 else r.val; rw [if_neg (by decide)]
    | ⟨1, _⟩ => by show 0 = if (1 : Nat) = 1 then 0 else q.val; rw [if_pos rfl])).trans ?_
  exact clampCol_apply g r

/-- The same along the 32 features. -/
theorem clampBcast32_apply (g : FVec Ideal S50000 .f32) (r : Fin 50000) (q : Fin 32) :
    broadcastInDim S50000x32 ![0, 1] bcast_S50000x1_S50000x32_0_1 (clampCol g) (ix2 (n0 := 50000) (n1 := 32) r q)
      = FloatOps.maximumf (g (ix1 (n := 50000) r)) one := by
  refine (broadcastInDim_apply _ _ (clampCol g) _ (colIdx r) (fun a => match a with
    | ⟨0, _⟩ => by show r.val = if (50000 : Nat) = 1 then 0 else r.val; rw [if_neg (by decide)]
    | ⟨1, _⟩ => by show 0 = if (1 : Nat) = 1 then 0 else q.val; rw [if_pos rfl])).trans ?_
  exact clampCol_apply g r

/-- The bias made a row and broadcast along the nodes, at (r, q): bias q. -/
theorem biasBcast64_apply (bias : FVec Ideal S64 .f32) (r : Fin 50000) (q : Fin 64) :
    broadcastInDim S50000x64 ![0, 1] bcast_S1x64_S50000x64_0_1 (broadcastInDim S1x64 ![1] bcast_S64_S1x64_1 bias)
        (ix2 (n0 := 50000) (n1 := 64) r q)
      = bias (ix1 (n := 64) q) := by
  refine (broadcastInDim_apply _ _ _ _ (rowIdx64 q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ _ bias (rowIdx64 q) (ix1 (n := 64) q) (fun a => match a with
    | ⟨0, _⟩ => by show q.val = if (64 : Nat) = 1 then 0 else q.val; rw [if_neg (by decide)])

theorem biasBcast32_apply (bias : FVec Ideal S32 .f32) (r : Fin 50000) (q : Fin 32) :
    broadcastInDim S50000x32 ![0, 1] bcast_S1x32_S50000x32_0_1 (broadcastInDim S1x32 ![1] bcast_S32_S1x32_1 bias)
        (ix2 (n0 := 50000) (n1 := 32) r q)
      = bias (ix1 (n := 32) q) := by
  refine (broadcastInDim_apply _ _ _ _ (rowIdx32 q) (fun a => match a with
    | ⟨0, _⟩ => by show 0 = if (1 : Nat) = 1 then 0 else r.val; rw [if_pos rfl]
    | ⟨1, _⟩ => by show q.val = if (32 : Nat) = 1 then 0 else q.val; rw [if_neg (by decide)])).trans ?_
  exact broadcastInDim_apply _ _ bias (rowIdx32 q) (ix1 (n := 32) q) (fun a => match a with
    | ⟨0, _⟩ => by show q.val = if (32 : Nat) = 1 then 0 else q.val; rw [if_neg (by decide)])

/-- The zero scalar broadcast to [50000, 64], at any index: zero. -/
theorem zeros64_apply (i : S50000x64.Idx) :
    broadcastInDim S50000x64 ![] bcast_S_S50000x64 (constant (F := Ideal) S_ .f32 0x00000000#32) i = zero :=
  broadcastInDim_apply _ _ (constant (F := Ideal) S_ .f32 0x00000000#32) i (fun a => a.elim0) (fun a => a.elim0)

/-- The kernel's step over degree columns and a bias row is the reference's step over broadcast vectors. -/
theorem mixRelu64_ref (s1 s2 : FVec Ideal S50000x64 .f32) (g1 g2 : FVec Ideal S50000 .f32) (bias : FVec Ideal S64 .f32) :
    mixRelu64 s1 (colOf g1) s2 (colOf g2) (rowOf64 bias) = refMixRelu64 s1 g1 s2 g2 bias := by
  funext i
  obtain ⟨r, q, rfl⟩ : ∃ (r : Fin 50000) (q : Fin 64), i = ix2 r q := ⟨i 0, i 1, eq_ix2 i⟩
  unfold refMixRelu64
  show FloatOps.maximumf (mixAt (s1 (ix2 r q)) (colOf g1 (colIdx r)) (s2 (ix2 r q)) (colOf g2 (colIdx r))
        (rowOf64 bias (rowIdx64 q))) zero
    = FloatOps.maximumf (FloatOps.addf (FloatOps.addf
        (FloatOps.hostDivf (s1 (ix2 r q)) (broadcastInDim S50000x64 ![0, 1] _ (clampCol g1) (ix2 (n0 := 50000) (n1 := 64) r q)))
        (FloatOps.hostDivf (s2 (ix2 r q)) (broadcastInDim S50000x64 ![0, 1] _ (clampCol g2) (ix2 (n0 := 50000) (n1 := 64) r q))))
        (broadcastInDim S50000x64 ![0, 1] _ (broadcastInDim S1x64 ![1] _ bias) (ix2 (n0 := 50000) (n1 := 64) r q)))
      (broadcastInDim S50000x64 ![] _ (constant (F := Ideal) S_ .f32 0x00000000#32) (ix2 (n0 := 50000) (n1 := 64) r q))
  rw [colOf_apply, colOf_apply, rowOf64_apply, clampBcast64_apply, clampBcast64_apply, biasBcast64_apply, zeros64_apply]
  rfl

/-- The output layer's step, likewise, without the rectifier. -/
theorem mix32_ref (s1 s2 : FVec Ideal S50000x32 .f32) (g1 g2 : FVec Ideal S50000 .f32) (bias : FVec Ideal S32 .f32) :
    mix32 s1 (colOf g1) s2 (colOf g2) (rowOf32 bias) = refMix32 s1 g1 s2 g2 bias := by
  funext i
  obtain ⟨r, q, rfl⟩ : ∃ (r : Fin 50000) (q : Fin 32), i = ix2 r q := ⟨i 0, i 1, eq_ix2 i⟩
  unfold refMix32
  show mixAt (s1 (ix2 r q)) (colOf g1 (colIdx r)) (s2 (ix2 r q)) (colOf g2 (colIdx r)) (rowOf32 bias (rowIdx32 q))
    = FloatOps.addf (FloatOps.addf
        (FloatOps.hostDivf (s1 (ix2 r q)) (broadcastInDim S50000x32 ![0, 1] _ (clampCol g1) (ix2 (n0 := 50000) (n1 := 32) r q)))
        (FloatOps.hostDivf (s2 (ix2 r q)) (broadcastInDim S50000x32 ![0, 1] _ (clampCol g2) (ix2 (n0 := 50000) (n1 := 32) r q))))
        (broadcastInDim S50000x32 ![0, 1] _ (broadcastInDim S1x32 ![1] _ bias) (ix2 (n0 := 50000) (n1 := 32) r q))
  rw [colOf_apply, colOf_apply, rowOf32_apply, clampBcast32_apply, clampBcast32_apply, biasBcast32_apply]
  rfl

end Cert.Rgcn

end
-- ==== Proof.Layers.lean ====
/-
  The two programs' results are one function of the arguments. At the ideal values a column half of x · [W_a | W_b]
  is x · W_a resp. x · W_b entry by entry (the same sum over the contraction index), and the kernel's normalise-add-bias
  step over degree columns and a bias row is the reference's over broadcast vectors; the gathers and sums by
  destination are the same functions on both sides and are never opened.
-/
import proofs.«126396_j55757265437245_2_alg».proof.Proof.LayerTerms
import proofs.«126396_j55757265437245_2_alg».proof.Proof.Bridge

noncomputable section

namespace Cert.Rgcn

open Idealize.ShloMosaic Cert.ReferenceIdeal Cert.ReferenceIdeal.Gen

variable (x0 x1 : FVec Ideal S50000x128 .f32) (e2 e3 e4 e5 e6 e7 e8 e9 : IVec S600000 32)
  (w10 w11 w12 w13 : FVec Ideal S128x64 .f32) (b14 b15 : FVec Ideal S64 .f32)
  (w16 w17 w18 w19 : FVec Ideal S64x32 .f32) (b20 b21 : FVec Ideal S32 .f32)
  (hd hg : FVec Ideal S50000x64 .f32)

/-! ## One function -/

theorem kHidD_eq : kHidD x0 x1 e2 e3 e6 e7 w10 w11 w12 w13 b14 = rHidD x0 x1 e2 e3 e6 e7 w10 w12 b14 := by
  unfold kHidD rHidD
  rw [colsL64_proj128, colsL64_proj128, mixRelu64_ref]

theorem kHidG_eq : kHidG x0 x1 e4 e5 e8 e9 w10 w11 w12 w13 b15 = rHidG x0 x1 e4 e5 e8 e9 w11 w13 b15 := by
  unfold kHidG rHidG
  rw [colsR64_proj128, colsR64_proj128, mixRelu64_ref]

theorem kOutD_eq : kOutD e2 e3 e6 e7 w16 w17 w18 w19 b20 hd hg = rOutD e2 e3 e6 e7 w16 w18 b20 hd hg := by
  unfold kOutD rOutD
  rw [colsL32_proj64, colsL32_proj64, mix32_ref]

theorem kOutG_eq : kOutG e4 e5 e8 e9 w16 w17 w18 w19 b21 hd hg = rOutG e4 e5 e8 e9 w17 w19 b21 hd hg := by
  unfold kOutG rOutG
  rw [colsR32_proj64, colsR32_proj64, mix32_ref]

/-- The two programs' results are one function of the arguments. -/
theorem kernelOut_eq_refOut :
    kernelOut x0 x1 e2 e3 e4 e5 e6 e7 e8 e9 w10 w11 w12 w13 b14 b15 w16 w17 w18 w19 b20 b21
      = refOut x0 x1 e2 e3 e4 e5 e6 e7 e8 e9 w10 w11 w12 w13 b14 b15 w16 w17 w18 w19 b20 b21 := by
  unfold kernelOut refOut
  rw [kHidD_eq, kHidG_eq, kOutD_eq, kOutG_eq]

end Cert.Rgcn

end
-- ==== Proof.lean ====
/-
  The certificate: a two-layer graph convolution over two node types (drugs, genes) and four relations, as a program of
  eight kernel regions among host operations, against its plain reference — equal results at the ideal values
  (extended reals), entry by entry.

  Each layer computes, per destination node type, act( S_a / max(deg_a, 1) + S_b / max(deg_b, 1) + bias ), S_r the sum
  over relation r's edges landing on a node of the projected features x · W_r of the edge's source, deg_r the number of
  such edges. The kernel program projects a node type's features by its two outgoing relations' weights at once,
  x · [W_a | W_b], in one region, takes column halves on the host, and fuses the division, the sum, the bias and the
  rectifier in a second region over degree columns [n, 1] and a bias row [1, d]; the reference projects by each matrix
  separately and broadcasts vectors. The two are one function of the arguments: a column half of x · [W_a | W_b] is
  x · W_a resp. x · W_b (the same sum over the contraction index, entry by entry; the bf16 casts and the zero accumulator
  are nothing at the ideal values), and reading a column or a row at an index is reading the broadcast. No law of the
  extended reals beyond that is used: neither side regroups a sum or moves a factor, so the finiteness of the inputs is
  never opened. Gathering by source and summing by destination are the same host functions on both sides.

  What each region leaves in its output array is read off the regions' frame block by block (ProjIn, ProjHidden, MixHidden,
  MixOut and their twins); the contents of every buffer at every boundary between the program's stretches follow by
  composing those with the host operations (RunHidden, RunOut, KRun); the reference's run and its term are the
  generated modules' (RefSide); Layers joins the two.
-/
import proofs.«126396_j55757265437245_2_alg».proof.Defs
import proofs.«126396_j55757265437245_2_alg».proof.Proof.Gen.Kernel
import proofs.«126396_j55757265437245_2_alg».proof.Proof.Gen.Kernel.Frame
import proofs.«126396_j55757265437245_2_alg».proof.Proof.Gen.KernelIdeal
import proofs.«126396_j55757265437245_2_alg».proof.Proof.Gen.KernelIdeal.Frame
import proofs.«126396_j55757265437245_2_alg».proof.Proof.Gen.ReferenceIdeal
import proofs.«126396_j55757265437245_2_alg».proof.Proof.Gen.ReferenceIdeal.Run
import proofs.«126396_j55757265437245_2_alg».proof.Proof.Gen.Pre_finite_inputs
import proofs.«126396_j55757265437245_2_alg».proof.Proof.KRun
import proofs.«126396_j55757265437245_2_alg».proof.Proof.RefSide
import proofs.«126396_j55757265437245_2_alg».proof.Proof.Layers
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_k : Cert.frame_Kernel := fun m ρ _ => Cert.Kernel.Gen.frame m ρ

/-- The idealized program runs and leaves its arguments as they were. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing it must account for. -/
theorem preserves : Cert.preserves_Kernel_KernelIdeal := trivial

/-- From memories agreeing on the arguments both idealized programs end with the same result: the kernel program's
    function of the arguments (`kernelOut`), which is the reference's (`refOut`). -/
theorem algebraic : Cert.algebraic_KernelIdeal_ReferenceIdeal := by
  intro m ρ m' ρ' _ hagree
  refine ⟨fun c => Cert.Rgcn.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)), Cert.Rgcn.Run.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21⟩ := hagree c
  rw [Cert.Rgcn.ref_result, h0, h1, h2, h3, h4, h5, h6, h7, h8, h9, h10, h11, h12, h13, h14, h15, h16, h17, h18, h19, h20, h21]
  exact (Cert.Rgcn.kernelOut_eq_refOut _ _ _ _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
